-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1408 : Shape := ⟨2, ![4096, 1408]⟩
abbrev S4096x4096 : Shape := ⟨2, ![4096, 4096]⟩
abbrev S1408x256 : Shape := ⟨2, ![1408, 256]⟩
abbrev S1x256 : Shape := ⟨2, ![1, 256]⟩
abbrev S256x128 : Shape := ⟨2, ![256, 128]⟩
abbrev S1x128 : Shape := ⟨2, ![1, 128]⟩
abbrev S_ : Shape := ⟨0, ![]⟩

class Facts : Prop where
  bitsLt_bf16_f32 : FTy.bits .bf16 < FTy.bits .f32
  bcast_S_S4096x1408 : S_.BroadcastsInDim S4096x1408 (![] : Fin 0 → Fin S4096x1408.rank)
  reducesTo_S4096x1408_S_d0_1 : S4096x1408.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1408x256 : S_.BroadcastsInDim S1408x256 (![] : Fin 0 → Fin S1408x256.rank)
  reducesTo_S1408x256_S_d0_1 : S1408x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S256x128 .bf16) (main_arg5 : FVec F S1x128 .f32) (main_v16 : IVec S_ 1) (main_v17 : FVec F S1x256 .f32) : IVec S_ 1 :=
  let main_cst_4 : FVec F S_ .f32 := constant S_ .f32 0x7F800000#32
  let main_v18 : FVec F S1x256 .f32 := broadcastInDim S1x256 ![] bcast_S_S1x256 main_cst_4
  let main_v19 : IVec S1x256 1 := cmpf .olt main_v17 main_v18
  let main_c_5 : IVec S_ 1 := constantI S_ 1 1#1
  let main_v20 : IVec S_ 1 := (fun x v => Host.reduce IntOp.andi x v reducesTo_S1x256_S_d0_1 h_S_) main_v19 main_c_5
  let main_v21 : IVec S_ 1 := andi main_v16 main_v20
  let main_v22 : FVec F S256x128 .f32 := (extf .f32 · bitsLt_bf16_f32) main_arg4
  let main_v23 : FVec F S256x128 .f32 := Host.absf main_v22
  let main_cst_6 : FVec F S_ .f32 := constant S_ .f32 0x7F800000#32
  let main_v24 : FVec F S256x128 .f32 := broadcastInDim S256x128 ![] bcast_S_S256x128 main_cst_6
  let main_v25 : IVec S256x128 1 := cmpf .olt main_v23 main_v24
  let main_c_7 : IVec S_ 1 := constantI S_ 1 1#1
  let main_v26 : IVec S_ 1 := (fun x v => Host.reduce IntOp.andi x v reducesTo_S256x128_S_d0_1 h_S_) main_v25 main_c_7
  let main_v27 : IVec S_ 1 := andi main_v21 main_v26
  let main_v28 : FVec F S1x128 .f32 := Host.absf main_arg5
  let main_cst_8 : FVec F S_ .f32 := constant S_ .f32 0x7F800000#32
  let main_v29 : FVec F S1x128 .f32 := broadcastInDim S1x128 ![] bcast_S_S1x128 main_cst_8
  let main_v30 : IVec S1x128 1 := cmpf .olt main_v28 main_v29
  let main_c_9 : IVec S_ 1 := constantI S_ 1 1#1
  let main_v31 : IVec S_ 1 := (fun x v => Host.reduce IntOp.andi x v reducesTo_S1x128_S_d0_1 h_S_) main_v30 main_c_9
  let main_v32 : IVec S_ 1 := andi main_v27 main_v31
  main_v32

def fn {F : FTy → Type} [FloatOps F] (main_arg0 : FVec F S4096x1408 .bf16) (main_arg1 : FVec F S4096x4096 .bf16) (main_arg2 : FVec F S1408x256 .bf16) (main_arg3 : FVec F S1x256 .f32) (main_arg4 : FVec F S256x128 .bf16) (main_arg5 : FVec F S1x128 .f32) : IVec S_ 1 :=
  let main_v0 : FVec F S4096x1408 .f32 := (extf .f32 · bitsLt_bf16_f32) main_arg0
  let main_v1 : FVec F S4096x1408 .f32 := Host.absf main_v0
  let main_cst : FVec F S_ .f32 := constant S_ .f32 0x7F800000#32
  let main_v2 : FVec F S4096x1408 .f32 := broadcastInDim S4096x1408 ![] bcast_S_S4096x1408 main_cst
  let main_v3 : IVec S4096x1408 1 := cmpf .olt main_v1 main_v2
  let main_c : IVec S_ 1 := constantI S_ 1 1#1
  let main_v4 : IVec S_ 1 := (fun x v => Host.reduce IntOp.andi x v reducesTo_S4096x1408_S_d0_1 h_S_) main_v3 main_c
  let main_v5 : FVec F S4096x4096 .f32 := (extf .f32 · bitsLt_bf16_f32) main_arg1
  let main_v6 : FVec F S4096x4096 .f32 := Host.absf main_v5
  let main_cst_0 : FVec F S_ .f32 := constant S_ .f32 0x7F800000#32
  let main_v7 : FVec F S4096x4096 .f32 := broadcastInDim S4096x4096 ![] bcast_S_S4096x4096 main_cst_0
  let main_v8 : IVec S4096x4096 1 := cmpf .olt main_v6 main_v7
  let main_c_1 : IVec S_ 1 := constantI S_ 1 1#1
  let main_v9 : IVec S_ 1 := (fun x v => Host.reduce IntOp.andi x v reducesTo_S4096x4096_S_d0_1 h_S_) main_v8 main_c_1
  let main_v10 : IVec S_ 1 := andi main_v4 main_v9
  let main_v11 : FVec F S1408x256 .f32 := (extf .f32 · bitsLt_bf16_f32) main_arg2
  let main_v12 : FVec F S1408x256 .f32 := Host.absf main_v11
  let main_cst_2 : FVec F S_ .f32 := constant S_ .f32 0x7F800000#32
  let main_v13 : FVec F S1408x256 .f32 := broadcastInDim S1408x256 ![] bcast_S_S1408x256 main_cst_2
  let main_v14 : IVec S1408x256 1 := cmpf .olt main_v12 main_v13
  let main_c_3 : IVec S_ 1 := constantI S_ 1 1#1
  let main_v15 : IVec S_ 1 := (fun x v => Host.reduce IntOp.andi x v reducesTo_S1408x256_S_d0_1 h_S_) main_v14 main_c_3
  let main_v16 : IVec S_ 1 := andi main_v10 main_v15
  let main_v17 : FVec F S1x256 .f32 := Host.absf main_arg3
  fn_part1 (F := F) main_arg4 main_arg5 main_v16 main_v17
-- ==== Kernel.lean ====
abbrev S4096x1408 : Shape := ⟨2, ![4096, 1408]⟩
abbrev S4096x4096 : Shape := ⟨2, ![4096, 4096]⟩
abbrev S1408x256 : Shape := ⟨2, ![1408, 256]⟩
abbrev S1x256 : Shape := ⟨2, ![1, 256]⟩
abbrev S256x128 : Shape := ⟨2, ![256, 128]⟩
abbrev S1x128 : Shape := ⟨2, ![1, 128]⟩
abbrev S4096x256 : Shape := ⟨2, ![4096, 256]⟩
abbrev S512x1408 : Shape := ⟨2, ![512, 1408]⟩
abbrev S512x256 : Shape := ⟨2, ![512, 256]⟩
abbrev S4096x128 : Shape := ⟨2, ![4096, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S4096x40 : Shape := ⟨2, ![4096, 40]⟩

abbrev nBuf : Space → Nat
  | .hbm => 9
  | .vmem => 15
  | .smem => 0
  | _ => 0

abbrev bufTy : (tb : Table) → Fin (tcTables nBuf tb) → BufTy
  | .hbm, ⟨0, _⟩ => ⟨S4096x1408, .bf16⟩
  | .hbm, ⟨1, _⟩ => ⟨S4096x4096, .bf16⟩
  | .hbm, ⟨2, _⟩ => ⟨S1408x256, .bf16⟩
  | .hbm, ⟨3, _⟩ => ⟨S1x256, .f32⟩
  | .hbm, ⟨4, _⟩ => ⟨S256x128, .bf16⟩
  | .hbm, ⟨5, _⟩ => ⟨S1x128, .f32⟩
  | .hbm, ⟨6, _⟩ => ⟨S4096x256, .bf16⟩
  | .hbm, ⟨7, _⟩ => ⟨S4096x128, .f32⟩
  | .hbm, ⟨8, _⟩ => ⟨S4096x40, .f32⟩
  | .local _ .vmem, ⟨0, _⟩ => ⟨S512x1408, .bf16⟩
  | .local _ .vmem, ⟨1, _⟩ => ⟨S512x1408, .bf16⟩
  | .local _ .vmem, ⟨2, _⟩ => ⟨S1408x256, .bf16⟩
  | .local _ .vmem, ⟨3, _⟩ => ⟨S512x256, .bf16⟩
  | .local _ .vmem, ⟨4, _⟩ => ⟨S512x256, .bf16⟩
  | .local _ .vmem, ⟨5, _⟩ => ⟨S512x4096, .bf16⟩
  | .local _ .vmem, ⟨6, _⟩ => ⟨S512x4096, .bf16⟩
  | .local _ .vmem, ⟨7, _⟩ => ⟨S4096x256, .bf16⟩
  | .local _ .vmem, ⟨8, _⟩ => ⟨S1x256, .f32⟩
  | .local _ .vmem, ⟨9, _⟩ => ⟨S256x128, .bf16⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S4096x4096, .bf16⟩
  | .local _ .vmem, ⟨14, _⟩ => ⟨S4096x128, .bf16⟩
  | _, _ => ⟨S4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def k1_cond1 (i : grid1.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_3 : Index := 0#32
  ![v8.toNat, 0]
def k1_off2 (i : grid1.Coords) : Fin 2 → Nat :=
  let arg0 : BitVec 32 := BitVec.ofNat 32 (i 0).val
  let c512_i32_12 : BitVec 32 := 512#32
  let v24 : BitVec 32 := Scalar.muli arg0 c512_i32_12
  let v25 : Index := Scalar.indexCast v24
  let c0_13 : Index := 0#32
  ![v25.toNat, 0]
def k1_cond2 (i : grid1.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k1_off3 (i : grid1.Coords) : Fin 2 → Nat :=
  let arg0 : BitVec 32 := BitVec.ofNat 32 (i 0).val
  let c8_i32_2 : BitVec 32 := 8#32
  let v6 : BitVec 32 := Scalar.subi arg0 c8_i32_2
  let c512_i32 : BitVec 32 := 512#32
  let v7 : BitVec 32 := Scalar.muli v6 c512_i32
  let v8 : Index := Scalar.indexCast v7
  let c0 : Index := 0#32
  ![v8.toNat, 0]
def cc1_transform_0 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S512x1408_S512x1408_0_0 : ∀ a, (![0, 0] : Fin 2 → Nat) a + S512x1408.size a ≤ S512x1408.size a
  h_S512x1408 : 0 < S512x1408.numel
  inb_S1408x256_S1408x256_0_0 : ∀ a, (![0, 0] : Fin 2 → Nat) a + S1408x256.size a ≤ S1408x256.size a
  h_S1408x256 : 0 < S1408x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S256x128_S256x128_0_0 : ∀ a, (![0, 0] : Fin 2 → Nat) a + S256x128.size a ≤ S256x128.size a
  h_S256x128 : 0 < S256x128.numel
  h_S512x128 : 0 < S512x128.numel
  shapeCasts_S512x128_S512x128 : S512x128.ShapeCasts S512x128
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  broadcasts_S1x128_S512x128 : S1x128.Broadcasts S512x128
  iota_S512x128_d1_w32 : S512x128.Iotas .tc 32 [1]
  reduces_S512x128_S512 : S512x128.Reduces [1] S512
  shapeCasts_S512_S512x1 : S512.ShapeCasts S512x1
  broadcasts_S512x1_S512x128 : S512x1.Broadcasts S512x128
  inb_S512x128_S512x128_0_0 : ∀ a, (![0, 0] : Fin 2 → Nat) a + S512x128.size a ≤ S512x128.size a
  slices_S4096x128_S4096x40_0_0 : S4096x128.Slices ![0, 0] S4096x40
  dot_S512x1408_S1408x256_S512x256_1_0_0_1_n_n_wf : DotDims.WF S512x1408 S1408x256 S512x256 [1] [0] [0] [1] [] []
  dot_S512x4096_S4096x256_S512x256_1_0_0_1_n_n_wf : DotDims.WF S512x4096 S4096x256 S512x256 [1] [0] [0] [1] [] []
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1408.size a ≤ S4096x1408.size a
  hwx0_0 : ∀ i : grid0.Coords, EltTy.bits .bf16 = 32 ∨ (Rect.block (s := S4096x1408) S512x1408.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1408x256.size a ≤ S1408x256.size a
  hwx0_1 : ∀ i : grid0.Coords, EltTy.bits .bf16 = 32 ∨ (Rect.block (s := S1408x256) S1408x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hrank1 : 0 < grid1.rank
  k1_off1_inb : ∀ i : grid1.Coords, ∀ (k1_h1 : k1_cond1 i = 1#1), ∀ a, (k1_off1 i) a + S512x4096.size a ≤ S4096x4096.size a
  k1_off1_packedbf16 : ∀ i : grid1.Coords, ∀ (k1_h1 : k1_cond1 i = 1#1), (Rect.unit (s := S4096x4096) (k1_off1 i) S512x4096.size (k1_off1_inb i k1_h1)).PackedRows (EltTy.packing .bf16)
  k1_off2_inb : ∀ i : grid1.Coords, ∀ (k1_h1 : k1_cond1 i = 1#1), ∀ a, (k1_off2 i) a + S512x128.size a ≤ S4096x128.size a
  k1_off2_packedbf16 : ∀ i : grid1.Coords, ∀ (k1_h1 : k1_cond1 i = 1#1), (Rect.unit (s := S4096x128) (k1_off2 i) S512x128.size (k1_off2_inb i k1_h1)).PackedRows (EltTy.packing .bf16)
  k1_off3_inb : ∀ i : grid1.Coords, ∀ (k1_h2 : k1_cond2 i = 1#1), ∀ a, (k1_off3 i) a + S512x4096.size a ≤ S4096x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S4096x128.size a
  hwx1_5 : ∀ i : grid1.Coords, EltTy.bits .f32 = 32 ∨ (Rect.block (s := S4096x128) S512x128.size (cc1_transform_5 i) (hinb1_5 i)).WholeWords (EltTy.packing .f32)

variable [Facts₀]

def dot_S512x1408_S1408x256_S512x256_1_0_0_1_n_n : DotDims S512x1408 S1408x256 S512x256 where
  lhsContracting := [1]
  rhsContracting := [0]
  lhsNonContracting := [0]
  rhsNonContracting := [1]
  lhsBatch := []
  rhsBatch := []
  wf := dot_S512x1408_S1408x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x1408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1408x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x1408 : Shape := ⟨2, ![4096, 1408]⟩
abbrev S4096x4096 : Shape := ⟨2, ![4096, 4096]⟩
abbrev S1408x256 : Shape := ⟨2, ![1408, 256]⟩
abbrev S1x256 : Shape := ⟨2, ![1, 256]⟩
abbrev S256x128 : Shape := ⟨2, ![256, 128]⟩
abbrev S1x128 : Shape := ⟨2, ![1, 128]⟩
abbrev S4096x256 : Shape := ⟨2, ![4096, 256]⟩
abbrev S512x1408 : Shape := ⟨2, ![512, 1408]⟩
abbrev S512x256 : Shape := ⟨2, ![512, 256]⟩
abbrev S4096x128 : Shape := ⟨2, ![4096, 128]⟩
abbrev S512x1024 : Shape := ⟨2, ![512, 1024]⟩
abbrev S512x128 : Shape := ⟨2, ![512, 128]⟩
abbrev S1024x256 : Shape := ⟨2, ![1024, 256]⟩
abbrev S1024x128 : Shape := ⟨2, ![1024, 128]⟩
abbrev S512 : Shape := ⟨1, ![512]⟩
abbrev S512x1 : Shape := ⟨2, ![512, 1]⟩
abbrev S4096x40 : Shape := ⟨2, ![4096, 40]⟩

abbrev nBuf : Space → Nat
  | .hbm => 10
  | .vmem => 20
  | .smem => 0
  | _ => 0

abbrev bufTy : (tb : Table) → Fin (tcTables nBuf tb) → BufTy
  | .hbm, ⟨0, _⟩ => ⟨S4096x1408, .bf16⟩
  | .hbm, ⟨1, _⟩ => ⟨S4096x4096, .bf16⟩
  | .hbm, ⟨2, _⟩ => ⟨S1408x256, .bf16⟩
  | .hbm, ⟨3, _⟩ => ⟨S1x256, .f32⟩
  | .hbm, ⟨4, _⟩ => ⟨S256x128, .bf16⟩
  | .hbm, ⟨5, _⟩ => ⟨S1x128, .f32⟩
  | .hbm, ⟨6, _⟩ => ⟨S4096x256, .bf16⟩
  | .hbm, ⟨7, _⟩ => ⟨S4096x128, .bf16⟩
  | .hbm, ⟨8, _⟩ => ⟨S4096x128, .f32⟩
  | .hbm, ⟨9, _⟩ => ⟨S4096x40, .f32⟩
  | .local _ .vmem, ⟨0, _⟩ => ⟨S512x1408, .bf16⟩
  | .local _ .vmem, ⟨1, _⟩ => ⟨S512x1408, .bf16⟩
  | .local _ .vmem, ⟨2, _⟩ => ⟨S1408x256, .bf16⟩
  | .local _ .vmem, ⟨3, _⟩ => ⟨S512x256, .bf16⟩
  | .local _ .vmem, ⟨4, _⟩ => ⟨S512x256, .bf16⟩
  | .local _ .vmem, ⟨5, _⟩ => ⟨S512x1024, .bf16⟩
  | .local _ .vmem, ⟨6, _⟩ => ⟨S512x1024, .bf16⟩
  | .local _ .vmem, ⟨7, _⟩ => ⟨S4096x256, .bf16⟩
  | .local _ .vmem, ⟨8, _⟩ => ⟨S1x256, .f32⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | .local _ .vmem, ⟨12, _⟩ => ⟨S512x256, .f32⟩
  | .local _ .vmem, ⟨13, _⟩ => ⟨S512x1024, .bf16⟩
  | .local _ .vmem, ⟨14, _⟩ => ⟨S512x1024, .bf16⟩
  | .local _ .vmem, ⟨15, _⟩ => ⟨S4096x128, .bf16⟩
  | .local _ .vmem, ⟨16, _⟩ => ⟨S1x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | _, _ => ⟨S4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_4 : Index := 0#32
  ![v7.toNat, 0]
def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_4 : Index := 0#32
  ![v7.toNat, 0]
def k2_cond2 (i : grid2.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S512x1408_S512x1408_0_0 : ∀ a, (![0, 0] : Fin 2 → Nat) a + S512x1408.size a ≤ S512x1408.size a
  h_S512x1408 : 0 < S512x1408.numel
  inb_S1408x256_S1408x256_0_0 : ∀ a, (![0, 0] : Fin 2 → Nat) a + S1408x256.size a ≤ S1408x256.size a
  h_S1408x256 : 0 < S1408x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S512x256_S512x256 : S512x256.ShapeCasts S512x256
  inb_S512x1024_S512x1024_0_0 : ∀ a, (![0, 0] : Fin 2 → Nat) a + S512x1024.size a ≤ S512x1024.size a
  h_S512x1024 : 0 < S512x1024.numel
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S256x128_S256x128_0_0 : ∀ a, (![0, 0] : Fin 2 → Nat) a + S256x128.size a ≤ S256x128.size a
  h_S256x128 : 0 < S256x128.numel
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S512x128_S512x128 : S512x128.ShapeCasts S512x128
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  broadcasts_S1x128_S512x128 : S1x128.Broadcasts S512x128
  iota_S512x128_d1_w32 : S512x128.Iotas .tc 32 [1]
  reduces_S512x128_S512 : S512x128.Reduces [1] S512
  shapeCasts_S512_S512x1 : S512.ShapeCasts S512x1
  broadcasts_S512x1_S512x128 : S512x1.Broadcasts S512x128
  slices_S4096x128_S4096x40_0_0 : S4096x128.Slices ![0, 0] S4096x40
  dot_S512x1408_S1408x256_S512x256_1_0_0_1_n_n_wf : DotDims.WF S512x1408 S1408x256 S512x256 [1] [0] [0] [1] [] []
  dot_S512x1024_S1024x256_S512x256_1_0_0_1_n_n_wf : DotDims.WF S512x1024 S1024x256 S512x256 [1] [0] [0] [1] [] []
  dot_S512x256_S256x128_S512x128_1_0_0_1_n_n_wf : DotDims.WF S512x256 S256x128 S512x128 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1408.size a ≤ S4096x1408.size a
  hwx0_0 : ∀ i : grid0.Coords, EltTy.bits .bf16 = 32 ∨ (Rect.block (s := S4096x1408) S512x1408.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1408x256.size a ≤ S1408x256.size a
  hwx0_1 : ∀ i : grid0.Coords, EltTy.bits .bf16 = 32 ∨ (Rect.block (s := S1408x256) S1408x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .bf16 = 32 ∨ (Rect.block (s := S4096x128) S512x128.size (cc1_transform_4 i) (hinb1_4 i)).WholeWords (EltTy.packing .bf16)
  hrank2 : 0 < grid2.rank
  k2_mult1_dvd : ∀ i : grid2.Coords, 1024 ∣ (k2_mult1 i).toNat
  k2_off1_inb : ∀ i : grid2.Coords, ∀ a, (k2_off1 i) a + S1024x128.size a ≤ S4096x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x4096.size a
  hwx2_0 : ∀ i : grid2.Coords, EltTy.bits .bf16 = 32 ∨ (Rect.block (s := S4096x4096) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .bf16 = 32 ∨ (Rect.block (s := S4096x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)

variable [Facts₀]

def dot_S512x1408_S1408x256_S512x256_1_0_0_1_n_n : DotDims S512x1408 S1408x256 S512x256 where
  lhsContracting := [1]
  rhsContracting := [0]
  lhsNonContracting := [0]
  rhsNonContracting := [1]
  lhsBatch := []
  rhsBatch := []
  wf := dot_S512x1408_S1408x256_S512x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x1408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1408x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== Proof.K.Region0.lean ====
/-
  Region 0 of the program: the row-blocked product x · W1. The grid has 8 points; point t reads rows
  512·t … 512·t+511 of x (window 0), the whole of W1 (window 1, fetched once), and writes the 512 × 256
  block of the product (window 2), rounded to the output's format. Stated at a parameter V, the contents
  of the core's buffers when the region is entered.
-/
import proofs.«145670_g2000303783144872_pallasbulk_1002_5_alg».proof.Proof.Gen.Kernel.Launch
import proofs.«145670_g2000303783144872_pallasbulk_1002_5_alg».proof.Proof.Gen.Kernel.Skeleton
import proofs.«145670_g2000303783144872_pallasbulk_1002_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x at point t are in the staging buffer of window 0 whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- W1, fetched at the first point only, is in the staging buffer of window 1 at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S512x1408 := Rect.unit (s := S512x1408) ![0, 0] S512x1408.size inb_S512x1408_S512x1408_0_0
abbrev r0_1 : Rect S1408x256 := Rect.unit (s := S1408x256) ![0, 0] S1408x256.size inb_S1408x256_S1408x256_0_0
abbrev r0_2 : Rect S512x256 := Rect.unit (s := S512x256) ![0, 0] S512x256.size inb_S512x256_S512x256_0_0

/-- The product block the body leaves in the output's staging buffer, from the two input blocks. -/
def out0_2 (x0 : Vec F S512x1408 .bf16) (x1 : Vec F S1408x256 .bf16) : Vec F S512x256 .bf16 :=
  View.canon [⟨r0_2, k0_pay1 (View.ld x0 r0_0) (View.ld x1 r0_1)⟩]

/-- The one store covers the whole buffer. -/
theorem cover0_2 (p0 : Vec F S512x256 .bf16) (y : S512x256.Idx) :
    ∃ pc ∈ ([⟨r0_2, p0⟩] : List (View.Piece (Elt F) S512x256 .bf16)), y ∈ pc.1.set :=
  View.cover_of_tiled [⟨r0_2, p0⟩] S512x256.size (by rfl) y

/-! ## The body's triple -/

set_option maxHeartbeats 1000000 in
/-- The body on whole staging buffers, the inputs' at contents x0, x1 and the output's at anything, runs to the
    continuation with the inputs as they were and the output's buffer at the product block. -/
theorem sound_kernel0 (c : Dev nD) (E : Set ℕ) (i : grid0.Coords) (arg1 : Memref sig .tc .vmem S512x1408 .bf16) (harg1 : arg1.IsWhole) (arg2 : Memref sig .tc .vmem S1408x256 .bf16) (harg2 : arg2.IsWhole) (arg3 : Memref sig .tc .vmem S512x256 .bf16) (harg3 : arg3.IsWhole)
    (x0 : Vec F S512x1408 .bf16) (x1 : Vec F S1408x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__s1_kernel i arg1 harg1 arg2 harg2 arg3 harg3) K := by
  simp only [cc0__s1_kernel_eq_skeleton]; unfold cc0__s1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them; after the body at point t each
    input's buffer at its block and the output's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Defs.lean ====
/-
  Region 1 of the program, first half: the fused kernel's body, run symbolically in its two phases.
  The grid has 16 points. At a point t < 8 (first phase) the body copies the 512 rows of the adjacency block
  it was handed into rows 512·t … 512·t+511 of a 4096 × 4096 cache, and stores the block of the second-layer
  support relu(adj_blk · s1 + b1) · W2 into the same rows of a 4096 × 128 buffer; the output's buffer is left
  as found. At a point t ≥ 8 (second phase) it reads rows 512·(t−8) … of the cache and the whole support
  buffer and writes the log-softmax block of cache_rows · support + b2 into the output's buffer; the two
  carried buffers are left as found.
-/
import proofs.«145670_g2000303783144872_pallasbulk_1002_5_alg».proof.Proof.Gen.Kernel.Launch
import proofs.«145670_g2000303783144872_pallasbulk_1002_5_alg».proof.Proof.Gen.Kernel.Skeleton
import proofs.«145670_g2000303783144872_pallasbulk_1002_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev q1_0 : Rect S512x4096 := Rect.unit (s := S512x4096) ![0, 0] S512x4096.size inb_S512x4096_S512x4096_0_0
abbrev q1_1 : Rect S4096x256 := Rect.unit (s := S4096x256) ![0, 0] S4096x256.size inb_S4096x256_S4096x256_0_0
abbrev q1_2 : Rect S1x256 := Rect.unit (s := S1x256) ![0, 0] S1x256.size inb_S1x256_S1x256_0_0
abbrev q1_3 : Rect S256x128 := Rect.unit (s := S256x128) ![0, 0] S256x128.size inb_S256x128_S256x128_0_0
abbrev q1_4 : Rect S1x128 := Rect.unit (s := S1x128) ![0, 0] S1x128.size inb_S1x128_S1x128_0_0
abbrev q1_5 : Rect S512x128 := Rect.unit (s := S512x128) ![0, 0] S512x128.size inb_S512x128_S512x128_0_0
abbrev q1_8 : Rect S4096x128 := Rect.unit (s := S4096x128) ![0, 0] S4096x128.size inb_S4096x128_S4096x128_0_0

/-! ## Replacing 512 rows of a buffer -/

/-- s' is s with rows o … o+511 replaced by the 512 × 4096 block w. -/
def RowsSet7 (o : ℕ) (w : S512x4096.Idx → Elt F .bf16) (s s' : S4096x4096.Idx → Elt F .bf16) : Prop :=
  (∀ (y : S4096x4096.Idx) (x : S512x4096.Idx), (y (0 : Fin 2)).val = o + (x (0 : Fin 2)).val → (y (1 : Fin 2)).val = (x (1 : Fin 2)).val → s' y = w x)
  ∧ (∀ y : S4096x4096.Idx, ((y (0 : Fin 2)).val < o ∨ o + 512 ≤ (y (0 : Fin 2)).val) → s' y = s y)

/-- s' is s with rows o … o+511 replaced by the 512 × 128 block w. -/
def RowsSet8 (o : ℕ) (w : S512x128.Idx → Elt F .bf16) (s s' : S4096x128.Idx → Elt F .bf16) : Prop :=
  (∀ (y : S4096x128.Idx) (x : S512x128.Idx), (y (0 : Fin 2)).val = o + (x (0 : Fin 2)).val → (y (1 : Fin 2)).val = (x (1 : Fin 2)).val → s' y = w x)
  ∧ (∀ y : S4096x128.Idx, ((y (0 : Fin 2)).val < o ∨ o + 512 ≤ (y (0 : Fin 2)).val) → s' y = s y)

/-- The log-softmax block the second phase leaves in the output's buffer, from the rows it reads of the cache (at
    row offset off), the support buffer and the bias. -/
def outB (off : Fin 2 → ℕ) (inb : ∀ a, off a + S512x4096.size a ≤ S4096x4096.size a)
    (s7 : Vec F S4096x4096 .bf16) (s8 : Vec F S4096x128 .bf16) (x4 : Vec F S1x128 .f32) : Vec F S512x128 .f32 :=
  View.canon [⟨q1_5, k1_pay3 (View.ld s7 (Rect.unit (s := S4096x4096) off S512x4096.size inb)) (View.ld s8 q1_8) (View.ld x4 q1_4)⟩]

theorem cover1_5 (p0 : Vec F S512x128 .f32) (y : S512x128.Idx) :
    ∃ pc ∈ ([⟨q1_5, p0⟩] : List (View.Piece (Elt F) S512x128 .f32)), y ∈ pc.1.set :=
  View.cover_of_tiled [⟨q1_5, p0⟩] S512x128.size (by rfl) y

end Cert.Kernel.Hand

end
-- ==== Proof.K.Region1Inv.lean ====
/-
  Region 1, the proof data and the body obligation. Between grid points the kernel carries two buffers: a
  4096 × 4096 cache of the adjacency and the 4096 × 128 second-layer support. The invariant before point n says
  that, for every j < min n 8, rows 512·j … 512·j+511 of the cache hold the adjacency block of point j and the
  same rows of the support buffer hold relu(adj_j · s1 + b1) · W2 computed from the blocks at point j; the other
  rows hold anything. After the eighth point both buffers are complete, and points 8 … 15 read them: point t writes
  the log-softmax block computed from cache rows of point t − 8 and the whole support buffer.
-/
import proofs.«145670_g2000303783144872_pallasbulk_1002_5_alg».proof.Proof.Gen.Kernel.Launch
import proofs.«145670_g2000303783144872_pallasbulk_1002_5_alg».proof.Proof.Gen.Kernel.Skeleton
import proofs.«145670_g2000303783144872_pallasbulk_1002_5_alg».proof.Proof.Gen.Kernel.Points
import proofs.«145670_g2000303783144872_pallasbulk_1002_5_alg».proof.Proof.K.Region1Defs
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The blocks at their literal shapes. -/
abbrev B0 (c : Dev nD) (t : Fin cfg1.N) : Vec F S512x4096 .bf16 := iblk1 V c 0 t
abbrev B1 (c : Dev nD) (t : Fin cfg1.N) : Vec F S4096x256 .bf16 := iblk1 V c 1 t
abbrev B2 (c : Dev nD) (t : Fin cfg1.N) : Vec F S1x256 .f32 := iblk1 V c 2 t
abbrev B3 (c : Dev nD) (t : Fin cfg1.N) : Vec F S256x128 .bf16 := iblk1 V c 3 t
abbrev B4 (c : Dev nD) (t : Fin cfg1.N) : Vec F S1x128 .f32 := iblk1 V c 4 t

/-! ## The conditions and the offsets in closed form, decided over the grid -/

theorem hcond1 : ∀ t : Fin cfg1.N, k1_cond1 (grid1.coords t) = 1#1 ↔ t.val < 8 :=
  (by decide +kernel : ∀ t : Fin grid1.N, k1_cond1 (grid1.coords t) = 1#1 ↔ t.val < 8)
theorem hcond2 : ∀ t : Fin cfg1.N, k1_cond2 (grid1.coords t) = 1#1 ↔ 8 ≤ t.val :=
  (by decide +kernel : ∀ t : Fin grid1.N, k1_cond2 (grid1.coords t) = 1#1 ↔ 8 ≤ t.val)
theorem hoff1 : ∀ t : Fin cfg1.N, k1_off1 (grid1.coords t) = ![512 * t.val, 0] :=
  (by decide +kernel : ∀ t : Fin grid1.N, k1_off1 (grid1.coords t) = ![512 * t.val, 0])
theorem hoff2 : ∀ t : Fin cfg1.N, k1_off2 (grid1.coords t) = ![512 * t.val, 0] :=
  (by decide +kernel : ∀ t : Fin grid1.N, k1_off2 (grid1.coords t) = ![512 * t.val, 0])
theorem hoff3 : ∀ t : Fin cfg1.N, 8 ≤ t.val → k1_off3 (grid1.coords t) = ![512 * (t.val - 8), 0] :=
  (by decide +kernel : ∀ t : Fin grid1.N, 8 ≤ t.val → k1_off3 (grid1.coords t) = ![512 * (t.val - 8), 0])
/-- The inputs are never idle; the output is idle, and not written back, exactly at the first eight points. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, t.val < 8 → cfg1.idle 5 (grid1.coords t) = true := by decide +kernel
theorem noFlush1_5 : ∀ t : Fin cfg1.N, t.val < 8 → (cfg1.win 5).flush t = false := by decide +kernel
theorem liveAt1_5 : ∀ t : Fin cfg1.N, 8 ≤ t.val → cfg1.idle 5 (grid1.coords t) = false := by decide +kernel

/-- Grid point j. -/
def pt (j : ℕ) (hj : j < 16) : Fin cfg1.N := ⟨j, lt_of_lt_of_eq hj (show 16 = cfg1.N from N_1.symm)⟩

theorem val_lt (t : Fin cfg1.N) : t.val < 16 := lt_of_lt_of_eq t.isLt (show cfg1.N = 16 from N_1)

/-! ## What the two carried buffers hold -/

/-- The adjacency block of point t as the first phase stores it. -/
def blkPay1 (c : Dev nD) (t : Fin cfg1.N) : S512x4096.Idx → Elt F .bf16 := k1_pay1 (View.ld (B0 V c t) q1_0)
/-- The second-layer support block of point t: relu(adj_t · s1 + b1) · W2. -/
def blkPay2 (c : Dev nD) (t : Fin cfg1.N) : S512x128.Idx → Elt F .bf16 :=
  k1_pay2 (View.ld (B0 V c t) q1_0) (View.ld (B1 V c t) q1_1) (View.ld (B2 V c t) q1_2) (View.ld (B3 V c t) q1_3)

/-- Before point n: for j < min n 8, rows 512·j … of the two buffers hold the blocks of point j. -/
def Inv1 (c : Dev nD) (n : ℕ) (s7 : Vec F S4096x4096 .bf16) (s8 : Vec F S4096x128 .bf16) : Prop :=
  ∀ (j : ℕ) (hj : j < 16), j < n → j < 8 →
    (∀ (y : S4096x4096.Idx) (x : S512x4096.Idx), (y (0 : Fin 2)).val = 512 * j + (x (0 : Fin 2)).val → (y (1 : Fin 2)).val = (x (1 : Fin 2)).val → s7 y = blkPay1 V c (pt j hj) x)
    ∧ (∀ (y : S4096x128.Idx) (x : S512x128.Idx), (y (0 : Fin 2)).val = 512 * j + (x (0 : Fin 2)).val → (y (1 : Fin 2)).val = (x (1 : Fin 2)).val → s8 y = blkPay2 V c (pt j hj) x)

theorem inv_zero (c : Dev nD) (s7 : Vec F S4096x4096 .bf16) (s8 : Vec F S4096x128 .bf16) : Inv1 V c 0 s7 s8 :=
  fun _ _ h _ => absurd h (Nat.not_lt_zero _)

/-- A first-phase point extends the invariant by its own rows. -/
theorem inv_step (c : Dev nD) (t : Fin cfg1.N) (s7 s7' : Vec F S4096x4096 .bf16) (s8 s8' : Vec F S4096x128 .bf16)
    (h : Inv1 V c t.val s7 s8)
    (h7 : RowsSet7 (512 * t.val) (blkPay1 V c t) s7 s7') (h8 : RowsSet8 (512 * t.val) (blkPay2 V c t) s8 s8') :
    Inv1 V c (t.val + 1) s7' s8' := by
  intro j hj hjn hj8
  rcases Nat.lt_succ_iff_lt_or_eq.mp hjn with hlt | heq
  · obtain ⟨a7, a8⟩ := h j hj hlt hj8
    refine ⟨fun y x h0 h1 => (h7.2 y (Or.inl ?_)).trans (a7 y x h0 h1), fun y x h0 h1 => (h8.2 y (Or.inl ?_)).trans (a8 y x h0 h1)⟩
    · have := ValueIdx.idx2_lt0 x; omega
    · have := ValueIdx.idx2_lt0 x; omega
  · subst heq
    exact ⟨fun y x h0 h1 => h7.1 y x h0 h1, fun y x h0 h1 => h8.1 y x h0 h1⟩

/-- A second-phase point keeps it. -/
theorem inv_keep (c : Dev nD) (n : ℕ) (hn : 8 ≤ n) (s7 : Vec F S4096x4096 .bf16) (s8 : Vec F S4096x128 .bf16)
    (h : Inv1 V c n s7 s8) : Inv1 V c (n + 1) s7 s8 :=
  fun j hj _ hj8 => h j hj (by omega) hj8

/-- The whole support buffer once the first phase is over: row r is row r % 512 of the block of point r / 512. -/
def support (c : Dev nD) : Vec F S4096x128 .bf16 := fun y =>
  blkPay2 V c (pt ((y (0 : Fin 2)).val / 512) (by have := ValueIdx.idx2_lt0 y; omega))
    (ValueIdx.ix2 (⟨(y (0 : Fin 2)).val % 512, Nat.mod_lt _ (by decide)⟩ : Fin 512) (⟨(y (1 : Fin 2)).val, ValueIdx.idx2_lt1 y⟩ : Fin 128))

/-- What the second phase leaves in the output's buffer at point t (read only for t ≥ 8): the log-softmax block from
    the adjacency block of point t − 8, the whole support and the bias. -/
def out1_5 (c : Dev nD) (t : Fin cfg1.N) : Vec F S512x128 .f32 :=
  View.canon [⟨q1_5, k1_pay3 (blkPay1 V c (pt (t.val - 8) (lt_of_le_of_lt (Nat.sub_le _ _) (val_lt t)))) (support V c) (View.ld (B4 V c t) q1_4)⟩]

/-- A unit-stride 512-row rectangle at rows o … reads row o + x₀. -/
theorem idx_rows7 {off : Fin 2 → ℕ} (inb : ∀ a, off a + S512x4096.size a ≤ S4096x4096.size a) (o : ℕ) (hoff : off = ![o, 0])
    (x : S512x4096.Idx) :
    (((Rect.unit (s := S4096x4096) off S512x4096.size inb).idx x) (0 : Fin 2)).val = o + (x (0 : Fin 2)).val
    ∧ (((Rect.unit (s := S4096x4096) off S512x4096.size inb).idx x) (1 : Fin 2)).val = (x (1 : Fin 2)).val := by
  subst hoff
  constructor
  · show (![o, 0] : Fin 2 → ℕ) 0 + 1 * (x (0 : Fin 2)).val = _
    simp
  · show (![o, 0] : Fin 2 → ℕ) 1 + 1 * (x (1 : Fin 2)).val = _
    simp

/-- With the first phase over, what the second phase computes from the carried buffers is the named block. -/
theorem outB_eq (c : Dev nD) (t : Fin cfg1.N) (ht : 8 ≤ t.val) (hc2 : k1_cond2 (grid1.coords t) = 1#1)
    (s7 : Vec F S4096x4096 .bf16) (s8 : Vec F S4096x128 .bf16) (h : Inv1 V c t.val s7 s8) :
    outB (k1_off3 (grid1.coords t)) (k1_off3_inb (grid1.coords t) hc2) s7 s8 (B4 V c t) = out1_5 V c t := by
  have ht16 := val_lt t
  have e7 : View.ld s7 (Rect.unit (s := S4096x4096) (k1_off3 (grid1.coords t)) S512x4096.size (k1_off3_inb (grid1.coords t) hc2))
      = blkPay1 V c (pt (t.val - 8) (lt_of_le_of_lt (Nat.sub_le _ _) (val_lt t))) := by
    funext x
    obtain ⟨e0, e1⟩ := idx_rows7 (k1_off3_inb (grid1.coords t) hc2) (512 * (t.val - 8)) (hoff3 t ht) x
    exact (h (t.val - 8) (by omega) (by omega) (by omega)).1 _ x e0 e1
  have e8 : View.ld s8 q1_8 = support V c := by
    funext y
    have hy0 := ValueIdx.idx2_lt0 y
    refine (h ((y (0 : Fin 2)).val / 512) (by omega) (by omega) (by omega)).2 _ _ ?_ ?_
    · show (![0, 0] : Fin 2 → ℕ) 0 + 1 * (y (0 : Fin 2)).val = 512 * ((y (0 : Fin 2)).val / 512) + (y (0 : Fin 2)).val % 512
      simp; omega
    · show (![0, 0] : Fin 2 → ℕ) 1 + 1 * (y (1 : Fin 2)).val = (y (1 : Fin 2)).val
      simp
  unfold outB out1_5
  rw [e7, e8]

end Cert.Kernel.Hand

end
-- ==== Proof.K.Region1A.lean ====
/-
  Region 1, first phase (grid points 0 … 7): the body's triple. The adjacency block handed to the body is copied
  into 512 rows of the cache, the second-layer support block relu(adj_blk · s1 + b1) · W2 into the same rows of
  the support buffer; everything else is left as found.
-/
import proofs.«145670_g2000303783144872_pallasbulk_1002_5_alg».proof.Proof.Gen.Kernel.Launch
import proofs.«145670_g2000303783144872_pallasbulk_1002_5_alg».proof.Proof.Gen.Kernel.Skeleton
import proofs.«145670_g2000303783144872_pallasbulk_1002_5_alg».proof.Proof.Gen.Kernel.Points
import proofs.«145670_g2000303783144872_pallasbulk_1002_5_alg».proof.Proof.K.Region1Defs
import Idealize.ShloMosaic.Lib.Pipeline.FrameBody
import Idealize.ShloMosaic.Lib.WritesUnit
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two triples -/

set_option maxHeartbeats 2000000 in
/-- FIRST PHASE. With the first condition true and the second false, the body leaves the inputs and the output's
    buffer as they were, and each carried buffer with the rows at offset o replaced by the block it computes. -/
theorem sound_kernel1_A (c : Dev nD) (E : Set ℕ) (i : grid1.Coords) (o : ℕ) (hc1 : k1_cond1 i = 1#1) (hc2 : ¬ k1_cond2 i = 1#1)
    (ho1 : k1_off1 i = ![o, 0]) (ho2 : k1_off2 i = ![o, 0])
    (arg1 : Memref sig .tc .vmem S512x4096 .bf16) (harg1 : arg1.IsWhole) (arg2 : Memref sig .tc .vmem S4096x256 .bf16) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x4096 .bf16) (harg7 : arg7.IsWhole) (arg8 : Memref sig .tc .vmem S4096x128 .bf16) (harg8 : arg8.IsWhole)
    (x0 : Vec F S512x4096 .bf16) (x1 : Vec F S4096x256 .bf16) (x2 : Vec F S1x256 .f32) (x3 : Vec F S256x128 .bf16) (x4 : Vec F S1x128 .f32) (x5 : Vec F S512x128 .f32)
    (s7 : Vec F S4096x4096 .bf16) (s8 : Vec F S4096x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare x5 ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare x5
            ∗ (∃ s7', owns (c : Thread nD τ) arg7 fullShare s7' ∗ ⌜RowsSet7 o (k1_pay1 (View.ld x0 q1_0)) s7 s7'⌝)
            ∗ (∃ s8', owns (c : Thread nD τ) arg8 fullShare s8' ∗ ⌜RowsSet8 o (k1_pay2 (View.ld x0 q1_0) (View.ld x1 q1_1) (View.ld x2 q1_2) (View.ld x3 q1_3)) s8 s8'⌝)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
  subst hf0 hf1 hf2 hf3 hf4 hf6 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  isplitl [H7]
  · iexists _; isplitl [H7]
    · iexists _; isplitr
      swap; · iexact H7
      ipureintro; rfl
    ipureintro
    exact ⟨fun y x h0 h1 => View.read_writes_cons_rows_of_mem _ _ _ _ _ y x ho1 h0 h1,
      fun y h => View.read_writes_cons_rows_of_not_mem _ _ _ _ _ y ho1 rfl h⟩
  · iexists _; isplitl [H8]
    · iexists _; isplitr
      swap; · iexact H8
      ipureintro; rfl
    ipureintro
    exact ⟨fun y x h0 h1 => View.read_writes_cons_rows_of_mem _ _ _ _ _ y x ho2 h0 h1,
      fun y h => View.read_writes_cons_rows_of_not_mem _ _ _ _ _ y ho2 rfl h⟩

end Cert.Kernel.Hand

end
-- ==== Proof.K.Region1B.lean ====
/-
  Region 1, second phase (grid points 8 … 15): the body's triple. The body reads 512 rows of the cache and the
  whole support buffer and leaves log_softmax(rows · support + b2), the padded lanes masked to −∞, in the output's
  buffer; the two carried buffers are left as found.
-/
import proofs.«145670_g2000303783144872_pallasbulk_1002_5_alg».proof.Proof.Gen.Kernel.Launch
import proofs.«145670_g2000303783144872_pallasbulk_1002_5_alg».proof.Proof.Gen.Kernel.Skeleton
import proofs.«145670_g2000303783144872_pallasbulk_1002_5_alg».proof.Proof.Gen.Kernel.Points
import proofs.«145670_g2000303783144872_pallasbulk_1002_5_alg».proof.Proof.K.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- SECOND PHASE. With the first condition false and the second true, the body leaves the inputs and the two
    carried buffers as they were, and the output's buffer at the log-softmax block. -/
theorem sound_kernel1_B (c : Dev nD) (E : Set ℕ) (i : grid1.Coords) (hc1 : ¬ k1_cond1 i = 1#1) (hc2 : k1_cond2 i = 1#1)
    (arg1 : Memref sig .tc .vmem S512x4096 .bf16) (harg1 : arg1.IsWhole) (arg2 : Memref sig .tc .vmem S4096x256 .bf16) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x4096 .bf16) (harg7 : arg7.IsWhole) (arg8 : Memref sig .tc .vmem S4096x128 .bf16) (harg8 : arg8.IsWhole)
    (x0 : Vec F S512x4096 .bf16) (x1 : Vec F S4096x256 .bf16) (x2 : Vec F S1x256 .f32) (x3 : Vec F S256x128 .bf16) (x4 : Vec F S1x128 .f32)
    (s7 : Vec F S4096x4096 .bf16) (s8 : Vec F S4096x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outB (k1_off3 i) (k1_off3_inb i hc2) s7 s8 x4) ∗ owns (c : Thread nD τ) arg7 fullShare s7 ∗ owns (c : Thread nD τ) arg8 fullShare s8) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, ⟨%f8, %hf8, H8⟩, Hk⟩
  subst hf0 hf1 hf2 hf3 hf4 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    exact (View.read_writes_eq_canon _ _ _ (cover1_5 _))
  isplitl [H7]
  · iexists f7; isplitr; · ipureintro; rfl
    iexact H7
  iexists f8; isplitr; · ipureintro; rfl
  iexact H8

end Cert.Kernel.Hand

end
-- ==== Proof.K.Region1.lean ====
/-
  Region 1: the invariant between grid points as a proposition about the core's buffers, the proof data of the
  pipeline, and the body obligation. At a point t < 8 the first-phase triple extends the invariant by the rows of
  point t and hands the output's buffer back untouched (the pipeline neither reads nor writes it back there); at a
  point t ≥ 8 the invariant says both carried buffers are complete, so what the second-phase triple leaves in the
  output's buffer is the block named in the proof data.
-/
import proofs.«145670_g2000303783144872_pallasbulk_1002_5_alg».proof.Proof.Gen.Kernel.Launch
import proofs.«145670_g2000303783144872_pallasbulk_1002_5_alg».proof.Proof.Gen.Kernel.Skeleton
import proofs.«145670_g2000303783144872_pallasbulk_1002_5_alg».proof.Proof.Gen.Kernel.Points
import proofs.«145670_g2000303783144872_pallasbulk_1002_5_alg».proof.Proof.K.Region1Inv
import proofs.«145670_g2000303783144872_pallasbulk_1002_5_alg».proof.Proof.K.Region1A
import proofs.«145670_g2000303783144872_pallasbulk_1002_5_alg».proof.Proof.K.Region1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two buffers the kernel carries between points. -/
abbrev scM1_0 : Memref sig .tc .vmem S4096x4096 .bf16 := Memref.whole cc1_scratch0
abbrev scM1_1 : Memref sig .tc .vmem S4096x128 .bf16 := Memref.whole cc1_scratch1

/-- Before point n: the scoped buffers of the other region at anything, the two carried buffers at contents
    satisfying the invariant, the generator register at some state. -/
def Phi1 (c : Dev nD) (n : ℕ) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ (∃ (s7 : Vec F S4096x4096 .bf16) (s8 : Vec F S4096x128 .bf16), owns (c : Thread nD τ) scM1_0 fullShare s7 ∗ owns (c : Thread nD τ) scM1_1 fullShare s8 ∗ ⌜Inv1 V c n s7 s8⌝))
    ∗ ∃ r, prngReg c r)

/-- What the launch hands the region is the invariant before the first point: nothing is claimed of any row. -/
theorem Phi1_in (c : Dev nD) : (Pipeline.ΦA spec1 c : sProp 𝕄) ⊢ Phi1 V c 0 := by
  unfold Pipeline.ΦA Phi1; rw [scopedRest1_eq]; simp only [scM1_0, scM1_1, owns_whole]
  iintro ⟨⟨A1, A2, A3, A4, A5, ⟨%f7, S0⟩, ⟨%f8, S1⟩⟩, P⟩
  isplitr [P]
  · isplitl [A1]; · iexact A1
    isplitl [A2]; · iexact A2
    isplitl [A3]; · iexact A3
    isplitl [A4]; · iexact A4
    isplitl [A5]; · iexact A5
    iexists f7; iexists f8
    isplitl [S0]; · iexact S0
    isplitl [S1]; · iexact S1
    ipureintro; exact inv_zero V c _ _
  iexact P

/-- The invariant gives the scoped buffers back at anything. -/
theorem Phi1_out (c : Dev nD) (n : ℕ) : Phi1 V c n ⊢ (Pipeline.ΦA spec1 c : sProp 𝕄) := by
  unfold Pipeline.ΦA Phi1; rw [scopedRest1_eq]; simp only [scM1_0, scM1_1, owns_whole]
  iintro ⟨⟨A1, A2, A3, A4, A5, ⟨%s7, %s8, S0, S1, -⟩⟩, P⟩
  isplitr [P]
  · isplitl [A1]; · iexact A1
    isplitl [A2]; · iexact A2
    isplitl [A3]; · iexact A3
    isplitl [A4]; · iexact A4
    isplitl [A5]; · iexact A5
    isplitl [S0]; · iexists s7; iexact S0
    iexists s8; iexact S1
  iexact P

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have ht16 := val_lt t
  by_cases ht : t.val < 8
  · -- first phase
    rw [Dat.leavesExact_idle (dat1 V c) 5 t (idleAt1_5 t ht) (noFlush1_5 t ht)]
    unfold Phi1
    iintro ⟨⟨⟨A1, A2, A3, A4, A5, ⟨%s7, %s8, S0, S1, %hinv⟩⟩, P⟩, Ho, ⟨%d0, H0⟩, ⟨%d1, H1⟩, ⟨%d2, H2⟩, ⟨%d3, H3⟩, ⟨%d4, H4⟩, ⟨%d5, H5⟩⟩
    iapply (sound_kernel1_A c Set.univ (grid1.coords t) (512 * t.val) ((hcond1 t).mpr ht) (fun h => absurd ((hcond2 t).mp h) (by omega)) (hoff1 t) (hoff2 t)
      _ _ _ _ _ _ _ _ _ _ _ _ _ _ _ _ (B0 V c t) (B1 V c t) (B2 V c t) (B3 V c t) (B4 V c t) ((dat1 V c).before 5 t d5) s7 s8 _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    iintro ⟨H0, H1, H2, H3, H4, H5, ⟨%s7', S0, %h7⟩, ⟨%s8', S1, %h8⟩⟩
    isplitl [A1 A2 A3 A4 A5 S0 S1 P]
    · isplitr [P]
      · isplitl [A1]; · iexact A1
        isplitl [A2]; · iexact A2
        isplitl [A3]; · iexact A3
        isplitl [A4]; · iexact A4
        isplitl [A5]; · iexact A5
        iexists s7'; iexists s8'
        isplitl [S0]; · iexact S0
        isplitl [S1]; · iexact S1
        ipureintro; exact inv_step V c t s7 s7' s8 s8' hinv h7 h8
      iexact P
    isplitl [Ho]; · iexact Ho
    isplitl [H0]; · iexact H0
    isplitl [H1]; · iexact H1
    isplitl [H2]; · iexact H2
    isplitl [H3]; · iexact H3
    isplitl [H4]; · iexact H4
    iexists d5; iexact H5
  · -- second phase
    have ht8 : 8 ≤ t.val := Nat.le_of_not_lt ht
    rw [show (dat1 V c).leavesExact 5 t = owns (c : Thread nD τ) (st1_5 t) fullShare ((dat1 V c).after 5 t) from by
      unfold Dat.leavesExact; rw [liveAt1_5 t ht8], after1_5]
    unfold Phi1
    iintro ⟨⟨⟨A1, A2, A3, A4, A5, ⟨%s7, %s8, S0, S1, %hinv⟩⟩, P⟩, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => absurd ((hcond1 t).mp h) (by omega)) ((hcond2 t).mpr ht8)
      _ _ _ _ _ _ _ _ _ _ _ _ _ _ _ _ (B0 V c t) (B1 V c t) (B2 V c t) (B3 V c t) (B4 V c t) s7 s8 _)
    isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    iintro ⟨H0, H1, H2, H3, H4, H5, S0, S1⟩
    rw [outB_eq V c t ht8 ((hcond2 t).mpr ht8) s7 s8 hinv]
    isplitl [A1 A2 A3 A4 A5 S0 S1 P]
    · isplitr [P]
      · isplitl [A1]; · iexact A1
        isplitl [A2]; · iexact A2
        isplitl [A3]; · iexact A3
        isplitl [A4]; · iexact A4
        isplitl [A5]; · iexact A5
        iexists s7; iexists s8
        isplitl [S0]; · iexact S0
        isplitl [S1]; · iexact S1
        ipureintro; exact inv_keep V c t.val ht8 s7 s8 hinv
      iexact P
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program: region 0 (x · W1), region 1 (the fused kernel), then the host slice that keeps the
  first 40 class lanes. Between items every unscoped buffer of a core is held whole at named contents: the launch
  memory; after a region, its arrays at what the pipeline's write-backs leave and every other buffer as before;
  after the host slice, the slice of region 1's output. The launch theorem then says every weakly fair execution
  terminates with every unscoped buffer at the last of these contents.
-/
import proofs.«145670_g2000303783144872_pallasbulk_1002_5_alg».proof.Proof.Gen.Kernel.Launch
import proofs.«145670_g2000303783144872_pallasbulk_1002_5_alg».proof.Proof.Gen.Kernel.Skeleton
import proofs.«145670_g2000303783144872_pallasbulk_1002_5_alg».proof.Proof.Gen.Kernel.Points
import proofs.«145670_g2000303783144872_pallasbulk_1002_5_alg».proof.Proof.K.Region0
import proofs.«145670_g2000303783144872_pallasbulk_1002_5_alg».proof.Proof.K.Region1
import proofs.«145670_g2000303783144872_pallasbulk_1002_5_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After region 0 (region 1's entry). -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After region 1 (the host slice's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the host slice (the end). -/
abbrev W4 : Dev nD → Valuation τ sig (Elt F) := fun c => StableHlo.after hostOps2 (W3 m ρ c)

/-! ## The arguments end as launched: a region reads an argument through an input window, no item writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W0 m ρ c (Proc.devRef .tc main_arg2) := (W2_arr m ρ c 1).trans (((dat0 (V1 m ρ) c).arrAt_in 1 rfl _).trans (A_eq0 (V1 m ρ) c 1))
    _ = m ((c : Thread nD τ).loc main_arg2) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := (W3_arr m ρ c 0).trans (((dat1 (V2 m ρ) c).arrAt_in 0 rfl _).trans (A_eq1 (V2 m ρ) c 0))
    _ = W0 m ρ c (Proc.devRef .tc main_arg1) := W2_of_ne m ρ c main_arg1 (by decide)
    _ = m ((c : Thread nD τ).loc main_arg1) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_arr m ρ c 2).trans (((dat1 (V2 m ρ) c).arrAt_in 2 rfl _).trans (A_eq1 (V2 m ρ) c 2))
    _ = W0 m ρ c (Proc.devRef .tc main_arg3) := W2_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_arr m ρ c 3).trans (((dat1 (V2 m ρ) c).arrAt_in 3 rfl _).trans (A_eq1 (V2 m ρ) c 3))
    _ = W0 m ρ c (Proc.devRef .tc main_arg4) := W2_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := (W3_arr m ρ c 4).trans (((dat1 (V2 m ρ) c).arrAt_in 4 rfl _).trans (A_eq1 (V2 m ρ) c 4))
    _ = W0 m ρ c (Proc.devRef .tc main_arg5) := W2_of_ne m ρ c main_arg5 (by decide)
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- Region 0 over the thread state: entered from every unscoped buffer at the contents before it, left at the
    contents after it. Its arrays are split out of the unscoped buffers and put back at what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi1_in (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_out (V2 m ρ) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.KI.Region0.lean ====
/-
  Region 0 of the program: the row-blocked product x · W1. The grid has 8 points; point t reads rows
  512·t … 512·t+511 of x (window 0), the whole of W1 (window 1, fetched once), and writes the 512 × 256
  block of the product (window 2), rounded to the output's format. Stated at a parameter V, the contents
  of the core's buffers when the region is entered.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x at point t are in the staging buffer of window 0 whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- W1, fetched at the first point only, is in the staging buffer of window 1 at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S512x1408 := Rect.unit (s := S512x1408) ![0, 0] S512x1408.size inb_S512x1408_S512x1408_0_0
abbrev r0_1 : Rect S1408x256 := Rect.unit (s := S1408x256) ![0, 0] S1408x256.size inb_S1408x256_S1408x256_0_0
abbrev r0_2 : Rect S512x256 := Rect.unit (s := S512x256) ![0, 0] S512x256.size inb_S512x256_S512x256_0_0

/-- The product block the body leaves in the output's staging buffer, from the two input blocks. -/
def out0_2 (x0 : Vec F S512x1408 .bf16) (x1 : Vec F S1408x256 .bf16) : Vec F S512x256 .bf16 :=
  View.canon [⟨r0_2, k0_pay1 (View.ld x0 r0_0) (View.ld x1 r0_1)⟩]

/-- The one store covers the whole buffer. -/
theorem cover0_2 (p0 : Vec F S512x256 .bf16) (y : S512x256.Idx) :
    ∃ pc ∈ ([⟨r0_2, p0⟩] : List (View.Piece (Elt F) S512x256 .bf16)), y ∈ pc.1.set :=
  View.cover_of_tiled [⟨r0_2, p0⟩] S512x256.size (by rfl) y

/-! ## The body's triple -/

set_option maxHeartbeats 1000000 in
/-- The body on whole staging buffers, the inputs' at contents x0, x1 and the output's at anything, runs to the
    continuation with the inputs as they were and the output's buffer at the product block. -/
theorem sound_kernel0 (c : Dev nD) (E : Set ℕ) (i : grid0.Coords) (arg1 : Memref sig .tc .vmem S512x1408 .bf16) (harg1 : arg1.IsWhole) (arg2 : Memref sig .tc .vmem S1408x256 .bf16) (harg2 : arg2.IsWhole) (arg3 : Memref sig .tc .vmem S512x256 .bf16) (harg3 : arg3.IsWhole)
    (x0 : Vec F S512x1408 .bf16) (x1 : Vec F S1408x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__s1_kernel i arg1 harg1 arg2 harg2 arg3 harg3) K := by
  simp only [cc0__s1_kernel_eq_skeleton]; unfold cc0__s1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them; after the body at point t each
    input's buffer at its block and the output's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Defs.lean ====
/-
  Region 1 of the program, first half: the fused kernel's body, run symbolically in its two phases.
  The grid has 16 points. At a point t < 8 (first phase) the body copies the 512 rows of the adjacency block
  it was handed into rows 512·t … 512·t+511 of a 4096 × 4096 cache, and stores the block of the second-layer
  support relu(adj_blk · s1 + b1) · W2 into the same rows of a 4096 × 128 buffer; the output's buffer is left
  as found. At a point t ≥ 8 (second phase) it reads rows 512·(t−8) … of the cache and the whole support
  buffer and writes the log-softmax block of cache_rows · support + b2 into the output's buffer; the two
  carried buffers are left as found.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev q1_0 : Rect S512x4096 := Rect.unit (s := S512x4096) ![0, 0] S512x4096.size inb_S512x4096_S512x4096_0_0
abbrev q1_1 : Rect S4096x256 := Rect.unit (s := S4096x256) ![0, 0] S4096x256.size inb_S4096x256_S4096x256_0_0
abbrev q1_2 : Rect S1x256 := Rect.unit (s := S1x256) ![0, 0] S1x256.size inb_S1x256_S1x256_0_0
abbrev q1_3 : Rect S256x128 := Rect.unit (s := S256x128) ![0, 0] S256x128.size inb_S256x128_S256x128_0_0
abbrev q1_4 : Rect S1x128 := Rect.unit (s := S1x128) ![0, 0] S1x128.size inb_S1x128_S1x128_0_0
abbrev q1_5 : Rect S512x128 := Rect.unit (s := S512x128) ![0, 0] S512x128.size inb_S512x128_S512x128_0_0
abbrev q1_8 : Rect S4096x128 := Rect.unit (s := S4096x128) ![0, 0] S4096x128.size inb_S4096x128_S4096x128_0_0

/-! ## Replacing 512 rows of a buffer -/

/-- s' is s with rows o … o+511 replaced by the 512 × 4096 block w. -/
def RowsSet7 (o : ℕ) (w : S512x4096.Idx → Elt F .bf16) (s s' : S4096x4096.Idx → Elt F .bf16) : Prop :=
  (∀ (y : S4096x4096.Idx) (x : S512x4096.Idx), (y (0 : Fin 2)).val = o + (x (0 : Fin 2)).val → (y (1 : Fin 2)).val = (x (1 : Fin 2)).val → s' y = w x)
  ∧ (∀ y : S4096x4096.Idx, ((y (0 : Fin 2)).val < o ∨ o + 512 ≤ (y (0 : Fin 2)).val) → s' y = s y)

/-- s' is s with rows o … o+511 replaced by the 512 × 128 block w. -/
def RowsSet8 (o : ℕ) (w : S512x128.Idx → Elt F .bf16) (s s' : S4096x128.Idx → Elt F .bf16) : Prop :=
  (∀ (y : S4096x128.Idx) (x : S512x128.Idx), (y (0 : Fin 2)).val = o + (x (0 : Fin 2)).val → (y (1 : Fin 2)).val = (x (1 : Fin 2)).val → s' y = w x)
  ∧ (∀ y : S4096x128.Idx, ((y (0 : Fin 2)).val < o ∨ o + 512 ≤ (y (0 : Fin 2)).val) → s' y = s y)

/-- The log-softmax block the second phase leaves in the output's buffer, from the rows it reads of the cache (at
    row offset off), the support buffer and the bias. -/
def outB (off : Fin 2 → ℕ) (inb : ∀ a, off a + S512x4096.size a ≤ S4096x4096.size a)
    (s7 : Vec F S4096x4096 .bf16) (s8 : Vec F S4096x128 .bf16) (x4 : Vec F S1x128 .f32) : Vec F S512x128 .f32 :=
  View.canon [⟨q1_5, k1_pay3 (View.ld s7 (Rect.unit (s := S4096x4096) off S512x4096.size inb)) (View.ld s8 q1_8) (View.ld x4 q1_4)⟩]

theorem cover1_5 (p0 : Vec F S512x128 .f32) (y : S512x128.Idx) :
    ∃ pc ∈ ([⟨q1_5, p0⟩] : List (View.Piece (Elt F) S512x128 .f32)), y ∈ pc.1.set :=
  View.cover_of_tiled [⟨q1_5, p0⟩] S512x128.size (by rfl) y

end Cert.KernelIdeal.Hand

end
-- ==== Proof.KI.Region1Inv.lean ====
/-
  Region 1, the proof data and the body obligation. Between grid points the kernel carries two buffers: a
  4096 × 4096 cache of the adjacency and the 4096 × 128 second-layer support. The invariant before point n says
  that, for every j < min n 8, rows 512·j … 512·j+511 of the cache hold the adjacency block of point j and the
  same rows of the support buffer hold relu(adj_j · s1 + b1) · W2 computed from the blocks at point j; the other
  rows hold anything. After the eighth point both buffers are complete, and points 8 … 15 read them: point t writes
  the log-softmax block computed from cache rows of point t − 8 and the whole support buffer.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Region1Defs
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The blocks at their literal shapes. -/
abbrev B0 (c : Dev nD) (t : Fin cfg1.N) : Vec F S512x4096 .bf16 := iblk1 V c 0 t
abbrev B1 (c : Dev nD) (t : Fin cfg1.N) : Vec F S4096x256 .bf16 := iblk1 V c 1 t
abbrev B2 (c : Dev nD) (t : Fin cfg1.N) : Vec F S1x256 .f32 := iblk1 V c 2 t
abbrev B3 (c : Dev nD) (t : Fin cfg1.N) : Vec F S256x128 .bf16 := iblk1 V c 3 t
abbrev B4 (c : Dev nD) (t : Fin cfg1.N) : Vec F S1x128 .f32 := iblk1 V c 4 t

/-! ## The conditions and the offsets in closed form, decided over the grid -/

theorem hcond1 : ∀ t : Fin cfg1.N, k1_cond1 (grid1.coords t) = 1#1 ↔ t.val < 8 :=
  (by decide +kernel : ∀ t : Fin grid1.N, k1_cond1 (grid1.coords t) = 1#1 ↔ t.val < 8)
theorem hcond2 : ∀ t : Fin cfg1.N, k1_cond2 (grid1.coords t) = 1#1 ↔ 8 ≤ t.val :=
  (by decide +kernel : ∀ t : Fin grid1.N, k1_cond2 (grid1.coords t) = 1#1 ↔ 8 ≤ t.val)
theorem hoff1 : ∀ t : Fin cfg1.N, k1_off1 (grid1.coords t) = ![512 * t.val, 0] :=
  (by decide +kernel : ∀ t : Fin grid1.N, k1_off1 (grid1.coords t) = ![512 * t.val, 0])
theorem hoff2 : ∀ t : Fin cfg1.N, k1_off2 (grid1.coords t) = ![512 * t.val, 0] :=
  (by decide +kernel : ∀ t : Fin grid1.N, k1_off2 (grid1.coords t) = ![512 * t.val, 0])
theorem hoff3 : ∀ t : Fin cfg1.N, 8 ≤ t.val → k1_off3 (grid1.coords t) = ![512 * (t.val - 8), 0] :=
  (by decide +kernel : ∀ t : Fin grid1.N, 8 ≤ t.val → k1_off3 (grid1.coords t) = ![512 * (t.val - 8), 0])
/-- The inputs are never idle; the output is idle, and not written back, exactly at the first eight points. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, t.val < 8 → cfg1.idle 5 (grid1.coords t) = true := by decide +kernel
theorem noFlush1_5 : ∀ t : Fin cfg1.N, t.val < 8 → (cfg1.win 5).flush t = false := by decide +kernel
theorem liveAt1_5 : ∀ t : Fin cfg1.N, 8 ≤ t.val → cfg1.idle 5 (grid1.coords t) = false := by decide +kernel

/-- Grid point j. -/
def pt (j : ℕ) (hj : j < 16) : Fin cfg1.N := ⟨j, lt_of_lt_of_eq hj (show 16 = cfg1.N from N_1.symm)⟩

theorem val_lt (t : Fin cfg1.N) : t.val < 16 := lt_of_lt_of_eq t.isLt (show cfg1.N = 16 from N_1)

/-! ## What the two carried buffers hold -/

/-- The adjacency block of point t as the first phase stores it. -/
def blkPay1 (c : Dev nD) (t : Fin cfg1.N) : S512x4096.Idx → Elt F .bf16 := k1_pay1 (View.ld (B0 V c t) q1_0)
/-- The second-layer support block of point t: relu(adj_t · s1 + b1) · W2. -/
def blkPay2 (c : Dev nD) (t : Fin cfg1.N) : S512x128.Idx → Elt F .bf16 :=
  k1_pay2 (View.ld (B0 V c t) q1_0) (View.ld (B1 V c t) q1_1) (View.ld (B2 V c t) q1_2) (View.ld (B3 V c t) q1_3)

/-- Before point n: for j < min n 8, rows 512·j … of the two buffers hold the blocks of point j. -/
def Inv1 (c : Dev nD) (n : ℕ) (s7 : Vec F S4096x4096 .bf16) (s8 : Vec F S4096x128 .bf16) : Prop :=
  ∀ (j : ℕ) (hj : j < 16), j < n → j < 8 →
    (∀ (y : S4096x4096.Idx) (x : S512x4096.Idx), (y (0 : Fin 2)).val = 512 * j + (x (0 : Fin 2)).val → (y (1 : Fin 2)).val = (x (1 : Fin 2)).val → s7 y = blkPay1 V c (pt j hj) x)
    ∧ (∀ (y : S4096x128.Idx) (x : S512x128.Idx), (y (0 : Fin 2)).val = 512 * j + (x (0 : Fin 2)).val → (y (1 : Fin 2)).val = (x (1 : Fin 2)).val → s8 y = blkPay2 V c (pt j hj) x)

theorem inv_zero (c : Dev nD) (s7 : Vec F S4096x4096 .bf16) (s8 : Vec F S4096x128 .bf16) : Inv1 V c 0 s7 s8 :=
  fun _ _ h _ => absurd h (Nat.not_lt_zero _)

/-- A first-phase point extends the invariant by its own rows. -/
theorem inv_step (c : Dev nD) (t : Fin cfg1.N) (s7 s7' : Vec F S4096x4096 .bf16) (s8 s8' : Vec F S4096x128 .bf16)
    (h : Inv1 V c t.val s7 s8)
    (h7 : RowsSet7 (512 * t.val) (blkPay1 V c t) s7 s7') (h8 : RowsSet8 (512 * t.val) (blkPay2 V c t) s8 s8') :
    Inv1 V c (t.val + 1) s7' s8' := by
  intro j hj hjn hj8
  rcases Nat.lt_succ_iff_lt_or_eq.mp hjn with hlt | heq
  · obtain ⟨a7, a8⟩ := h j hj hlt hj8
    refine ⟨fun y x h0 h1 => (h7.2 y (Or.inl ?_)).trans (a7 y x h0 h1), fun y x h0 h1 => (h8.2 y (Or.inl ?_)).trans (a8 y x h0 h1)⟩
    · have := ValueIdx.idx2_lt0 x; omega
    · have := ValueIdx.idx2_lt0 x; omega
  · subst heq
    exact ⟨fun y x h0 h1 => h7.1 y x h0 h1, fun y x h0 h1 => h8.1 y x h0 h1⟩

/-- A second-phase point keeps it. -/
theorem inv_keep (c : Dev nD) (n : ℕ) (hn : 8 ≤ n) (s7 : Vec F S4096x4096 .bf16) (s8 : Vec F S4096x128 .bf16)
    (h : Inv1 V c n s7 s8) : Inv1 V c (n + 1) s7 s8 :=
  fun j hj _ hj8 => h j hj (by omega) hj8

/-- The whole support buffer once the first phase is over: row r is row r % 512 of the block of point r / 512. -/
def support (c : Dev nD) : Vec F S4096x128 .bf16 := fun y =>
  blkPay2 V c (pt ((y (0 : Fin 2)).val / 512) (by have := ValueIdx.idx2_lt0 y; omega))
    (ValueIdx.ix2 (⟨(y (0 : Fin 2)).val % 512, Nat.mod_lt _ (by decide)⟩ : Fin 512) (⟨(y (1 : Fin 2)).val, ValueIdx.idx2_lt1 y⟩ : Fin 128))

/-- What the second phase leaves in the output's buffer at point t (read only for t ≥ 8): the log-softmax block from
    the adjacency block of point t − 8, the whole support and the bias. -/
def out1_5 (c : Dev nD) (t : Fin cfg1.N) : Vec F S512x128 .f32 :=
  View.canon [⟨q1_5, k1_pay3 (blkPay1 V c (pt (t.val - 8) (lt_of_le_of_lt (Nat.sub_le _ _) (val_lt t)))) (support V c) (View.ld (B4 V c t) q1_4)⟩]

/-- A unit-stride 512-row rectangle at rows o … reads row o + x₀. -/
theorem idx_rows7 {off : Fin 2 → ℕ} (inb : ∀ a, off a + S512x4096.size a ≤ S4096x4096.size a) (o : ℕ) (hoff : off = ![o, 0])
    (x : S512x4096.Idx) :
    (((Rect.unit (s := S4096x4096) off S512x4096.size inb).idx x) (0 : Fin 2)).val = o + (x (0 : Fin 2)).val
    ∧ (((Rect.unit (s := S4096x4096) off S512x4096.size inb).idx x) (1 : Fin 2)).val = (x (1 : Fin 2)).val := by
  subst hoff
  constructor
  · show (![o, 0] : Fin 2 → ℕ) 0 + 1 * (x (0 : Fin 2)).val = _
    simp
  · show (![o, 0] : Fin 2 → ℕ) 1 + 1 * (x (1 : Fin 2)).val = _
    simp

/-- With the first phase over, what the second phase computes from the carried buffers is the named block. -/
theorem outB_eq (c : Dev nD) (t : Fin cfg1.N) (ht : 8 ≤ t.val) (hc2 : k1_cond2 (grid1.coords t) = 1#1)
    (s7 : Vec F S4096x4096 .bf16) (s8 : Vec F S4096x128 .bf16) (h : Inv1 V c t.val s7 s8) :
    outB (k1_off3 (grid1.coords t)) (k1_off3_inb (grid1.coords t) hc2) s7 s8 (B4 V c t) = out1_5 V c t := by
  have ht16 := val_lt t
  have e7 : View.ld s7 (Rect.unit (s := S4096x4096) (k1_off3 (grid1.coords t)) S512x4096.size (k1_off3_inb (grid1.coords t) hc2))
      = blkPay1 V c (pt (t.val - 8) (lt_of_le_of_lt (Nat.sub_le _ _) (val_lt t))) := by
    funext x
    obtain ⟨e0, e1⟩ := idx_rows7 (k1_off3_inb (grid1.coords t) hc2) (512 * (t.val - 8)) (hoff3 t ht) x
    exact (h (t.val - 8) (by omega) (by omega) (by omega)).1 _ x e0 e1
  have e8 : View.ld s8 q1_8 = support V c := by
    funext y
    have hy0 := ValueIdx.idx2_lt0 y
    refine (h ((y (0 : Fin 2)).val / 512) (by omega) (by omega) (by omega)).2 _ _ ?_ ?_
    · show (![0, 0] : Fin 2 → ℕ) 0 + 1 * (y (0 : Fin 2)).val = 512 * ((y (0 : Fin 2)).val / 512) + (y (0 : Fin 2)).val % 512
      simp; omega
    · show (![0, 0] : Fin 2 → ℕ) 1 + 1 * (y (1 : Fin 2)).val = (y (1 : Fin 2)).val
      simp
  unfold outB out1_5
  rw [e7, e8]

end Cert.KernelIdeal.Hand

end
-- ==== Proof.KI.Region1A.lean ====
/-
  Region 1, first phase (grid points 0 … 7): the body's triple. The adjacency block handed to the body is copied
  into 512 rows of the cache, the second-layer support block relu(adj_blk · s1 + b1) · W2 into the same rows of
  the support buffer; everything else is left as found.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Region1Defs
import Idealize.ShloMosaic.Lib.Pipeline.FrameBody
import Idealize.ShloMosaic.Lib.WritesUnit
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two triples -/

set_option maxHeartbeats 2000000 in
/-- FIRST PHASE. With the first condition true and the second false, the body leaves the inputs and the output's
    buffer as they were, and each carried buffer with the rows at offset o replaced by the block it computes. -/
theorem sound_kernel1_A (c : Dev nD) (E : Set ℕ) (i : grid1.Coords) (o : ℕ) (hc1 : k1_cond1 i = 1#1) (hc2 : ¬ k1_cond2 i = 1#1)
    (ho1 : k1_off1 i = ![o, 0]) (ho2 : k1_off2 i = ![o, 0])
    (arg1 : Memref sig .tc .vmem S512x4096 .bf16) (harg1 : arg1.IsWhole) (arg2 : Memref sig .tc .vmem S4096x256 .bf16) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x4096 .bf16) (harg7 : arg7.IsWhole) (arg8 : Memref sig .tc .vmem S4096x128 .bf16) (harg8 : arg8.IsWhole)
    (x0 : Vec F S512x4096 .bf16) (x1 : Vec F S4096x256 .bf16) (x2 : Vec F S1x256 .f32) (x3 : Vec F S256x128 .bf16) (x4 : Vec F S1x128 .f32) (x5 : Vec F S512x128 .f32)
    (s7 : Vec F S4096x4096 .bf16) (s8 : Vec F S4096x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare x5 ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare x5
            ∗ (∃ s7', owns (c : Thread nD τ) arg7 fullShare s7' ∗ ⌜RowsSet7 o (k1_pay1 (View.ld x0 q1_0)) s7 s7'⌝)
            ∗ (∃ s8', owns (c : Thread nD τ) arg8 fullShare s8' ∗ ⌜RowsSet8 o (k1_pay2 (View.ld x0 q1_0) (View.ld x1 q1_1) (View.ld x2 q1_2) (View.ld x3 q1_3)) s8 s8'⌝)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
  subst hf0 hf1 hf2 hf3 hf4 hf6 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  isplitl [H7]
  · iexists _; isplitl [H7]
    · iexists _; isplitr
      swap; · iexact H7
      ipureintro; rfl
    ipureintro
    exact ⟨fun y x h0 h1 => View.read_writes_cons_rows_of_mem _ _ _ _ _ y x ho1 h0 h1,
      fun y h => View.read_writes_cons_rows_of_not_mem _ _ _ _ _ y ho1 rfl h⟩
  · iexists _; isplitl [H8]
    · iexists _; isplitr
      swap; · iexact H8
      ipureintro; rfl
    ipureintro
    exact ⟨fun y x h0 h1 => View.read_writes_cons_rows_of_mem _ _ _ _ _ y x ho2 h0 h1,
      fun y h => View.read_writes_cons_rows_of_not_mem _ _ _ _ _ y ho2 rfl h⟩

end Cert.KernelIdeal.Hand

end
-- ==== Proof.KI.Region1B.lean ====
/-
  Region 1, second phase (grid points 8 … 15): the body's triple. The body reads 512 rows of the cache and the
  whole support buffer and leaves log_softmax(rows · support + b2), the padded lanes masked to −∞, in the output's
  buffer; the two carried buffers are left as found.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- SECOND PHASE. With the first condition false and the second true, the body leaves the inputs and the two
    carried buffers as they were, and the output's buffer at the log-softmax block. -/
theorem sound_kernel1_B (c : Dev nD) (E : Set ℕ) (i : grid1.Coords) (hc1 : ¬ k1_cond1 i = 1#1) (hc2 : k1_cond2 i = 1#1)
    (arg1 : Memref sig .tc .vmem S512x4096 .bf16) (harg1 : arg1.IsWhole) (arg2 : Memref sig .tc .vmem S4096x256 .bf16) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x4096 .bf16) (harg7 : arg7.IsWhole) (arg8 : Memref sig .tc .vmem S4096x128 .bf16) (harg8 : arg8.IsWhole)
    (x0 : Vec F S512x4096 .bf16) (x1 : Vec F S4096x256 .bf16) (x2 : Vec F S1x256 .f32) (x3 : Vec F S256x128 .bf16) (x4 : Vec F S1x128 .f32)
    (s7 : Vec F S4096x4096 .bf16) (s8 : Vec F S4096x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outB (k1_off3 i) (k1_off3_inb i hc2) s7 s8 x4) ∗ owns (c : Thread nD τ) arg7 fullShare s7 ∗ owns (c : Thread nD τ) arg8 fullShare s8) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, ⟨%f8, %hf8, H8⟩, Hk⟩
  subst hf0 hf1 hf2 hf3 hf4 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    exact (View.read_writes_eq_canon _ _ _ (cover1_5 _))
  isplitl [H7]
  · iexists f7; isplitr; · ipureintro; rfl
    iexact H7
  iexists f8; isplitr; · ipureintro; rfl
  iexact H8

end Cert.KernelIdeal.Hand

end
-- ==== Proof.KI.Region1.lean ====
/-
  Region 1: the invariant between grid points as a proposition about the core's buffers, the proof data of the
  pipeline, and the body obligation. At a point t < 8 the first-phase triple extends the invariant by the rows of
  point t and hands the output's buffer back untouched (the pipeline neither reads nor writes it back there); at a
  point t ≥ 8 the invariant says both carried buffers are complete, so what the second-phase triple leaves in the
  output's buffer is the block named in the proof data.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Region1Inv
import proofs.«145670_g2000303783144872_pallasbulk_1002_5_alg».proof.Proof.KI.Region1A
import proofs.«145670_g2000303783144872_pallasbulk_1002_5_alg».proof.Proof.KI.Region1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two buffers the kernel carries between points. -/
abbrev scM1_0 : Memref sig .tc .vmem S4096x4096 .bf16 := Memref.whole cc1_scratch0
abbrev scM1_1 : Memref sig .tc .vmem S4096x128 .bf16 := Memref.whole cc1_scratch1

/-- Before point n: the scoped buffers of the other region at anything, the two carried buffers at contents
    satisfying the invariant, the generator register at some state. -/
def Phi1 (c : Dev nD) (n : ℕ) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ (∃ (s7 : Vec F S4096x4096 .bf16) (s8 : Vec F S4096x128 .bf16), owns (c : Thread nD τ) scM1_0 fullShare s7 ∗ owns (c : Thread nD τ) scM1_1 fullShare s8 ∗ ⌜Inv1 V c n s7 s8⌝))
    ∗ ∃ r, prngReg c r)

/-- What the launch hands the region is the invariant before the first point: nothing is claimed of any row. -/
theorem Phi1_in (c : Dev nD) : (Pipeline.ΦA spec1 c : sProp 𝕄) ⊢ Phi1 V c 0 := by
  unfold Pipeline.ΦA Phi1; rw [scopedRest1_eq]; simp only [scM1_0, scM1_1, owns_whole]
  iintro ⟨⟨A1, A2, A3, A4, A5, ⟨%f7, S0⟩, ⟨%f8, S1⟩⟩, P⟩
  isplitr [P]
  · isplitl [A1]; · iexact A1
    isplitl [A2]; · iexact A2
    isplitl [A3]; · iexact A3
    isplitl [A4]; · iexact A4
    isplitl [A5]; · iexact A5
    iexists f7; iexists f8
    isplitl [S0]; · iexact S0
    isplitl [S1]; · iexact S1
    ipureintro; exact inv_zero V c _ _
  iexact P

/-- The invariant gives the scoped buffers back at anything. -/
theorem Phi1_out (c : Dev nD) (n : ℕ) : Phi1 V c n ⊢ (Pipeline.ΦA spec1 c : sProp 𝕄) := by
  unfold Pipeline.ΦA Phi1; rw [scopedRest1_eq]; simp only [scM1_0, scM1_1, owns_whole]
  iintro ⟨⟨A1, A2, A3, A4, A5, ⟨%s7, %s8, S0, S1, -⟩⟩, P⟩
  isplitr [P]
  · isplitl [A1]; · iexact A1
    isplitl [A2]; · iexact A2
    isplitl [A3]; · iexact A3
    isplitl [A4]; · iexact A4
    isplitl [A5]; · iexact A5
    isplitl [S0]; · iexists s7; iexact S0
    iexists s8; iexact S1
  iexact P

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have ht16 := val_lt t
  by_cases ht : t.val < 8
  · -- first phase
    rw [Dat.leavesExact_idle (dat1 V c) 5 t (idleAt1_5 t ht) (noFlush1_5 t ht)]
    unfold Phi1
    iintro ⟨⟨⟨A1, A2, A3, A4, A5, ⟨%s7, %s8, S0, S1, %hinv⟩⟩, P⟩, Ho, ⟨%d0, H0⟩, ⟨%d1, H1⟩, ⟨%d2, H2⟩, ⟨%d3, H3⟩, ⟨%d4, H4⟩, ⟨%d5, H5⟩⟩
    iapply (sound_kernel1_A c Set.univ (grid1.coords t) (512 * t.val) ((hcond1 t).mpr ht) (fun h => absurd ((hcond2 t).mp h) (by omega)) (hoff1 t) (hoff2 t)
      _ _ _ _ _ _ _ _ _ _ _ _ _ _ _ _ (B0 V c t) (B1 V c t) (B2 V c t) (B3 V c t) (B4 V c t) ((dat1 V c).before 5 t d5) s7 s8 _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    iintro ⟨H0, H1, H2, H3, H4, H5, ⟨%s7', S0, %h7⟩, ⟨%s8', S1, %h8⟩⟩
    isplitl [A1 A2 A3 A4 A5 S0 S1 P]
    · isplitr [P]
      · isplitl [A1]; · iexact A1
        isplitl [A2]; · iexact A2
        isplitl [A3]; · iexact A3
        isplitl [A4]; · iexact A4
        isplitl [A5]; · iexact A5
        iexists s7'; iexists s8'
        isplitl [S0]; · iexact S0
        isplitl [S1]; · iexact S1
        ipureintro; exact inv_step V c t s7 s7' s8 s8' hinv h7 h8
      iexact P
    isplitl [Ho]; · iexact Ho
    isplitl [H0]; · iexact H0
    isplitl [H1]; · iexact H1
    isplitl [H2]; · iexact H2
    isplitl [H3]; · iexact H3
    isplitl [H4]; · iexact H4
    iexists d5; iexact H5
  · -- second phase
    have ht8 : 8 ≤ t.val := Nat.le_of_not_lt ht
    rw [show (dat1 V c).leavesExact 5 t = owns (c : Thread nD τ) (st1_5 t) fullShare ((dat1 V c).after 5 t) from by
      unfold Dat.leavesExact; rw [liveAt1_5 t ht8], after1_5]
    unfold Phi1
    iintro ⟨⟨⟨A1, A2, A3, A4, A5, ⟨%s7, %s8, S0, S1, %hinv⟩⟩, P⟩, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => absurd ((hcond1 t).mp h) (by omega)) ((hcond2 t).mpr ht8)
      _ _ _ _ _ _ _ _ _ _ _ _ _ _ _ _ (B0 V c t) (B1 V c t) (B2 V c t) (B3 V c t) (B4 V c t) s7 s8 _)
    isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    iintro ⟨H0, H1, H2, H3, H4, H5, S0, S1⟩
    rw [outB_eq V c t ht8 ((hcond2 t).mpr ht8) s7 s8 hinv]
    isplitl [A1 A2 A3 A4 A5 S0 S1 P]
    · isplitr [P]
      · isplitl [A1]; · iexact A1
        isplitl [A2]; · iexact A2
        isplitl [A3]; · iexact A3
        isplitl [A4]; · iexact A4
        isplitl [A5]; · iexact A5
        iexists s7; iexists s8
        isplitl [S0]; · iexact S0
        isplitl [S1]; · iexact S1
        ipureintro; exact inv_keep V c t.val ht8 s7 s8 hinv
      iexact P
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program: region 0 (x · W1), region 1 (the fused kernel), then the host slice that keeps the
  first 40 class lanes. Between items every unscoped buffer of a core is held whole at named contents: the launch
  memory; after a region, its arrays at what the pipeline's write-backs leave and every other buffer as before;
  after the host slice, the slice of region 1's output. The launch theorem then says every weakly fair execution
  terminates with every unscoped buffer at the last of these contents.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Region0
import proofs.«145670_g2000303783144872_pallasbulk_1002_5_alg».proof.Proof.KI.Region1
import proofs.«145670_g2000303783144872_pallasbulk_1002_5_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After region 0 (region 1's entry). -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After region 1 (the host slice's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the host slice (the end). -/
abbrev W4 : Dev nD → Valuation τ sig (Elt F) := fun c => StableHlo.after hostOps2 (W3 m ρ c)

/-! ## The arguments end as launched: a region reads an argument through an input window, no item writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W0 m ρ c (Proc.devRef .tc main_arg2) := (W2_arr m ρ c 1).trans (((dat0 (V1 m ρ) c).arrAt_in 1 rfl _).trans (A_eq0 (V1 m ρ) c 1))
    _ = m ((c : Thread nD τ).loc main_arg2) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := (W3_arr m ρ c 0).trans (((dat1 (V2 m ρ) c).arrAt_in 0 rfl _).trans (A_eq1 (V2 m ρ) c 0))
    _ = W0 m ρ c (Proc.devRef .tc main_arg1) := W2_of_ne m ρ c main_arg1 (by decide)
    _ = m ((c : Thread nD τ).loc main_arg1) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_arr m ρ c 2).trans (((dat1 (V2 m ρ) c).arrAt_in 2 rfl _).trans (A_eq1 (V2 m ρ) c 2))
    _ = W0 m ρ c (Proc.devRef .tc main_arg3) := W2_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_arr m ρ c 3).trans (((dat1 (V2 m ρ) c).arrAt_in 3 rfl _).trans (A_eq1 (V2 m ρ) c 3))
    _ = W0 m ρ c (Proc.devRef .tc main_arg4) := W2_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := (W3_arr m ρ c 4).trans (((dat1 (V2 m ρ) c).arrAt_in 4 rfl _).trans (A_eq1 (V2 m ρ) c 4))
    _ = W0 m ρ c (Proc.devRef .tc main_arg5) := W2_of_ne m ρ c main_arg5 (by decide)
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- Region 0 over the thread state: entered from every unscoped buffer at the contents before it, left at the
    contents after it. Its arrays are split out of the unscoped buffers and put back at what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi1_in (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_out (V2 m ρ) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.RI.Region0.lean ====
/-
  Region 0 of the program: the row-blocked product x · W1. The grid has 8 points; point t reads rows
  512·t … 512·t+511 of x (window 0), the whole of W1 (window 1, fetched once), and writes the 512 × 256
  block of the product (window 2), rounded to the output's format. Stated at a parameter V, the contents
  of the core's buffers when the region is entered.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x at point t are in the staging buffer of window 0 whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- W1, fetched at the first point only, is in the staging buffer of window 1 at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S512x1408 := Rect.unit (s := S512x1408) ![0, 0] S512x1408.size inb_S512x1408_S512x1408_0_0
abbrev r0_1 : Rect S1408x256 := Rect.unit (s := S1408x256) ![0, 0] S1408x256.size inb_S1408x256_S1408x256_0_0
abbrev r0_2 : Rect S512x256 := Rect.unit (s := S512x256) ![0, 0] S512x256.size inb_S512x256_S512x256_0_0

/-- The product block the body leaves in the output's staging buffer, from the two input blocks. -/
def out0_2 (x0 : Vec F S512x1408 .bf16) (x1 : Vec F S1408x256 .bf16) : Vec F S512x256 .bf16 :=
  View.canon [⟨r0_2, k0_pay1 (View.ld x0 r0_0) (View.ld x1 r0_1)⟩]

/-- The one store covers the whole buffer. -/
theorem cover0_2 (p0 : Vec F S512x256 .bf16) (y : S512x256.Idx) :
    ∃ pc ∈ ([⟨r0_2, p0⟩] : List (View.Piece (Elt F) S512x256 .bf16)), y ∈ pc.1.set :=
  View.cover_of_tiled [⟨r0_2, p0⟩] S512x256.size (by rfl) y

/-! ## The body's triple -/

set_option maxHeartbeats 1000000 in
/-- The body on whole staging buffers, the inputs' at contents x0, x1 and the output's at anything, runs to the
    continuation with the inputs as they were and the output's buffer at the product block. -/
theorem sound_kernel0 (c : Dev nD) (E : Set ℕ) (i : grid0.Coords) (arg1 : Memref sig .tc .vmem S512x1408 .bf16) (harg1 : arg1.IsWhole) (arg2 : Memref sig .tc .vmem S1408x256 .bf16) (harg2 : arg2.IsWhole) (arg3 : Memref sig .tc .vmem S512x256 .bf16) (harg3 : arg3.IsWhole)
    (x0 : Vec F S512x1408 .bf16) (x1 : Vec F S1408x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them; after the body at point t each
    input's buffer at its block and the output's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RI.Region1Defs.lean ====
/-
  Region 1 of the reference: the accumulating kernel's body, its accesses and what one step computes.
  The grid is 8 × 4: point t is row block t / 4 at k = t % 4. The body zeroes a 512-row f32 accumulator when k = 0,
  adds the product of the 512 × 1024 adjacency block with rows 1024·k … of the resident operand at every k, and when
  k = 3 finishes the row block from the accumulator and stores it into the output's buffer.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first condition of the body (k = 0), the scalar chain substituted. -/
abbrev rc1 (i : grid1.Coords) : Prop := (Scalar.cmpi .ne (Scalar.extui (Scalar.cmpi .eq (BitVec.ofNat 32 (i 1).val) 0#32)) 0#32) = 1#1

theorem hz2 : (![0, 0] : Fin 2 → ℕ) = fun _ => 0 := by funext a; fin_cases a <;> rfl

abbrev p1_0 : Rect S512x1024 := Rect.unit (s := S512x1024) ![0, 0] S512x1024.size inb_S512x1024_S512x1024_0_0
abbrev p1_2 : Rect S1x256 := Rect.unit (s := S1x256) ![0, 0] S1x256.size inb_S1x256_S1x256_0_0
abbrev p1_3 : Rect S256x128 := Rect.unit (s := S256x128) ![0, 0] S256x128.size inb_S256x128_S256x128_0_0
abbrev p1_4 : Rect S512x128 := Rect.unit (s := S512x128) ![0, 0] S512x128.size inb_S512x128_S512x128_0_0
abbrev p1_5 : Rect S512x256 := Rect.unit (s := S512x256) ![0, 0] S512x256.size inb_S512x256_S512x256_0_0
/-- The 1024 rows of the resident operand the body reads at the point's k. -/
abbrev sl1 (i : grid1.Coords) : Rect S4096x256 := Rect.unit (s := S4096x256) (k1_off1 i) S1024x256.size (k1_off1_inb i)

/-- One accumulation step: the accumulator s plus the product of the adjacency block with the k-th row slice. -/
def accStep1 (i : grid1.Coords) (s : Vec F S512x256 .f32) (x0 : Vec F S512x1024 .bf16) (x1 : Vec F S4096x256 .bf16) : Vec F S512x256 .f32 :=
  k1_pay2 s (View.ld x0 p1_0) (View.ld x1 (sl1 i))

/-- The finished row block from the accumulator. -/
def outStep1 (a : Vec F S512x256 .f32) (x2 : Vec F S1x256 .f32) (x3 : Vec F S256x128 .bf16) : Vec F S512x128 .bf16 :=
  k1_pay3 a (View.ld x2 p1_2) (View.ld x3 p1_3)

/-- Every index lies in the whole-buffer rectangle of the accumulator, and of the output's buffer. -/
theorem cover1_1a (p0 : Vec F S512x256 .f32) (y : S512x256.Idx) :
    ∃ pc ∈ ([⟨p1_5, p0⟩] : List (View.Piece (Elt F) S512x256 .f32)), y ∈ pc.1.set :=
  ⟨⟨p1_5, p0⟩, List.mem_cons_self, View.mem_set_unit_zero hz2 inb_S512x256_S512x256_0_0 y⟩
theorem cover2_1a (p0 p1 : Vec F S512x256 .f32) (y : S512x256.Idx) :
    ∃ pc ∈ ([⟨p1_5, p0⟩, ⟨p1_5, p1⟩] : List (View.Piece (Elt F) S512x256 .f32)), y ∈ pc.1.set :=
  ⟨⟨p1_5, p0⟩, List.mem_cons_self, View.mem_set_unit_zero hz2 inb_S512x256_S512x256_0_0 y⟩
theorem cover1_1o (p0 : Vec F S512x128 .bf16) (y : S512x128.Idx) :
    ∃ pc ∈ ([⟨p1_4, p0⟩] : List (View.Piece (Elt F) S512x128 .bf16)), y ∈ pc.1.set :=
  ⟨⟨p1_4, p0⟩, List.mem_cons_self, View.mem_set_unit_zero hz2 inb_S512x128_S512x128_0_0 y⟩

end Cert.ReferenceIdeal.Hand

end
-- ==== Proof.RI.Region1A.lean ====
/-
  Region 1 of the reference, the body's triple when k = 0 (not the last k): the accumulator, found at anything, is zeroed and takes the first product; the output's buffer is left as found.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel1_A (c : Dev nD) (E : Set ℕ) (i : grid1.Coords) (hc1 : rc1 i) (hc2 : ¬ k1_cond2 i = 1#1)
    (arg2 : Memref sig .tc .vmem S512x1024 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole)
    (x0 : Vec F S512x1024 .bf16) (x1 : Vec F S4096x256 .bf16) (x2 : Vec F S1x256 .f32) (x3 : Vec F S256x128 .bf16) (xo : Vec F S512x128 .bf16)  (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare (accStep1 i (k1_pay1 (F := F)) x0 x1)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%fO, %hfO, HO⟩, ⟨%dS, %fS, -, HS⟩, Hk⟩
  subst hf0 hf1 hf2 hf3 hfO
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fO; isplitr; · ipureintro; rfl
    iexact HO
  iexists _; isplitr
  swap; · iexact HS
  ipureintro
  sl_unfold_words
  rw [View.read_writes_eq_canon _ _ _ (cover2_1a _ _), View.canon_cons_unit_zero hz2, View.readCov_unit_zero _ hz2]
  rfl

end Cert.ReferenceIdeal.Hand

end
-- ==== Proof.RI.Region1B.lean ====
/-
  Region 1 of the reference, the body's triple when 0 < k < 3: the accumulator takes one more product; the output's buffer is left as found.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel1_B (c : Dev nD) (E : Set ℕ) (i : grid1.Coords) (hc1 : ¬ rc1 i) (hc2 : ¬ k1_cond2 i = 1#1)
    (arg2 : Memref sig .tc .vmem S512x1024 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole)
    (x0 : Vec F S512x1024 .bf16) (x1 : Vec F S4096x256 .bf16) (x2 : Vec F S1x256 .f32) (x3 : Vec F S256x128 .bf16) (xo : Vec F S512x128 .bf16) (s : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare (accStep1 i (s) x0 x1)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%fO, %hfO, HO⟩, ⟨%fS, %hfS, HS⟩, Hk⟩
  subst hf0 hf1 hf2 hf3 hfO hfS
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fO; isplitr; · ipureintro; rfl
    iexact HO
  iexists _; isplitr
  swap; · iexact HS
  ipureintro
  try sl_unfold_words
  rw [View.read_writes_eq_canon _ _ _ (cover1_1a _), View.canon_unit_zero hz2, View.readAt_eq_ld arg7.view fS, View.ld_unit_zero hz2]
  rfl

end Cert.ReferenceIdeal.Hand

end
-- ==== Proof.RI.Region1C.lean ====
/-
  Region 1 of the reference, the body's triple when k = 3: the accumulator takes the last product and the finished row block is stored into the output's buffer.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel1_C (c : Dev nD) (E : Set ℕ) (i : grid1.Coords) (hc1 : ¬ rc1 i) (hc2 : k1_cond2 i = 1#1)
    (arg2 : Memref sig .tc .vmem S512x1024 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole)
    (x0 : Vec F S512x1024 .bf16) (x1 : Vec F S4096x256 .bf16) (x2 : Vec F S1x256 .f32) (x3 : Vec F S256x128 .bf16)  (s : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (outStep1 (accStep1 i s x0 x1) x2 x3) ∗ owns (c : Thread nD τ) arg7 fullShare (accStep1 i (s) x0 x1)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%dO, %fO, -, HO⟩, ⟨%fS, %hfS, HS⟩, Hk⟩
  subst hf0 hf1 hf2 hf3 hfS
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    sl_unfold_words
    rw [View.read_writes_eq_canon _ _ _ (cover1_1o _), View.canon_unit_zero hz2, View.readCov_unit_zero _ hz2, View.readAt_eq_ld arg7.view fS, View.ld_unit_zero hz2]
    rfl
  iexists _; isplitr
  swap; · iexact HS
  ipureintro
  try sl_unfold_words
  rw [View.read_writes_eq_canon _ _ _ (cover1_1a _), View.canon_unit_zero hz2, View.readAt_eq_ld arg7.view fS, View.ld_unit_zero hz2]
  rfl

end Cert.ReferenceIdeal.Hand

end
-- ==== Proof.RI.Region1.lean ====
/-
  Region 1 of the reference: what the accumulator holds after each grid point, the invariant, the proof data of
  the pipeline and the body obligation. After point t the accumulator holds the sum, over the values of k up to
  t % 4, of the products of row block t / 4 of the adjacency with the k-th row slice of the resident operand (a
  recursion that restarts from zero whenever k = 0). The output's buffer is written only at k = 3, from the full sum.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region1A
import proofs.«145670_g2000303783144872_pallasbulk_1002_5_alg».proof.Proof.RI.Region1B
import proofs.«145670_g2000303783144872_pallasbulk_1002_5_alg».proof.Proof.RI.Region1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev B1_0 (c : Dev nD) (t : Fin cfg1.N) : Vec F S512x1024 .bf16 := iblk1 V c 0 t
abbrev B1_1 (c : Dev nD) (t : Fin cfg1.N) : Vec F S4096x256 .bf16 := iblk1 V c 1 t
abbrev B1_2 (c : Dev nD) (t : Fin cfg1.N) : Vec F S1x256 .f32 := iblk1 V c 2 t
abbrev B1_3 (c : Dev nD) (t : Fin cfg1.N) : Vec F S256x128 .bf16 := iblk1 V c 3 t

/-! ## The conditions in closed form, decided over the grid -/

theorem hc1_1 : ∀ t : Fin cfg1.N, rc1 (grid1.coords t) ↔ t.val % 4 = 0 :=
  (by decide +kernel : ∀ t : Fin grid1.N, rc1 (grid1.coords t) ↔ t.val % 4 = 0)
theorem hc2_1 : ∀ t : Fin cfg1.N, k1_cond2 (grid1.coords t) = 1#1 ↔ t.val % 4 = 3 :=
  (by decide +kernel : ∀ t : Fin grid1.N, k1_cond2 (grid1.coords t) = 1#1 ↔ t.val % 4 = 3)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬ t.val % 4 = 3 → cfg1.idle 4 (grid1.coords t) = true := by decide +kernel
theorem noFlush1_4 : ∀ t : Fin cfg1.N, ¬ t.val % 4 = 3 → (cfg1.win 4).flush t = false := by decide +kernel
theorem liveAt1_4 : ∀ t : Fin cfg1.N, t.val % 4 = 3 → cfg1.idle 4 (grid1.coords t) = false := by decide +kernel

def pt1 (j : ℕ) (hj : j < 32) : Fin cfg1.N := ⟨j, lt_of_lt_of_eq hj (show 32 = cfg1.N from N_1.symm)⟩
theorem val_lt1 (t : Fin cfg1.N) : t.val < 32 := lt_of_lt_of_eq t.isLt (show cfg1.N = 32 from N_1)

/-! ## The accumulator after each point -/

def accN1 (c : Dev nD) : (n : ℕ) → n < 32 → Vec F S512x256 .f32
  | 0, h => accStep1 (grid1.coords (pt1 0 h)) (k1_pay1 (F := F)) (B1_0 V c (pt1 0 h)) (B1_1 V c (pt1 0 h))
  | n + 1, h => accStep1 (grid1.coords (pt1 (n + 1) h)) (if (n + 1) % 4 = 0 then k1_pay1 (F := F) else accN1 c n (Nat.lt_of_succ_lt h))
      (B1_0 V c (pt1 (n + 1) h)) (B1_1 V c (pt1 (n + 1) h))

/-- At k = 0 the sum restarts from zero. -/
theorem accN1_first (c : Dev nD) (t : Fin cfg1.N) (h0 : t.val % 4 = 0) :
    accN1 V c t.val (val_lt1 t) = accStep1 (grid1.coords t) (k1_pay1 (F := F)) (B1_0 V c t) (B1_1 V c t) := by
  obtain ⟨n, hn⟩ := t
  cases n with
  | zero => rfl
  | succ n => exact (congrArg (fun s => accStep1 _ s _ _) (if_pos h0))

/-- At k > 0 it adds to the sum of the point before. -/
theorem accN1_next (c : Dev nD) (t : Fin cfg1.N) (h0 : ¬ t.val % 4 = 0) :
    accN1 V c t.val (val_lt1 t) = accStep1 (grid1.coords t) (accN1 V c (t.val - 1) (lt_of_le_of_lt (Nat.sub_le _ _) (val_lt1 t))) (B1_0 V c t) (B1_1 V c t) := by
  obtain ⟨n, hn⟩ := t
  cases n with
  | zero => exact absurd (Nat.zero_mod _) h0
  | succ n => exact (congrArg (fun s => accStep1 _ s _ _) (if_neg h0))

/-- Before point n > 0 the accumulator holds the sum of point n − 1 (before the first point, anything). -/
def InvR1 (c : Dev nD) (n : ℕ) (s : Vec F S512x256 .f32) : Prop :=
  ∀ (j : ℕ) (hj : j < 32), n = j + 1 → s = accN1 V c j hj

abbrev scM1 : Memref sig .tc .vmem S512x256 .f32 := Memref.whole cc1_scratch0

def Phi1 (c : Dev nD) (n : ℕ) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ (s : Vec F S512x256 .f32), owns (c : Thread nD τ) scM1 fullShare s ∗ ⌜InvR1 V c n s⌝)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ f : Buf (Elt F) ((c : Thread nD τ).loc cc2_scratch0), ((c : Thread nD τ).loc cc2_scratch0) ↦{fullShare} f))
    ∗ ∃ r, prngReg c r)

theorem Phi1_in (c : Dev nD) : (Pipeline.ΦA spec1 c : sProp 𝕄) ⊢ Phi1 V c 0 := by
  unfold Pipeline.ΦA Phi1; rw [scopedRest1_eq]; simp only [scM1, owns_whole]
  iintro ⟨⟨A0, A1, A2, A3, A4, ⟨%fS, S⟩, A6, A7, A8, A9, A10, A11, A12⟩, P⟩
  isplitr [P]
  · isplitl [A0]; · iexact A0
    isplitl [A1]; · iexact A1
    isplitl [A2]; · iexact A2
    isplitl [A3]; · iexact A3
    isplitl [A4]; · iexact A4
    isplitl [S]
    · iexists fS; isplitl [S]; · iexact S
      ipureintro; intro j hj e; omega
    isplitl [A6]; · iexact A6
    isplitl [A7]; · iexact A7
    isplitl [A8]; · iexact A8
    isplitl [A9]; · iexact A9
    isplitl [A10]; · iexact A10
    isplitl [A11]; · iexact A11
    iexact A12
  iexact P

theorem Phi1_out (c : Dev nD) (n : ℕ) : Phi1 V c n ⊢ (Pipeline.ΦA spec1 c : sProp 𝕄) := by
  unfold Pipeline.ΦA Phi1; rw [scopedRest1_eq]; simp only [scM1, owns_whole]
  iintro ⟨⟨A0, A1, A2, A3, A4, ⟨%s, S, -⟩, A6, A7, A8, A9, A10, A11, A12⟩, P⟩
  isplitr [P]
  · isplitl [A0]; · iexact A0
    isplitl [A1]; · iexact A1
    isplitl [A2]; · iexact A2
    isplitl [A3]; · iexact A3
    isplitl [A4]; · iexact A4
    isplitl [S]
    · iexists s; iexact S
    isplitl [A6]; · iexact A6
    isplitl [A7]; · iexact A7
    isplitl [A8]; · iexact A8
    isplitl [A9]; · iexact A9
    isplitl [A10]; · iexact A10
    isplitl [A11]; · iexact A11
    iexact A12
  iexact P

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outStep1 (accN1 V c t.val (val_lt1 t)) (B1_2 V c t) (B1_3 V c t)
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outStep1 (accN1 V c t.val (val_lt1 t)) (B1_2 V c t) (B1_3 V c t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have ht32 := val_lt1 t
  by_cases h0 : t.val % 4 = 0
  · -- k = 0
    have h3 : ¬ t.val % 4 = 3 := by omega
    rw [Dat.leavesExact_idle (dat1 V c) 4 t (idleAt1_4 t h3) (noFlush1_4 t h3)]
    unfold Phi1
    iintro ⟨⟨⟨A0, A1, A2, A3, A4, ⟨%s, S, %hinv⟩, A6, A7, A8, A9, A10, A11, A12⟩, P⟩, Ho, ⟨%d0, H0⟩, ⟨%d1, H1⟩, ⟨%d2, H2⟩, ⟨%d3, H3⟩, ⟨%dO, HO⟩⟩
    iapply (sound_kernel1_A c Set.univ (grid1.coords t) ((hc1_1 t).mpr h0) (fun h => h3 ((hc2_1 t).mp h))
      _ _ _ _ _ _ _ _ _ _ _ _ (B1_0 V c t) (B1_1 V c t) (B1_2 V c t) (B1_3 V c t) ((dat1 V c).before 4 t dO) _)
    isplitl [H0]; · iexact H0
    isplitl [H1]; · iexact H1
    isplitl [H2]; · iexact H2
    isplitl [H3]; · iexact H3
    isplitl [HO]; · iexact HO
    isplitl [S]; · iexists _; iexact S
    iintro ⟨H0, H1, H2, H3, HO, S⟩
    isplitl [A0 A1 A2 A3 A4 S A6 A7 A8 A9 A10 A11 A12 P]
    · isplitr [P]
      · isplitl [A0]; · iexact A0
        isplitl [A1]; · iexact A1
        isplitl [A2]; · iexact A2
        isplitl [A3]; · iexact A3
        isplitl [A4]; · iexact A4
        isplitl [S]
        · iexists _; isplitl [S]; · iexact S
          ipureintro
          intro j hj e
          have ej : j = t.val := by omega
          subst ej
          exact (accN1_first V c t h0).symm
        isplitl [A6]; · iexact A6
        isplitl [A7]; · iexact A7
        isplitl [A8]; · iexact A8
        isplitl [A9]; · iexact A9
        isplitl [A10]; · iexact A10
        isplitl [A11]; · iexact A11
        iexact A12
      iexact P
    isplitl [Ho]; · iexact Ho
    isplitl [H0]; · iexact H0
    isplitl [H1]; · iexact H1
    isplitl [H2]; · iexact H2
    isplitl [H3]; · iexact H3
    iexists dO; iexact HO
  · by_cases h3 : t.val % 4 = 3
    · -- k = 3
      rw [show (dat1 V c).leavesExact 4 t = owns (c : Thread nD τ) (st1_4 t) fullShare ((dat1 V c).after 4 t) from by
        unfold Dat.leavesExact; rw [liveAt1_4 t h3], after1_4, accN1_next V c t h0]
      unfold Phi1
      iintro ⟨⟨⟨A0, A1, A2, A3, A4, ⟨%s, S, %hinv⟩, A6, A7, A8, A9, A10, A11, A12⟩, P⟩, Ho, ⟨%d0, H0⟩, ⟨%d1, H1⟩, ⟨%d2, H2⟩, ⟨%d3, H3⟩, ⟨%dO, HO⟩⟩
      have hs := hinv (t.val - 1) (by omega) (by omega)
      subst hs
      iapply (sound_kernel1_C c Set.univ (grid1.coords t) (fun h => h0 ((hc1_1 t).mp h)) ((hc2_1 t).mpr h3)
        _ _ _ _ _ _ _ _ _ _ _ _ (B1_0 V c t) (B1_1 V c t) (B1_2 V c t) (B1_3 V c t) (accN1 V c (t.val - 1) (by omega)) _)
      isplitl [H0]; · iexact H0
      isplitl [H1]; · iexact H1
      isplitl [H2]; · iexact H2
      isplitl [H3]; · iexact H3
      isplitl [HO]; · iexists _; iexact HO
      isplitl [S]; · iexact S
      iintro ⟨H0, H1, H2, H3, HO, S⟩
      isplitl [A0 A1 A2 A3 A4 S A6 A7 A8 A9 A10 A11 A12 P]
      · isplitr [P]
        · isplitl [A0]; · iexact A0
          isplitl [A1]; · iexact A1
          isplitl [A2]; · iexact A2
          isplitl [A3]; · iexact A3
          isplitl [A4]; · iexact A4
          isplitl [S]
          · iexists _; isplitl [S]; · iexact S
            ipureintro
            intro j hj e
            have ej : j = t.val := by omega
            subst ej
            exact (accN1_next V c t h0).symm
          isplitl [A6]; · iexact A6
          isplitl [A7]; · iexact A7
          isplitl [A8]; · iexact A8
          isplitl [A9]; · iexact A9
          isplitl [A10]; · iexact A10
          isplitl [A11]; · iexact A11
          iexact A12
        iexact P
      isplitl [Ho]; · iexact Ho
      isplitl [H0]; · iexact H0
      isplitl [H1]; · iexact H1
      isplitl [H2]; · iexact H2
      isplitl [H3]; · iexact H3
      iexact HO
    · -- 0 < k < 3
      rw [Dat.leavesExact_idle (dat1 V c) 4 t (idleAt1_4 t h3) (noFlush1_4 t h3)]
      unfold Phi1
      iintro ⟨⟨⟨A0, A1, A2, A3, A4, ⟨%s, S, %hinv⟩, A6, A7, A8, A9, A10, A11, A12⟩, P⟩, Ho, ⟨%d0, H0⟩, ⟨%d1, H1⟩, ⟨%d2, H2⟩, ⟨%d3, H3⟩, ⟨%dO, HO⟩⟩
      have hs := hinv (t.val - 1) (by omega) (by omega)
      subst hs
      iapply (sound_kernel1_B c Set.univ (grid1.coords t) (fun h => h0 ((hc1_1 t).mp h)) (fun h => h3 ((hc2_1 t).mp h))
        _ _ _ _ _ _ _ _ _ _ _ _ (B1_0 V c t) (B1_1 V c t) (B1_2 V c t) (B1_3 V c t) ((dat1 V c).before 4 t dO) (accN1 V c (t.val - 1) (by omega)) _)
      isplitl [H0]; · iexact H0
      isplitl [H1]; · iexact H1
      isplitl [H2]; · iexact H2
      isplitl [H3]; · iexact H3
      isplitl [HO]; · iexact HO
      isplitl [S]; · iexact S
      iintro ⟨H0, H1, H2, H3, HO, S⟩
      isplitl [A0 A1 A2 A3 A4 S A6 A7 A8 A9 A10 A11 A12 P]
      · isplitr [P]
        · isplitl [A0]; · iexact A0
          isplitl [A1]; · iexact A1
          isplitl [A2]; · iexact A2
          isplitl [A3]; · iexact A3
          isplitl [A4]; · iexact A4
          isplitl [S]
          · iexists _; isplitl [S]; · iexact S
            ipureintro
            intro j hj e
            have ej : j = t.val := by omega
            subst ej
            exact (accN1_next V c t h0).symm
          isplitl [A6]; · iexact A6
          isplitl [A7]; · iexact A7
          isplitl [A8]; · iexact A8
          isplitl [A9]; · iexact A9
          isplitl [A10]; · iexact A10
          isplitl [A11]; · iexact A11
          iexact A12
        iexact P
      isplitl [Ho]; · iexact Ho
      isplitl [H0]; · iexact H0
      isplitl [H1]; · iexact H1
      isplitl [H2]; · iexact H2
      isplitl [H3]; · iexact H3
      iexists dO; iexact HO

theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RI.Region2Defs.lean ====
/-
  Region 2 of the reference: the accumulating kernel's body, its accesses and what one step computes.
  The grid is 8 × 4: point t is row block t / 4 at k = t % 4. The body zeroes a 512-row f32 accumulator when k = 0,
  adds the product of the 512 × 1024 adjacency block with rows 1024·k … of the resident operand at every k, and when
  k = 3 finishes the row block from the accumulator and stores it into the output's buffer.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first condition of the body (k = 0), the scalar chain substituted. -/
abbrev rc2 (i : grid2.Coords) : Prop := (Scalar.cmpi .ne (Scalar.extui (Scalar.cmpi .eq (BitVec.ofNat 32 (i 1).val) 0#32)) 0#32) = 1#1

theorem hz2 : (![0, 0] : Fin 2 → ℕ) = fun _ => 0 := by funext a; fin_cases a <;> rfl

abbrev p2_0 : Rect S512x1024 := Rect.unit (s := S512x1024) ![0, 0] S512x1024.size inb_S512x1024_S512x1024_0_0
abbrev p2_2 : Rect S1x128 := Rect.unit (s := S1x128) ![0, 0] S1x128.size inb_S1x128_S1x128_0_0
abbrev p2_3 : Rect S512x128 := Rect.unit (s := S512x128) ![0, 0] S512x128.size inb_S512x128_S512x128_0_0
abbrev p2_4 : Rect S512x128 := Rect.unit (s := S512x128) ![0, 0] S512x128.size inb_S512x128_S512x128_0_0
/-- The 1024 rows of the resident operand the body reads at the point's k. -/
abbrev sl2 (i : grid2.Coords) : Rect S4096x128 := Rect.unit (s := S4096x128) (k2_off1 i) S1024x128.size (k2_off1_inb i)

/-- One accumulation step: the accumulator s plus the product of the adjacency block with the k-th row slice. -/
def accStep2 (i : grid2.Coords) (s : Vec F S512x128 .f32) (x0 : Vec F S512x1024 .bf16) (x1 : Vec F S4096x128 .bf16) : Vec F S512x128 .f32 :=
  k2_pay2 s (View.ld x0 p2_0) (View.ld x1 (sl2 i))

/-- The finished row block from the accumulator. -/
def outStep2 (a : Vec F S512x128 .f32) (x2 : Vec F S1x128 .f32) : Vec F S512x128 .f32 :=
  k2_pay3 a (View.ld x2 p2_2)

/-- Every index lies in the whole-buffer rectangle of the accumulator, and of the output's buffer. -/
theorem cover1_2a (p0 : Vec F S512x128 .f32) (y : S512x128.Idx) :
    ∃ pc ∈ ([⟨p2_4, p0⟩] : List (View.Piece (Elt F) S512x128 .f32)), y ∈ pc.1.set :=
  ⟨⟨p2_4, p0⟩, List.mem_cons_self, View.mem_set_unit_zero hz2 inb_S512x128_S512x128_0_0 y⟩
theorem cover2_2a (p0 p1 : Vec F S512x128 .f32) (y : S512x128.Idx) :
    ∃ pc ∈ ([⟨p2_4, p0⟩, ⟨p2_4, p1⟩] : List (View.Piece (Elt F) S512x128 .f32)), y ∈ pc.1.set :=
  ⟨⟨p2_4, p0⟩, List.mem_cons_self, View.mem_set_unit_zero hz2 inb_S512x128_S512x128_0_0 y⟩
theorem cover1_2o (p0 : Vec F S512x128 .f32) (y : S512x128.Idx) :
    ∃ pc ∈ ([⟨p2_3, p0⟩] : List (View.Piece (Elt F) S512x128 .f32)), y ∈ pc.1.set :=
  ⟨⟨p2_3, p0⟩, List.mem_cons_self, View.mem_set_unit_zero hz2 inb_S512x128_S512x128_0_0 y⟩

end Cert.ReferenceIdeal.Hand

end
-- ==== Proof.RI.Region2A.lean ====
/-
  Region 2 of the reference, the body's triple when k = 0 (not the last k): the accumulator, found at anything, is zeroed and takes the first product; the output's buffer is left as found.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region2Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel2_A (c : Dev nD) (E : Set ℕ) (i : grid2.Coords) (hc1 : rc2 i) (hc2 : ¬ k2_cond2 i = 1#1)
    (arg2 : Memref sig .tc .vmem S512x1024 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole)
    (x0 : Vec F S512x1024 .bf16) (x1 : Vec F S4096x128 .bf16) (x2 : Vec F S1x128 .f32) (xo : Vec F S512x128 .f32)  (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep2 i (k2_pay1 (F := F)) x0 x1)) -∗ K ⟨⟩))
      ⊢ wp frame (wpE (defs₀ (F := F)) Variants.none c none) E (cc2__gc2_kernel i arg2 harg2 arg3 harg3 arg4 harg4 arg5 harg5 arg6 harg6) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%fO, %hfO, HO⟩, ⟨%dS, %fS, -, HS⟩, Hk⟩
  subst hf0 hf1 hf2 hfO
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fO; isplitr; · ipureintro; rfl
    iexact HO
  iexists _; isplitr
  swap; · iexact HS
  ipureintro
  sl_unfold_words
  rw [View.read_writes_eq_canon _ _ _ (cover2_2a _ _), View.canon_cons_unit_zero hz2, View.readCov_unit_zero _ hz2]
  rfl

end Cert.ReferenceIdeal.Hand

end
-- ==== Proof.RI.Region2B.lean ====
/-
  Region 2 of the reference, the body's triple when 0 < k < 3: the accumulator takes one more product; the output's buffer is left as found.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region2Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel2_B (c : Dev nD) (E : Set ℕ) (i : grid2.Coords) (hc1 : ¬ rc2 i) (hc2 : ¬ k2_cond2 i = 1#1)
    (arg2 : Memref sig .tc .vmem S512x1024 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole)
    (x0 : Vec F S512x1024 .bf16) (x1 : Vec F S4096x128 .bf16) (x2 : Vec F S1x128 .f32) (xo : Vec F S512x128 .f32) (s : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep2 i (s) x0 x1)) -∗ K ⟨⟩))
      ⊢ wp frame (wpE (defs₀ (F := F)) Variants.none c none) E (cc2__gc2_kernel i arg2 harg2 arg3 harg3 arg4 harg4 arg5 harg5 arg6 harg6) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%fO, %hfO, HO⟩, ⟨%fS, %hfS, HS⟩, Hk⟩
  subst hf0 hf1 hf2 hfO hfS
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fO; isplitr; · ipureintro; rfl
    iexact HO
  iexists _; isplitr
  swap; · iexact HS
  ipureintro
  try sl_unfold_words
  rw [View.read_writes_eq_canon _ _ _ (cover1_2a _), View.canon_unit_zero hz2, View.readAt_eq_ld arg6.view fS, View.ld_unit_zero hz2]
  rfl

end Cert.ReferenceIdeal.Hand

end
-- ==== Proof.RI.Region2C.lean ====
/-
  Region 2 of the reference, the body's triple when k = 3: the accumulator takes the last product and the finished row block is stored into the output's buffer.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region2Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel2_C (c : Dev nD) (E : Set ℕ) (i : grid2.Coords) (hc1 : ¬ rc2 i) (hc2 : k2_cond2 i = 1#1)
    (arg2 : Memref sig .tc .vmem S512x1024 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole)
    (x0 : Vec F S512x1024 .bf16) (x1 : Vec F S4096x128 .bf16) (x2 : Vec F S1x128 .f32)  (s : Vec F S512x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (outStep2 (accStep2 i s x0 x1) x2) ∗ owns (c : Thread nD τ) arg6 fullShare (accStep2 i (s) x0 x1)) -∗ K ⟨⟩))
      ⊢ wp frame (wpE (defs₀ (F := F)) Variants.none c none) E (cc2__gc2_kernel i arg2 harg2 arg3 harg3 arg4 harg4 arg5 harg5 arg6 harg6) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%dO, %fO, -, HO⟩, ⟨%fS, %hfS, HS⟩, Hk⟩
  subst hf0 hf1 hf2 hfS
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    sl_unfold_words
    rw [View.read_writes_eq_canon _ _ _ (cover1_2o _), View.canon_unit_zero hz2, View.readCov_unit_zero _ hz2, View.readAt_eq_ld arg6.view fS, View.ld_unit_zero hz2]
    rfl
  iexists _; isplitr
  swap; · iexact HS
  ipureintro
  try sl_unfold_words
  rw [View.read_writes_eq_canon _ _ _ (cover1_2a _), View.canon_unit_zero hz2, View.readAt_eq_ld arg6.view fS, View.ld_unit_zero hz2]
  rfl

end Cert.ReferenceIdeal.Hand

end
-- ==== Proof.RI.Region2.lean ====
/-
  Region 2 of the reference: what the accumulator holds after each grid point, the invariant, the proof data of
  the pipeline and the body obligation. After point t the accumulator holds the sum, over the values of k up to
  t % 4, of the products of row block t / 4 of the adjacency with the k-th row slice of the resident operand (a
  recursion that restarts from zero whenever k = 0). The output's buffer is written only at k = 3, from the full sum.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region2A
import proofs.«145670_g2000303783144872_pallasbulk_1002_5_alg».proof.Proof.RI.Region2B
import proofs.«145670_g2000303783144872_pallasbulk_1002_5_alg».proof.Proof.RI.Region2C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev B2_0 (c : Dev nD) (t : Fin cfg2.N) : Vec F S512x1024 .bf16 := iblk2 V c 0 t
abbrev B2_1 (c : Dev nD) (t : Fin cfg2.N) : Vec F S4096x128 .bf16 := iblk2 V c 1 t
abbrev B2_2 (c : Dev nD) (t : Fin cfg2.N) : Vec F S1x128 .f32 := iblk2 V c 2 t

/-! ## The conditions in closed form, decided over the grid -/

theorem hc1_2 : ∀ t : Fin cfg2.N, rc2 (grid2.coords t) ↔ t.val % 4 = 0 :=
  (by decide +kernel : ∀ t : Fin grid2.N, rc2 (grid2.coords t) ↔ t.val % 4 = 0)
theorem hc2_2 : ∀ t : Fin cfg2.N, k2_cond2 (grid2.coords t) = 1#1 ↔ t.val % 4 = 3 :=
  (by decide +kernel : ∀ t : Fin grid2.N, k2_cond2 (grid2.coords t) = 1#1 ↔ t.val % 4 = 3)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬ t.val % 4 = 3 → cfg2.idle 3 (grid2.coords t) = true := by decide +kernel
theorem noFlush2_3 : ∀ t : Fin cfg2.N, ¬ t.val % 4 = 3 → (cfg2.win 3).flush t = false := by decide +kernel
theorem liveAt2_3 : ∀ t : Fin cfg2.N, t.val % 4 = 3 → cfg2.idle 3 (grid2.coords t) = false := by decide +kernel

def pt2 (j : ℕ) (hj : j < 32) : Fin cfg2.N := ⟨j, lt_of_lt_of_eq hj (show 32 = cfg2.N from N_2.symm)⟩
theorem val_lt2 (t : Fin cfg2.N) : t.val < 32 := lt_of_lt_of_eq t.isLt (show cfg2.N = 32 from N_2)

/-! ## The accumulator after each point -/

def accN2 (c : Dev nD) : (n : ℕ) → n < 32 → Vec F S512x128 .f32
  | 0, h => accStep2 (grid2.coords (pt2 0 h)) (k2_pay1 (F := F)) (B2_0 V c (pt2 0 h)) (B2_1 V c (pt2 0 h))
  | n + 1, h => accStep2 (grid2.coords (pt2 (n + 1) h)) (if (n + 1) % 4 = 0 then k2_pay1 (F := F) else accN2 c n (Nat.lt_of_succ_lt h))
      (B2_0 V c (pt2 (n + 1) h)) (B2_1 V c (pt2 (n + 1) h))

/-- At k = 0 the sum restarts from zero. -/
theorem accN2_first (c : Dev nD) (t : Fin cfg2.N) (h0 : t.val % 4 = 0) :
    accN2 V c t.val (val_lt2 t) = accStep2 (grid2.coords t) (k2_pay1 (F := F)) (B2_0 V c t) (B2_1 V c t) := by
  obtain ⟨n, hn⟩ := t
  cases n with
  | zero => rfl
  | succ n => exact (congrArg (fun s => accStep2 _ s _ _) (if_pos h0))

/-- At k > 0 it adds to the sum of the point before. -/
theorem accN2_next (c : Dev nD) (t : Fin cfg2.N) (h0 : ¬ t.val % 4 = 0) :
    accN2 V c t.val (val_lt2 t) = accStep2 (grid2.coords t) (accN2 V c (t.val - 1) (lt_of_le_of_lt (Nat.sub_le _ _) (val_lt2 t))) (B2_0 V c t) (B2_1 V c t) := by
  obtain ⟨n, hn⟩ := t
  cases n with
  | zero => exact absurd (Nat.zero_mod _) h0
  | succ n => exact (congrArg (fun s => accStep2 _ s _ _) (if_neg h0))

/-- Before point n > 0 the accumulator holds the sum of point n − 1 (before the first point, anything). -/
def InvR2 (c : Dev nD) (n : ℕ) (s : Vec F S512x128 .f32) : Prop :=
  ∀ (j : ℕ) (hj : j < 32), n = j + 1 → s = accN2 V c j hj

abbrev scM2 : Memref sig .tc .vmem S512x128 .f32 := Memref.whole cc2_scratch0

def Phi2 (c : Dev nD) (n : ℕ) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f)
      ∗ (∃ (s : Vec F S512x128 .f32), owns (c : Thread nD τ) scM2 fullShare s ∗ ⌜InvR2 V c n s⌝))
    ∗ ∃ r, prngReg c r)

theorem Phi2_in (c : Dev nD) : (Pipeline.ΦA spec2 c : sProp 𝕄) ⊢ Phi2 V c 0 := by
  unfold Pipeline.ΦA Phi2; rw [scopedRest2_eq]; simp only [scM2, owns_whole]
  iintro ⟨⟨A0, A1, A2, A3, A4, A5, A6, A7, A8, A9, A10, A11, A12, ⟨%fS, S⟩⟩, P⟩
  isplitr [P]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexists fS; isplitl [S]; · iexact S
    ipureintro; intro j hj e; omega
  iexact P

theorem Phi2_out (c : Dev nD) (n : ℕ) : Phi2 V c n ⊢ (Pipeline.ΦA spec2 c : sProp 𝕄) := by
  unfold Pipeline.ΦA Phi2; rw [scopedRest2_eq]; simp only [scM2, owns_whole]
  iintro ⟨⟨A0, A1, A2, A3, A4, A5, A6, A7, A8, A9, A10, A11, A12, ⟨%s, S, -⟩⟩, P⟩
  isplitr [P]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexists s; iexact S
  iexact P

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outStep2 (accN2 V c t.val (val_lt2 t)) (B2_2 V c t)
  Φ t := Phi2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outStep2 (accN2 V c t.val (val_lt2 t)) (B2_2 V c t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) from rfl, show (dat2 V c).Φ t.castSucc = Phi2 V c t.val from rfl]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have ht32 := val_lt2 t
  by_cases h0 : t.val % 4 = 0
  · -- k = 0
    have h3 : ¬ t.val % 4 = 3 := by omega
    rw [Dat.leavesExact_idle (dat2 V c) 3 t (idleAt2_3 t h3) (noFlush2_3 t h3)]
    unfold Phi2
    iintro ⟨⟨⟨A0, A1, A2, A3, A4, A5, A6, A7, A8, A9, A10, A11, A12, ⟨%s, S, %hinv⟩⟩, P⟩, Ho, ⟨%d0, H0⟩, ⟨%d1, H1⟩, ⟨%d2, H2⟩, ⟨%dO, HO⟩⟩
    iapply (sound_kernel2_A c Set.univ (grid2.coords t) ((hc1_2 t).mpr h0) (fun h => h3 ((hc2_2 t).mp h))
      _ _ _ _ _ _ _ _ _ _ (B2_0 V c t) (B2_1 V c t) (B2_2 V c t) ((dat2 V c).before 3 t dO) _)
    isplitl [H0]; · iexact H0
    isplitl [H1]; · iexact H1
    isplitl [H2]; · iexact H2
    isplitl [HO]; · iexact HO
    isplitl [S]; · iexists _; iexact S
    iintro ⟨H0, H1, H2, HO, S⟩
    isplitl [A0 A1 A2 A3 A4 A5 A6 A7 A8 A9 A10 A11 A12 S P]
    · isplitr [P]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        iexists _; isplitl [S]; · iexact S
        ipureintro
        intro j hj e
        have ej : j = t.val := by omega
        subst ej
        exact (accN2_first V c t h0).symm
      iexact P
    isplitl [Ho]; · iexact Ho
    isplitl [H0]; · iexact H0
    isplitl [H1]; · iexact H1
    isplitl [H2]; · iexact H2
    iexists dO; iexact HO
  · by_cases h3 : t.val % 4 = 3
    · -- k = 3
      rw [show (dat2 V c).leavesExact 3 t = owns (c : Thread nD τ) (st2_3 t) fullShare ((dat2 V c).after 3 t) from by
        unfold Dat.leavesExact; rw [liveAt2_3 t h3], after2_3, accN2_next V c t h0]
      unfold Phi2
      iintro ⟨⟨⟨A0, A1, A2, A3, A4, A5, A6, A7, A8, A9, A10, A11, A12, ⟨%s, S, %hinv⟩⟩, P⟩, Ho, ⟨%d0, H0⟩, ⟨%d1, H1⟩, ⟨%d2, H2⟩, ⟨%dO, HO⟩⟩
      have hs := hinv (t.val - 1) (by omega) (by omega)
      subst hs
      iapply (sound_kernel2_C c Set.univ (grid2.coords t) (fun h => h0 ((hc1_2 t).mp h)) ((hc2_2 t).mpr h3)
        _ _ _ _ _ _ _ _ _ _ (B2_0 V c t) (B2_1 V c t) (B2_2 V c t) (accN2 V c (t.val - 1) (by omega)) _)
      isplitl [H0]; · iexact H0
      isplitl [H1]; · iexact H1
      isplitl [H2]; · iexact H2
      isplitl [HO]; · iexists _; iexact HO
      isplitl [S]; · iexact S
      iintro ⟨H0, H1, H2, HO, S⟩
      isplitl [A0 A1 A2 A3 A4 A5 A6 A7 A8 A9 A10 A11 A12 S P]
      · isplitr [P]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          iexists _; isplitl [S]; · iexact S
          ipureintro
          intro j hj e
          have ej : j = t.val := by omega
          subst ej
          exact (accN2_next V c t h0).symm
        iexact P
      isplitl [Ho]; · iexact Ho
      isplitl [H0]; · iexact H0
      isplitl [H1]; · iexact H1
      isplitl [H2]; · iexact H2
      iexact HO
    · -- 0 < k < 3
      rw [Dat.leavesExact_idle (dat2 V c) 3 t (idleAt2_3 t h3) (noFlush2_3 t h3)]
      unfold Phi2
      iintro ⟨⟨⟨A0, A1, A2, A3, A4, A5, A6, A7, A8, A9, A10, A11, A12, ⟨%s, S, %hinv⟩⟩, P⟩, Ho, ⟨%d0, H0⟩, ⟨%d1, H1⟩, ⟨%d2, H2⟩, ⟨%dO, HO⟩⟩
      have hs := hinv (t.val - 1) (by omega) (by omega)
      subst hs
      iapply (sound_kernel2_B c Set.univ (grid2.coords t) (fun h => h0 ((hc1_2 t).mp h)) (fun h => h3 ((hc2_2 t).mp h))
        _ _ _ _ _ _ _ _ _ _ (B2_0 V c t) (B2_1 V c t) (B2_2 V c t) ((dat2 V c).before 3 t dO) (accN2 V c (t.val - 1) (by omega)) _)
      isplitl [H0]; · iexact H0
      isplitl [H1]; · iexact H1
      isplitl [H2]; · iexact H2
      isplitl [HO]; · iexact HO
      isplitl [S]; · iexact S
      iintro ⟨H0, H1, H2, HO, S⟩
      isplitl [A0 A1 A2 A3 A4 A5 A6 A7 A8 A9 A10 A11 A12 S P]
      · isplitr [P]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          iexists _; isplitl [S]; · iexact S
          ipureintro
          intro j hj e
          have ej : j = t.val := by omega
          subst ej
          exact (accN2_next V c t h0).symm
        iexact P
      isplitl [Ho]; · iexact Ho
      isplitl [H0]; · iexact H0
      isplitl [H1]; · iexact H1
      isplitl [H2]; · iexact H2
      iexists dO; iexact HO

theorem body_obligation2 (c : Dev nD) : BodyObligation (dat2 (F := F) V c) (defs₀ (F := F)) Variants.none () Set.univ := fun t => by
  rw [bigSep_W2, bigSep_W2]
  exact sound_body2 V c t

end Cert.ReferenceIdeal.Hand

end
-- ==== Proof.RI.Run.lean ====
/-
  The run of the whole program: its 3 kernel regions in order, then the host slice that keeps the first 40 class
  lanes. Between items every unscoped buffer of a core is held whole at named contents: the launch memory; after a
  region, its arrays at what the pipeline's write-backs leave and every other buffer as before; after the host
  slice, the slice of the last region's output. The launch theorem then says every weakly fair execution terminates
  with every unscoped buffer at the last of these contents.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region0
import proofs.«145670_g2000303783144872_pallasbulk_1002_5_alg».proof.Proof.RI.Region1
import proofs.«145670_g2000303783144872_pallasbulk_1002_5_alg».proof.Proof.RI.Region2
import proofs.«145670_g2000303783144872_pallasbulk_1002_5_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev U0 : Dev nD → Valuation τ sig (Elt F) := fun c b => (s₀ m ρ).mem ((c : Dev nD), b)
abbrev Vv0 : (c : Dev nD) → (b : Ref sig .tc) → Buf (Elt F) ((c : Thread nD τ).loc b) := fun c b => U0 m ρ c b
/-- After region 0. -/
def U1 (c : Dev nD) : Valuation τ sig (Elt F) :=
  Pipeline.withArrays spec0 c (U0 m ρ c) fun w => (dat0 (Vv0 m ρ) c).arrAt w cfg0.N
theorem U1_arr (c : Dev nD) (w : Fin cfg0.W) :
    U1 m ρ c (Proc.devRef .tc (Pipeline.arrRef spec0 w)) = (dat0 (Vv0 m ρ) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m ρ c (Proc.devRef .tc b) = U0 m ρ c (Proc.devRef .tc b) := by
  unfold U1; exact Pipeline.withArrays_of_ne spec0 c _ _ b hb
abbrev Vv1 : (c : Dev nD) → (b : Ref sig .tc) → Buf (Elt F) ((c : Thread nD τ).loc b) := fun c b => U1 m ρ c b
theorem hF0 (c : Dev nD) (w : Fin cfg0.W) : (dat0 (Vv0 m ρ) c).arrAt w cfg0.N = Vv1 m ρ c (Pipeline.arrRef spec0 w) :=
  (U1_arr m ρ c w).symm
theorem hrest0 (c : Dev nD) : ∀ b, b ∉ Finset.univ.image (Pipeline.arrRef spec0) → Vv1 m ρ c b = Vv0 m ρ c b :=
  fun b hb => U1_of_ne m ρ c b fun w e => hb (Finset.mem_image.mpr ⟨w, Finset.mem_univ _, e⟩)
/-- After region 1. -/
def U2 (c : Dev nD) : Valuation τ sig (Elt F) :=
  Pipeline.withArrays spec1 c (U1 m ρ c) fun w => (dat1 (Vv1 m ρ) c).arrAt w cfg1.N
theorem U2_arr (c : Dev nD) (w : Fin cfg1.W) :
    U2 m ρ c (Proc.devRef .tc (Pipeline.arrRef spec1 w)) = (dat1 (Vv1 m ρ) c).arrAt w cfg1.N := by
  unfold U2; exact Pipeline.withArrays_arr spec1 launch1.win.arr_inj c _ _ w
theorem U2_of_ne (c : Dev nD) (b : Ref sig .tc) (hb : ∀ w, Pipeline.arrRef spec1 w ≠ b) :
    U2 m ρ c (Proc.devRef .tc b) = U1 m ρ c (Proc.devRef .tc b) := by
  unfold U2; exact Pipeline.withArrays_of_ne spec1 c _ _ b hb
abbrev Vv2 : (c : Dev nD) → (b : Ref sig .tc) → Buf (Elt F) ((c : Thread nD τ).loc b) := fun c b => U2 m ρ c b
theorem hF1 (c : Dev nD) (w : Fin cfg1.W) : (dat1 (Vv1 m ρ) c).arrAt w cfg1.N = Vv2 m ρ c (Pipeline.arrRef spec1 w) :=
  (U2_arr m ρ c w).symm
theorem hrest1 (c : Dev nD) : ∀ b, b ∉ Finset.univ.image (Pipeline.arrRef spec1) → Vv2 m ρ c b = Vv1 m ρ c b :=
  fun b hb => U2_of_ne m ρ c b fun w e => hb (Finset.mem_image.mpr ⟨w, Finset.mem_univ _, e⟩)
/-- After region 2. -/
def U3 (c : Dev nD) : Valuation τ sig (Elt F) :=
  Pipeline.withArrays spec2 c (U2 m ρ c) fun w => (dat2 (Vv2 m ρ) c).arrAt w cfg2.N
theorem U3_arr (c : Dev nD) (w : Fin cfg2.W) :
    U3 m ρ c (Proc.devRef .tc (Pipeline.arrRef spec2 w)) = (dat2 (Vv2 m ρ) c).arrAt w cfg2.N := by
  unfold U3; exact Pipeline.withArrays_arr spec2 launch2.win.arr_inj c _ _ w
theorem U3_of_ne (c : Dev nD) (b : Ref sig .tc) (hb : ∀ w, Pipeline.arrRef spec2 w ≠ b) :
    U3 m ρ c (Proc.devRef .tc b) = U2 m ρ c (Proc.devRef .tc b) := by
  unfold U3; exact Pipeline.withArrays_of_ne spec2 c _ _ b hb
abbrev Vv3 : (c : Dev nD) → (b : Ref sig .tc) → Buf (Elt F) ((c : Thread nD τ).loc b) := fun c b => U3 m ρ c b
theorem hF2 (c : Dev nD) (w : Fin cfg2.W) : (dat2 (Vv2 m ρ) c).arrAt w cfg2.N = Vv3 m ρ c (Pipeline.arrRef spec2 w) :=
  (U3_arr m ρ c w).symm
theorem hrest2 (c : Dev nD) : ∀ b, b ∉ Finset.univ.image (Pipeline.arrRef spec2) → Vv3 m ρ c b = Vv2 m ρ c b :=
  fun b hb => U3_of_ne m ρ c b fun w e => hb (Finset.mem_image.mpr ⟨w, Finset.mem_univ _, e⟩)
/-- After the host slice (the end). -/
abbrev U4 : Dev nD → Valuation τ sig (Elt F) := fun c => StableHlo.after hostOps3 (U3 m ρ c)

/-! ## The arguments end as launched: a region reads an argument through an input window, no item writes one -/

theorem Ufin_main_arg0 (c : Dev nD) : U4 m ρ c (Proc.devRef .tc main_arg0) = m ((c : Thread nD τ).loc main_arg0) :=
  calc U4 m ρ c (Proc.devRef .tc main_arg0)
    _ = U3 m ρ c (Proc.devRef .tc main_arg0) := StableHlo.after_of_writes_sub hostOps3 _ hostOps3_writes (by decide)
    _ = U2 m ρ c (Proc.devRef .tc main_arg0) := U3_of_ne m ρ c main_arg0 (by decide)
    _ = U1 m ρ c (Proc.devRef .tc main_arg0) := U2_of_ne m ρ c main_arg0 (by decide)
    _ = U0 m ρ c (Proc.devRef .tc main_arg0) := (U1_arr m ρ c 0).trans (((dat0 (Vv0 m ρ) c).arrAt_in 0 rfl _).trans (A_eq0 (Vv0 m ρ) c 0))
    _ = m ((c : Thread nD τ).loc main_arg0) := rfl
theorem Ufin_main_arg1 (c : Dev nD) : U4 m ρ c (Proc.devRef .tc main_arg1) = m ((c : Thread nD τ).loc main_arg1) :=
  calc U4 m ρ c (Proc.devRef .tc main_arg1)
    _ = U3 m ρ c (Proc.devRef .tc main_arg1) := StableHlo.after_of_writes_sub hostOps3 _ hostOps3_writes (by decide)
    _ = U2 m ρ c (Proc.devRef .tc main_arg1) := (U3_arr m ρ c 0).trans (((dat2 (Vv2 m ρ) c).arrAt_in 0 rfl _).trans (A_eq2 (Vv2 m ρ) c 0))
    _ = U1 m ρ c (Proc.devRef .tc main_arg1) := (U2_arr m ρ c 0).trans (((dat1 (Vv1 m ρ) c).arrAt_in 0 rfl _).trans (A_eq1 (Vv1 m ρ) c 0))
    _ = U0 m ρ c (Proc.devRef .tc main_arg1) := U1_of_ne m ρ c main_arg1 (by decide)
    _ = m ((c : Thread nD τ).loc main_arg1) := rfl
theorem Ufin_main_arg2 (c : Dev nD) : U4 m ρ c (Proc.devRef .tc main_arg2) = m ((c : Thread nD τ).loc main_arg2) :=
  calc U4 m ρ c (Proc.devRef .tc main_arg2)
    _ = U3 m ρ c (Proc.devRef .tc main_arg2) := StableHlo.after_of_writes_sub hostOps3 _ hostOps3_writes (by decide)
    _ = U2 m ρ c (Proc.devRef .tc main_arg2) := U3_of_ne m ρ c main_arg2 (by decide)
    _ = U1 m ρ c (Proc.devRef .tc main_arg2) := U2_of_ne m ρ c main_arg2 (by decide)
    _ = U0 m ρ c (Proc.devRef .tc main_arg2) := (U1_arr m ρ c 1).trans (((dat0 (Vv0 m ρ) c).arrAt_in 1 rfl _).trans (A_eq0 (Vv0 m ρ) c 1))
    _ = m ((c : Thread nD τ).loc main_arg2) := rfl
theorem Ufin_main_arg3 (c : Dev nD) : U4 m ρ c (Proc.devRef .tc main_arg3) = m ((c : Thread nD τ).loc main_arg3) :=
  calc U4 m ρ c (Proc.devRef .tc main_arg3)
    _ = U3 m ρ c (Proc.devRef .tc main_arg3) := StableHlo.after_of_writes_sub hostOps3 _ hostOps3_writes (by decide)
    _ = U2 m ρ c (Proc.devRef .tc main_arg3) := U3_of_ne m ρ c main_arg3 (by decide)
    _ = U1 m ρ c (Proc.devRef .tc main_arg3) := (U2_arr m ρ c 2).trans (((dat1 (Vv1 m ρ) c).arrAt_in 2 rfl _).trans (A_eq1 (Vv1 m ρ) c 2))
    _ = U0 m ρ c (Proc.devRef .tc main_arg3) := U1_of_ne m ρ c main_arg3 (by decide)
    _ = m ((c : Thread nD τ).loc main_arg3) := rfl
theorem Ufin_main_arg4 (c : Dev nD) : U4 m ρ c (Proc.devRef .tc main_arg4) = m ((c : Thread nD τ).loc main_arg4) :=
  calc U4 m ρ c (Proc.devRef .tc main_arg4)
    _ = U3 m ρ c (Proc.devRef .tc main_arg4) := StableHlo.after_of_writes_sub hostOps3 _ hostOps3_writes (by decide)
    _ = U2 m ρ c (Proc.devRef .tc main_arg4) := U3_of_ne m ρ c main_arg4 (by decide)
    _ = U1 m ρ c (Proc.devRef .tc main_arg4) := (U2_arr m ρ c 3).trans (((dat1 (Vv1 m ρ) c).arrAt_in 3 rfl _).trans (A_eq1 (Vv1 m ρ) c 3))
    _ = U0 m ρ c (Proc.devRef .tc main_arg4) := U1_of_ne m ρ c main_arg4 (by decide)
    _ = m ((c : Thread nD τ).loc main_arg4) := rfl
theorem Ufin_main_arg5 (c : Dev nD) : U4 m ρ c (Proc.devRef .tc main_arg5) = m ((c : Thread nD τ).loc main_arg5) :=
  calc U4 m ρ c (Proc.devRef .tc main_arg5)
    _ = U3 m ρ c (Proc.devRef .tc main_arg5) := StableHlo.after_of_writes_sub hostOps3 _ hostOps3_writes (by decide)
    _ = U2 m ρ c (Proc.devRef .tc main_arg5) := (U3_arr m ρ c 2).trans (((dat2 (Vv2 m ρ) c).arrAt_in 2 rfl _).trans (A_eq2 (Vv2 m ρ) c 2))
    _ = U1 m ρ c (Proc.devRef .tc main_arg5) := U2_of_ne m ρ c main_arg5 (by decide)
    _ = U0 m ρ c (Proc.devRef .tc main_arg5) := U1_of_ne m ρ c main_arg5 (by decide)
    _ = m ((c : Thread nD τ).loc main_arg5) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (Vv0 m ρ) c
  | ⟨1, _⟩ => fun c => dat1 (Vv1 m ρ) c
  | ⟨2, _⟩ => fun c => dat2 (Vv2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U4 m ρ c) ∗ ∃ r, prngReg c r)

/-! ## The regions as items -/

set_option backward.isDefEq.respectTransparency.types false in
/-- Region 0 over the thread state: entered from every unscoped buffer at the contents before it, left at the
    contents after it. Its arrays are split out of the unscoped buffers and put back at what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vv0 m ρ) c).loose
  hwaits := Pipeline.hwaits_of_owed_zero _ _ _ _ L lv 0 fun _ _ => rfl
  pre c := iprop(StableHlo.held (c : Thread nD τ) (Pipeline.ucRefs τ sig) (U0 m ρ c) ∗ R c)
  post c := iprop(StableHlo.held (c : Thread nD τ) (Pipeline.ucRefs τ sig) (U1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vv0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vv0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vv0 m ρ c) (Vv1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vv1 m ρ) c).loose
  hwaits := Pipeline.hwaits_of_owed_zero _ _ _ _ L lv 1 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec1 c (Vv1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi1_in (Vv1 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_out (Vv1 m ρ) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vv1 m ρ c) (Vv2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at what the write-backs leave. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vv2 m ρ) c).loose
  hwaits := Pipeline.hwaits_of_owed_zero _ _ _ _ L lv 2 fun _ _ => rfl
  pre c := iprop(StableHlo.held (c : Thread nD τ) (Pipeline.ucRefs τ sig) (U2 m ρ c) ∗ R c)
  post c := iprop(StableHlo.held (c : Thread nD τ) (Pipeline.ucRefs τ sig) (U3 m ρ c) ∗ R c)
  X c := iprop(∃ r, prngReg c r)
  Y c := iprop(∃ r, prngReg c r)
  Z c := Pipeline.unscopedRest (Ix := Unit) (Name := ℕ) (U := UR sig nD τ) (Lvl := ℕ) spec2 c (Vv2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vv2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi2_in (Vv2 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from Phi2_out (Vv2 m ρ) c _).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vv2 m ρ c) (Vv3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (U3 m ρ)) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (U4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m ρ c b)
    (hfin := fun c s' => by
      iintro ⟨⟨Hh, -⟩, HSI⟩
      unfold StableHlo.held
      imodintro
      iapply (pointsTo_read_all (Pipeline.ucRefs τ sig) (fun b => (((c : Thread nD τ)).1, b)) (U4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Ufin_main_arg0 m ρ c),
     (h c _ (mem_uc main_arg1 (by decide))).trans (Ufin_main_arg1 m ρ c),
     (h c _ (mem_uc main_arg2 (by decide))).trans (Ufin_main_arg2 m ρ c),
     (h c _ (mem_uc main_arg3 (by decide))).trans (Ufin_main_arg3 m ρ c),
     (h c _ (mem_uc main_arg4 (by decide))).trans (Ufin_main_arg4 m ρ c),
     (h c _ (mem_uc main_arg5 (by decide))).trans (Ufin_main_arg5 m ρ c)⟩) (run_all m ρ)

end Cert.ReferenceIdeal.Hand

end
-- ==== Proof.KI.Value0.lean ====
/-
  Region 0, read back: after the region the product array holds, at row r and column h, entry (r % 512, h) of the
  block the body computes at grid point r / 512 from rows 512·(r/512) … of x and the whole of W1. Point t writes
  block t, every point writes its block back, and the eight blocks tile the array.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Region0
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def pt0 (j : ℕ) (hj : j < 8) : Fin cfg0.N := ⟨j, lt_of_lt_of_eq hj (show 8 = cfg0.N from N_0.symm)⟩
theorem val_lt0 (t : Fin cfg0.N) : t.val < 8 := lt_of_lt_of_eq t.isLt (show cfg0.N = 8 from N_0)

/-- The block the body computes at point t. -/
def blk0 (c : Dev nD) (t : Fin cfg0.N) : S512x256.Idx → Elt F .bf16 := out0_2 (iblk0 V c 0 t) (iblk0 V c 1 t)

/-- The whole product array. -/
def s1Arr (c : Dev nD) : S4096x256.Idx → Elt F .bf16 := fun y =>
  blk0 V c (pt0 ((y (0 : Fin 2)).val / 512) (by have := ValueIdx.idx2_lt0 y; omega))
    (ValueIdx.ix2 (⟨(y (0 : Fin 2)).val % 512, Nat.mod_lt _ (by decide)⟩ : Fin 512) (⟨(y (1 : Fin 2)).val, ValueIdx.idx2_lt1 y⟩ : Fin 256))

theorem s1Arr_at (c : Dev nD) (t : Fin cfg0.N) (j : S512x256.Idx) (y : S4096x256.Idx)
    (h0 : (y (0 : Fin 2)).val = 512 * t.val + (j (0 : Fin 2)).val) (h1 : (y (1 : Fin 2)).val = (j (1 : Fin 2)).val) :
    s1Arr V c y = blk0 V c t j := by
  have hj0 := ValueIdx.idx2_lt0 j
  unfold s1Arr
  refine congrArg₂ (blk0 V c) (Fin.ext ?_) ?_
  · show (y (0 : Fin 2)).val / 512 = t.val
    omega
  · funext a
    match a with
    | ⟨0, _⟩ => exact Fin.ext (by show (y (0 : Fin 2)).val % 512 = (j (0 : Fin 2)).val; omega)
    | ⟨1, _⟩ => exact Fin.ext (by show (y (1 : Fin 2)).val = (j (1 : Fin 2)).val; omega)

/-- The output's block index at point t is (t, 0). -/
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- What point t writes back is block t of the whole array. -/
theorem flushed0_2_eq (c : Dev nD) (t : Fin cfg0.N) :
    (dat0 V c).flushed 2 t = ((cfg0.win 2).blk t).view.read (Elt F) (s1Arr V c) := by
  show (cfg0.win 2).cut (grid0.coords t) ((dat0 V c).after 2 t) = _
  rw [after0_2]
  obtain ⟨e0, e1⟩ := idx0_2 t
  funext j
  refine (s1Arr_at V c t j _ ?_ ?_).symm
  · show win0_2.index t (0 : Fin 2) * 512 + 1 * (j (0 : Fin 2)).val = 512 * t.val + (j (0 : Fin 2)).val
    omega
  · show win0_2.index t (1 : Fin 2) * 256 + 1 * (j (1 : Fin 2)).val = (j (1 : Fin 2)).val
    omega

theorem mem_blk0_2 (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- The array after the region. -/
theorem final0_2 (c : Dev nD) : (dat0 V c).arrAt 2 cfg0.N = s1Arr V c :=
  (dat0 V c).arrAt_eq_of_cover 2 (s1Arr V c) (fun t _ => flushed0_2_eq V c t) (fun i => by
    have hi0 := ValueIdx.idx2_lt0 i
    have hi1 := ValueIdx.idx2_lt1 i
    refine ⟨pt0 ((i (0 : Fin 2)).val / 512) (by omega), flush0_2 _, ?_⟩
    rw [mem_blk0_2]
    obtain ⟨e0, e1⟩ := idx0_2 (pt0 ((i (0 : Fin 2)).val / 512) (by omega))
    intro a
    match a with
    | ⟨0, _⟩ =>
      show win0_2.index _ (0 : Fin 2) * 512 ≤ (i (0 : Fin 2)).val ∧ (i (0 : Fin 2)).val < win0_2.index _ (0 : Fin 2) * 512 + 512
      rw [e0]; show (i (0 : Fin 2)).val / 512 * 512 ≤ _ ∧ _ < (i (0 : Fin 2)).val / 512 * 512 + 512
      omega
    | ⟨1, _⟩ =>
      show win0_2.index _ (1 : Fin 2) * 256 ≤ (i (1 : Fin 2)).val ∧ (i (1 : Fin 2)).val < win0_2.index _ (1 : Fin 2) * 256 + 256
      rw [e1]; omega)

end Cert.KernelIdeal.Hand

end
-- ==== Proof.KI.Value1.lean ====
/-
  Region 1, read back: after the region the output array holds, at row r and lane l, entry (r % 512, l) of the
  log-softmax block the second phase computes at grid point 8 + r / 512. Points 8 … 15 write blocks 0 … 7 back; the
  first eight points write nothing back.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Region1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole output array. -/
def outArr (c : Dev nD) : S4096x128.Idx → Elt F .f32 := fun y =>
  out1_5 V c (pt (8 + (y (0 : Fin 2)).val / 512) (by have := ValueIdx.idx2_lt0 y; omega))
    (ValueIdx.ix2 (⟨(y (0 : Fin 2)).val % 512, Nat.mod_lt _ (by decide)⟩ : Fin 512) (⟨(y (1 : Fin 2)).val, ValueIdx.idx2_lt1 y⟩ : Fin 128))

theorem outArr_at (c : Dev nD) (t : Fin cfg1.N) (ht : 8 ≤ t.val) (j : S512x128.Idx) (y : S4096x128.Idx)
    (h0 : (y (0 : Fin 2)).val = 512 * (t.val - 8) + (j (0 : Fin 2)).val) (h1 : (y (1 : Fin 2)).val = (j (1 : Fin 2)).val) :
    outArr V c y = out1_5 V c t j := by
  have hj0 := ValueIdx.idx2_lt0 j
  unfold outArr
  refine congrArg₂ (out1_5 V c) (Fin.ext ?_) ?_
  · show 8 + (y (0 : Fin 2)).val / 512 = t.val
    omega
  · funext a
    match a with
    | ⟨0, _⟩ => exact Fin.ext (by show (y (0 : Fin 2)).val % 512 = (j (0 : Fin 2)).val; omega)
    | ⟨1, _⟩ => exact Fin.ext (by show (y (1 : Fin 2)).val = (j (1 : Fin 2)).val; omega)

/-- The output's block index at a second-phase point t is (t − 8, 0), and exactly those points write back. -/
theorem idx1_5 : ∀ t : Fin cfg1.N, 8 ≤ t.val → win1_5.index t (0 : Fin 2) = t.val - 8 ∧ win1_5.index t (1 : Fin 2) = 0 :=
  (by decide +kernel : ∀ t : Fin grid1.N, 8 ≤ t.val → win1_5.index t (0 : Fin 2) = t.val - 8 ∧ win1_5.index t (1 : Fin 2) = 0)
theorem flush1_5 : ∀ t : Fin cfg1.N, (cfg1.win 5).flush t = true ↔ 8 ≤ t.val :=
  (by decide +kernel : ∀ t : Fin grid1.N, win1_5.flush t = true ↔ 8 ≤ t.val)

theorem flushed1_5_eq (c : Dev nD) (t : Fin cfg1.N) (hf : (cfg1.win 5).flush t = true) :
    (dat1 V c).flushed 5 t = ((cfg1.win 5).blk t).view.read (Elt F) (outArr V c) := by
  have ht : 8 ≤ t.val := (flush1_5 t).mp hf
  show (cfg1.win 5).cut (grid1.coords t) ((dat1 V c).after 5 t) = _
  rw [after1_5]
  obtain ⟨e0, e1⟩ := idx1_5 t ht
  funext j
  refine (outArr_at V c t ht j _ ?_ ?_).symm
  · show win1_5.index t (0 : Fin 2) * 512 + 1 * (j (0 : Fin 2)).val = 512 * (t.val - 8) + (j (0 : Fin 2)).val
    omega
  · show win1_5.index t (1 : Fin 2) * 128 + 1 * (j (1 : Fin 2)).val = (j (1 : Fin 2)).val
    omega

theorem mem_blk1_5 (t : Fin cfg1.N) (i : S4096x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v1).slice (win1_5.rect t)).set ↔ _
  rw [View.set_slice_whole, Rect.mem_set_unit]
  exact Iff.rfl

/-- The array after the region. -/
theorem final1_5 (c : Dev nD) : (dat1 V c).arrAt 5 cfg1.N = outArr V c :=
  (dat1 V c).arrAt_eq_of_cover 5 (outArr V c) (fun t hf => flushed1_5_eq V c t hf) (fun i => by
    have hi0 := ValueIdx.idx2_lt0 i
    have hi1 := ValueIdx.idx2_lt1 i
    have h8 : 8 ≤ (pt (8 + (i (0 : Fin 2)).val / 512) (by omega)).val := Nat.le_add_right _ _
    refine ⟨pt (8 + (i (0 : Fin 2)).val / 512) (by omega), (flush1_5 _).mpr h8, ?_⟩
    rw [mem_blk1_5]
    obtain ⟨e0, e1⟩ := idx1_5 (pt (8 + (i (0 : Fin 2)).val / 512) (by omega)) h8
    intro a
    match a with
    | ⟨0, _⟩ =>
      show win1_5.index _ (0 : Fin 2) * 512 ≤ (i (0 : Fin 2)).val ∧ (i (0 : Fin 2)).val < win1_5.index _ (0 : Fin 2) * 512 + 512
      rw [e0]; show (8 + (i (0 : Fin 2)).val / 512 - 8) * 512 ≤ _ ∧ _ < (8 + (i (0 : Fin 2)).val / 512 - 8) * 512 + 512
      omega
    | ⟨1, _⟩ =>
      show win1_5.index _ (1 : Fin 2) * 128 ≤ (i (1 : Fin 2)).val ∧ (i (1 : Fin 2)).val < win1_5.index _ (1 : Fin 2) * 128 + 128
      rw [e1]; omega)

end Cert.KernelIdeal.Hand

end
-- ==== Proof.KI.Final.lean ====
/-
  The kernel's result: the buffer returned is the 40-lane slice of region 1's output array, which is the array of
  log-softmax blocks over region 1's entry contents; those are the launch contents of the arguments and, for the
  first-layer support, region 0's product array over the launch contents.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Run
import proofs.«145670_g2000303783144872_pallasbulk_1002_5_alg».proof.Proof.KI.Value0
import proofs.«145670_g2000303783144872_pallasbulk_1002_5_alg».proof.Proof.KI.Value1
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V2_main_arg1 (c : Dev nD) : V2 m ρ c main_arg1 = m ((c : Thread nD τ).loc main_arg1) := W2_of_ne m ρ c main_arg1 (by decide)
theorem V2_main_arg3 (c : Dev nD) : V2 m ρ c main_arg3 = m ((c : Thread nD τ).loc main_arg3) := W2_of_ne m ρ c main_arg3 (by decide)
theorem V2_main_arg4 (c : Dev nD) : V2 m ρ c main_arg4 = m ((c : Thread nD τ).loc main_arg4) := W2_of_ne m ρ c main_arg4 (by decide)
theorem V2_main_arg5 (c : Dev nD) : V2 m ρ c main_arg5 = m ((c : Thread nD τ).loc main_arg5) := W2_of_ne m ρ c main_arg5 (by decide)
/-- Region 1 finds the first-layer support x · W1 in its second window's array. -/
theorem V2_main_v0 (c : Dev nD) : V2 m ρ c main_v0 = s1Arr (V1 m ρ) c := (W2_arr m ρ c 2).trans (final0_2 (V1 m ρ) c)

theorem W3_main_v1 (c : Dev nD) : W3 m ρ c (Proc.devRef .tc main_v1) = outArr (V2 m ρ) c :=
  (W3_arr m ρ c 5).trans (final1_5 (V2 m ρ) c)

/-- The returned buffer is the slice of the first 40 lanes. -/
theorem W4_main_v2 (c : Dev nD) :
    W4 m ρ c (Proc.devRef .tc main_v2)
      = extractStridedSlice S4096x40 ![0, 0] (W3 m ρ c (Proc.devRef .tc main_v1)) slices_S4096x128_S4096x40_0_0 := by
  show StableHlo.after hostOps2 _ (Proc.devRef .tc main_v2) = _
  after_results

end Cert.KernelIdeal.Hand

end
-- ==== Proof.KI.Mat.lean ====
/-
  The kernel's region 1 at the ideal values: its two products contracted over all 4096 indices, read at an entry
  as plain sums, and each window's block read off the arrays (the adjacency block of a point t < 8 is rows
  512·t … of the adjacency; the other windows hold whole arrays).
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Value1
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem matmulK256_at (A : FVec Ideal S512x4096 .bf16) (S : FVec Ideal S4096x256 .bf16) (j : S512x256.Idx) :
    matmul dot_S512x4096_S4096x256_S512x256_1_0_0_1_n_n none A S (constant S512x256 .f32 0x00000000#32) j
      = ∑ q : Fin 4096, A (ix2 (j 0) q) * S (ix2 q (j 1)) := by
  simp only [matmul]
  rw [Ideal.matmul_constant_zero_apply]
  rw [← Equiv.sum_comp (contrEquiv1 dot_S512x4096_S4096x256_S512x256_1_0_0_1_n_n 4096 rfl rfl).symm]
  refine Finset.sum_congr rfl fun q _ => ?_
  have e := contrEquiv1_symm_val dot_S512x4096_S4096x256_S512x256_1_0_0_1_n_n 4096 rfl rfl q
  congr 1
  · refine congrArg A (funext fun a => ?_)
    match a with
    | ⟨0, _⟩ => exact Fin.ext rfl
    | ⟨1, _⟩ => exact Fin.ext e
  · refine congrArg S (funext fun a => ?_)
    match a with
    | ⟨0, _⟩ => exact Fin.ext e
    | ⟨1, _⟩ => exact Fin.ext rfl

theorem matmulK128_at (A : FVec Ideal S512x4096 .bf16) (S : FVec Ideal S4096x128 .bf16) (j : S512x128.Idx) :
    matmul dot_S512x4096_S4096x128_S512x128_1_0_0_1_n_n none A S (constant S512x128 .f32 0x00000000#32) j
      = ∑ q : Fin 4096, A (ix2 (j 0) q) * S (ix2 q (j 1)) := by
  simp only [matmul]
  rw [Ideal.matmul_constant_zero_apply]
  rw [← Equiv.sum_comp (contrEquiv1 dot_S512x4096_S4096x128_S512x128_1_0_0_1_n_n 4096 rfl rfl).symm]
  refine Finset.sum_congr rfl fun q _ => ?_
  have e := contrEquiv1_symm_val dot_S512x4096_S4096x128_S512x128_1_0_0_1_n_n 4096 rfl rfl q
  congr 1
  · refine congrArg A (funext fun a => ?_)
    match a with
    | ⟨0, _⟩ => exact Fin.ext rfl
    | ⟨1, _⟩ => exact Fin.ext e
  · refine congrArg S (funext fun a => ?_)
    match a with
    | ⟨0, _⟩ => exact Fin.ext e
    | ⟨1, _⟩ => exact Fin.ext rfl

variable (V : (c : Dev nD) → (b : Ref sig .tc) → Buf (Elt F) ((c : Thread nD τ).loc b))

theorem idxK1_0 : ∀ t : Fin cfg1.N, t.val < 8 → win1_0.index t (0 : Fin 2) = t.val ∧ win1_0.index t (1 : Fin 2) = 0 :=
  (by decide +kernel : ∀ t : Fin grid1.N, t.val < 8 → win1_0.index t (0 : Fin 2) = t.val ∧ win1_0.index t (1 : Fin 2) = 0)
theorem idxK1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idxK1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idxK1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idxK1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

theorem B0_at (c : Dev nD) (t : Fin cfg1.N) (ht : t.val < 8) (x : S512x4096.Idx) (y : S4096x4096.Idx)
    (h0 : (y (0 : Fin 2)).val = 512 * t.val + (x (0 : Fin 2)).val) (h1 : (y (1 : Fin 2)).val = (x (1 : Fin 2)).val) :
    B0 V c t x = V c main_arg1 y := by
  obtain ⟨e0, e1⟩ := idxK1_0 t ht
  show V c main_arg1 (((cfg1.win 0).blk t).view.emb x) = V c main_arg1 y
  refine congrArg (V c main_arg1) (funext fun a => Fin.ext ?_)
  match a with
  | ⟨0, _⟩ => show win1_0.index t (0 : Fin 2) * 512 + 1 * (x (0 : Fin 2)).val = (y (0 : Fin 2)).val; omega
  | ⟨1, _⟩ => show win1_0.index t (1 : Fin 2) * 4096 + 1 * (x (1 : Fin 2)).val = (y (1 : Fin 2)).val; omega

theorem B1_at (c : Dev nD) (t : Fin cfg1.N) (x : S4096x256.Idx) : B1 V c t x = V c main_v0 x := by
  obtain ⟨e0, e1⟩ := idxK1_1 t
  show V c main_v0 (((cfg1.win 1).blk t).view.emb x) = V c main_v0 x
  refine congrArg (V c main_v0) (funext fun a => Fin.ext ?_)
  match a with
  | ⟨0, _⟩ => show win1_1.index t (0 : Fin 2) * 4096 + 1 * (x (0 : Fin 2)).val = (x (0 : Fin 2)).val; omega
  | ⟨1, _⟩ => show win1_1.index t (1 : Fin 2) * 256 + 1 * (x (1 : Fin 2)).val = (x (1 : Fin 2)).val; omega
theorem B2_at (c : Dev nD) (t : Fin cfg1.N) (x : S1x256.Idx) : B2 V c t x = V c main_arg3 x := by
  obtain ⟨e0, e1⟩ := idxK1_2 t
  show V c main_arg3 (((cfg1.win 2).blk t).view.emb x) = V c main_arg3 x
  refine congrArg (V c main_arg3) (funext fun a => Fin.ext ?_)
  match a with
  | ⟨0, _⟩ => show win1_2.index t (0 : Fin 2) * 1 + 1 * (x (0 : Fin 2)).val = (x (0 : Fin 2)).val; omega
  | ⟨1, _⟩ => show win1_2.index t (1 : Fin 2) * 256 + 1 * (x (1 : Fin 2)).val = (x (1 : Fin 2)).val; omega
theorem B3_at (c : Dev nD) (t : Fin cfg1.N) (x : S256x128.Idx) : B3 V c t x = V c main_arg4 x := by
  obtain ⟨e0, e1⟩ := idxK1_3 t
  show V c main_arg4 (((cfg1.win 3).blk t).view.emb x) = V c main_arg4 x
  refine congrArg (V c main_arg4) (funext fun a => Fin.ext ?_)
  match a with
  | ⟨0, _⟩ => show win1_3.index t (0 : Fin 2) * 256 + 1 * (x (0 : Fin 2)).val = (x (0 : Fin 2)).val; omega
  | ⟨1, _⟩ => show win1_3.index t (1 : Fin 2) * 128 + 1 * (x (1 : Fin 2)).val = (x (1 : Fin 2)).val; omega
theorem B4_at (c : Dev nD) (t : Fin cfg1.N) (x : S1x128.Idx) : B4 V c t x = V c main_arg5 x := by
  obtain ⟨e0, e1⟩ := idxK1_4 t
  show V c main_arg5 (((cfg1.win 4).blk t).view.emb x) = V c main_arg5 x
  refine congrArg (V c main_arg5) (funext fun a => Fin.ext ?_)
  match a with
  | ⟨0, _⟩ => show win1_4.index t (0 : Fin 2) * 1 + 1 * (x (0 : Fin 2)).val = (x (0 : Fin 2)).val; omega
  | ⟨1, _⟩ => show win1_4.index t (1 : Fin 2) * 128 + 1 * (x (1 : Fin 2)).val = (x (1 : Fin 2)).val; omega

theorem hz2k : (![0, 0] : Fin 2 → ℕ) = fun _ => 0 := by funext a; fin_cases a <;> rfl

/-- The cached block is the adjacency block itself (the copy goes through an identity cast). -/
theorem blkPay1_eq (c : Dev nD) (t : Fin cfg1.N) : blkPay1 V c t = B0 V c t := by
  unfold blkPay1 k1_pay1
  simp only [shapeCast_self, View.ld_unit_zero (S := S512x4096) hz2k]

/-- The second phase's block without the store's wrapper. -/
theorem out1_5_eq (c : Dev nD) (t : Fin cfg1.N) :
    out1_5 V c t = k1_pay3 (blkPay1 V c (pt (t.val - 8) (lt_of_le_of_lt (Nat.sub_le _ _) (val_lt t)))) (support V c) (B4 V c t) := by
  unfold out1_5
  rw [View.canon_unit_zero hz2k]
  simp only [View.ld_unit_zero (S := S1x128) hz2k]

end Cert.KernelIdeal.Hand

end
-- ==== Proof.KI.Read0.lean ====
/-
  Region 0's input blocks read off the arrays: the block of x at point t is rows 512·t … of x; the block of W1 is
  the whole of W1.
-/
import proofs.«145670_g2000303783144872_pallasbulk_1002_5_alg».proof.Proof.Gen.KernelIdeal.Launch
import proofs.«145670_g2000303783144872_pallasbulk_1002_5_alg».proof.Proof.Gen.KernelIdeal.Skeleton
import proofs.«145670_g2000303783144872_pallasbulk_1002_5_alg».proof.Proof.Gen.KernelIdeal.Points
import proofs.«145670_g2000303783144872_pallasbulk_1002_5_alg».proof.Proof.KI.Value0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2' : (![0, 0] : Fin 2 → ℕ) = fun _ => 0 := by funext a; fin_cases a <;> rfl

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem iblk0_0_at (c : Dev nD) (t : Fin cfg0.N) (x : S512x1408.Idx) (y : S4096x1408.Idx)
    (h0 : (y (0 : Fin 2)).val = 512 * t.val + (x (0 : Fin 2)).val) (h1 : (y (1 : Fin 2)).val = (x (1 : Fin 2)).val) :
    iblk0 V c 0 t x = V c main_arg0 y := by
  obtain ⟨e0, e1⟩ := idx0_0 t
  show V c main_arg0 (((cfg0.win 0).blk t).view.emb x) = V c main_arg0 y
  refine congrArg (V c main_arg0) (funext fun a => Fin.ext ?_)
  match a with
  | ⟨0, _⟩ => show win0_0.index t (0 : Fin 2) * 512 + 1 * (x (0 : Fin 2)).val = (y (0 : Fin 2)).val; omega
  | ⟨1, _⟩ => show win0_0.index t (1 : Fin 2) * 1408 + 1 * (x (1 : Fin 2)).val = (y (1 : Fin 2)).val; omega

theorem iblk0_1_at (c : Dev nD) (t : Fin cfg0.N) (x : S1408x256.Idx) : iblk0 V c 1 t x = V c main_arg2 x := by
  obtain ⟨e0, e1⟩ := idx0_1 t
  show V c main_arg2 (((cfg0.win 1).blk t).view.emb x) = V c main_arg2 x
  refine congrArg (V c main_arg2) (funext fun a => Fin.ext ?_)
  match a with
  | ⟨0, _⟩ => show win0_1.index t (0 : Fin 2) * 1408 + 1 * (x (0 : Fin 2)).val = (x (0 : Fin 2)).val; omega
  | ⟨1, _⟩ => show win0_1.index t (1 : Fin 2) * 256 + 1 * (x (1 : Fin 2)).val = (x (1 : Fin 2)).val; omega

/-- The block the body computes, without the store's wrapper: the payload of the two blocks. -/
theorem blk0_eq (c : Dev nD) (t : Fin cfg0.N) : blk0 V c t = k0_pay1 (iblk0 V c 0 t) (iblk0 V c 1 t) := by
  unfold blk0 out0_2
  rw [View.canon_unit_zero hz2']
  simp only [View.ld_unit_zero (S := S512x1408) hz2', View.ld_unit_zero (S := S1408x256) hz2']

end Cert.KernelIdeal.Hand

end
-- ==== Proof.RI.Value0.lean ====
/-
  Region 0, read back: after the region the product array holds, at row r and column h, entry (r % 512, h) of the
  block the body computes at grid point r / 512 from rows 512·(r/512) … of x and the whole of W1. Point t writes
  block t, every point writes its block back, and the eight blocks tile the array.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region0
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def pt0 (j : ℕ) (hj : j < 8) : Fin cfg0.N := ⟨j, lt_of_lt_of_eq hj (show 8 = cfg0.N from N_0.symm)⟩
theorem val_lt0 (t : Fin cfg0.N) : t.val < 8 := lt_of_lt_of_eq t.isLt (show cfg0.N = 8 from N_0)

/-- The block the body computes at point t. -/
def blk0 (c : Dev nD) (t : Fin cfg0.N) : S512x256.Idx → Elt F .bf16 := out0_2 (iblk0 V c 0 t) (iblk0 V c 1 t)

/-- The whole product array. -/
def s1Arr (c : Dev nD) : S4096x256.Idx → Elt F .bf16 := fun y =>
  blk0 V c (pt0 ((y (0 : Fin 2)).val / 512) (by have := ValueIdx.idx2_lt0 y; omega))
    (ValueIdx.ix2 (⟨(y (0 : Fin 2)).val % 512, Nat.mod_lt _ (by decide)⟩ : Fin 512) (⟨(y (1 : Fin 2)).val, ValueIdx.idx2_lt1 y⟩ : Fin 256))

theorem s1Arr_at (c : Dev nD) (t : Fin cfg0.N) (j : S512x256.Idx) (y : S4096x256.Idx)
    (h0 : (y (0 : Fin 2)).val = 512 * t.val + (j (0 : Fin 2)).val) (h1 : (y (1 : Fin 2)).val = (j (1 : Fin 2)).val) :
    s1Arr V c y = blk0 V c t j := by
  have hj0 := ValueIdx.idx2_lt0 j
  unfold s1Arr
  refine congrArg₂ (blk0 V c) (Fin.ext ?_) ?_
  · show (y (0 : Fin 2)).val / 512 = t.val
    omega
  · funext a
    match a with
    | ⟨0, _⟩ => exact Fin.ext (by show (y (0 : Fin 2)).val % 512 = (j (0 : Fin 2)).val; omega)
    | ⟨1, _⟩ => exact Fin.ext (by show (y (1 : Fin 2)).val = (j (1 : Fin 2)).val; omega)

/-- The output's block index at point t is (t, 0). -/
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- What point t writes back is block t of the whole array. -/
theorem flushed0_2_eq (c : Dev nD) (t : Fin cfg0.N) :
    (dat0 V c).flushed 2 t = ((cfg0.win 2).blk t).view.read (Elt F) (s1Arr V c) := by
  show (cfg0.win 2).cut (grid0.coords t) ((dat0 V c).after 2 t) = _
  rw [after0_2]
  obtain ⟨e0, e1⟩ := idx0_2 t
  funext j
  refine (s1Arr_at V c t j _ ?_ ?_).symm
  · show win0_2.index t (0 : Fin 2) * 512 + 1 * (j (0 : Fin 2)).val = 512 * t.val + (j (0 : Fin 2)).val
    omega
  · show win0_2.index t (1 : Fin 2) * 256 + 1 * (j (1 : Fin 2)).val = (j (1 : Fin 2)).val
    omega

theorem mem_blk0_2 (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- The array after the region. -/
theorem final0_2 (c : Dev nD) : (dat0 V c).arrAt 2 cfg0.N = s1Arr V c :=
  (dat0 V c).arrAt_eq_of_cover 2 (s1Arr V c) (fun t _ => flushed0_2_eq V c t) (fun i => by
    have hi0 := ValueIdx.idx2_lt0 i
    have hi1 := ValueIdx.idx2_lt1 i
    refine ⟨pt0 ((i (0 : Fin 2)).val / 512) (by omega), flush0_2 _, ?_⟩
    rw [mem_blk0_2]
    obtain ⟨e0, e1⟩ := idx0_2 (pt0 ((i (0 : Fin 2)).val / 512) (by omega))
    intro a
    match a with
    | ⟨0, _⟩ =>
      show win0_2.index _ (0 : Fin 2) * 512 ≤ (i (0 : Fin 2)).val ∧ (i (0 : Fin 2)).val < win0_2.index _ (0 : Fin 2) * 512 + 512
      rw [e0]; show (i (0 : Fin 2)).val / 512 * 512 ≤ _ ∧ _ < (i (0 : Fin 2)).val / 512 * 512 + 512
      omega
    | ⟨1, _⟩ =>
      show win0_2.index _ (1 : Fin 2) * 256 ≤ (i (1 : Fin 2)).val ∧ (i (1 : Fin 2)).val < win0_2.index _ (1 : Fin 2) * 256 + 256
      rw [e1]; omega)

end Cert.ReferenceIdeal.Hand

end
-- ==== Proof.RI.Value1.lean ====
/-
  Region 1 of the reference, read back: after the region the output array holds, at row r and column l, entry
  (r % 512, l) of the row block finished at grid point 4·(r / 512) + 3 from the full accumulated sum. Only the
  points with k = 3 write a block back, block t / 4 at point t, and the eight blocks tile the array.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The row block finished at point t (read only where t % 4 = 3). -/
def blkOut1 (c : Dev nD) (t : Fin cfg1.N) : S512x128.Idx → Elt F .bf16 :=
  outStep1 (accN1 V c t.val (val_lt1 t)) (B1_2 V c t) (B1_3 V c t)

/-- The whole output array. -/
def outArr1 (c : Dev nD) : S4096x128.Idx → Elt F .bf16 := fun y =>
  blkOut1 V c (pt1 (4 * ((y (0 : Fin 2)).val / 512) + 3) (by have := ValueIdx.idx2_lt0 y; omega))
    (ValueIdx.ix2 (⟨(y (0 : Fin 2)).val % 512, Nat.mod_lt _ (by decide)⟩ : Fin 512) (⟨(y (1 : Fin 2)).val, ValueIdx.idx2_lt1 y⟩ : Fin 128))

theorem outArr1_at (c : Dev nD) (t : Fin cfg1.N) (ht : t.val % 4 = 3) (j : S512x128.Idx) (y : S4096x128.Idx)
    (h0 : (y (0 : Fin 2)).val = 512 * (t.val / 4) + (j (0 : Fin 2)).val) (h1 : (y (1 : Fin 2)).val = (j (1 : Fin 2)).val) :
    outArr1 V c y = blkOut1 V c t j := by
  have hj0 := ValueIdx.idx2_lt0 j
  unfold outArr1
  refine congrArg₂ (blkOut1 V c) (Fin.ext ?_) ?_
  · show 4 * ((y (0 : Fin 2)).val / 512) + 3 = t.val
    omega
  · funext a
    match a with
    | ⟨0, _⟩ => exact Fin.ext (by show (y (0 : Fin 2)).val % 512 = (j (0 : Fin 2)).val; omega)
    | ⟨1, _⟩ => exact Fin.ext (by show (y (1 : Fin 2)).val = (j (1 : Fin 2)).val; omega)

theorem idx1_4 : ∀ t : Fin cfg1.N, win1_4.index t (0 : Fin 2) = t.val / 4 ∧ win1_4.index t (1 : Fin 2) = 0 :=
  (by decide +kernel : ∀ t : Fin grid1.N, win1_4.index t (0 : Fin 2) = t.val / 4 ∧ win1_4.index t (1 : Fin 2) = 0)

theorem flushed1_4_eq (c : Dev nD) (t : Fin cfg1.N) (hf : (cfg1.win 4).flush t = true) :
    (dat1 V c).flushed 4 t = ((cfg1.win 4).blk t).view.read (Elt F) (outArr1 V c) := by
  have ht : t.val % 4 = 3 := (flush1_4 t).mp hf
  show (cfg1.win 4).cut (grid1.coords t) ((dat1 V c).after 4 t) = _
  rw [after1_4]
  obtain ⟨e0, e1⟩ := idx1_4 t
  funext j
  refine (outArr1_at V c t ht j _ ?_ ?_).symm
  · show win1_4.index t (0 : Fin 2) * 512 + 1 * (j (0 : Fin 2)).val = 512 * (t.val / 4) + (j (0 : Fin 2)).val
    omega
  · show win1_4.index t (1 : Fin 2) * 128 + 1 * (j (1 : Fin 2)).val = (j (1 : Fin 2)).val
    omega

theorem mem_blk1_4 (t : Fin cfg1.N) (i : S4096x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v1).slice (win1_4.rect t)).set ↔ _
  rw [View.set_slice_whole, Rect.mem_set_unit]
  exact Iff.rfl

/-- The array after the region. -/
theorem final1_4 (c : Dev nD) : (dat1 V c).arrAt 4 cfg1.N = outArr1 V c :=
  (dat1 V c).arrAt_eq_of_cover 4 (outArr1 V c) (fun t hf => flushed1_4_eq V c t hf) (fun i => by
    have hi0 := ValueIdx.idx2_lt0 i
    have hi1 := ValueIdx.idx2_lt1 i
    have h3 : (pt1 (4 * ((i (0 : Fin 2)).val / 512) + 3) (by omega)).val % 4 = 3 := by
      show (4 * ((i (0 : Fin 2)).val / 512) + 3) % 4 = 3
      omega
    refine ⟨pt1 (4 * ((i (0 : Fin 2)).val / 512) + 3) (by omega), (flush1_4 _).mpr h3, ?_⟩
    rw [mem_blk1_4]
    obtain ⟨e0, e1⟩ := idx1_4 (pt1 (4 * ((i (0 : Fin 2)).val / 512) + 3) (by omega))
    intro a
    match a with
    | ⟨0, _⟩ =>
      show win1_4.index _ (0 : Fin 2) * 512 ≤ (i (0 : Fin 2)).val ∧ (i (0 : Fin 2)).val < win1_4.index _ (0 : Fin 2) * 512 + 512
      rw [e0]; show (4 * ((i (0 : Fin 2)).val / 512) + 3) / 4 * 512 ≤ _ ∧ _ < (4 * ((i (0 : Fin 2)).val / 512) + 3) / 4 * 512 + 512
      omega
    | ⟨1, _⟩ =>
      show win1_4.index _ (1 : Fin 2) * 128 ≤ (i (1 : Fin 2)).val ∧ (i (1 : Fin 2)).val < win1_4.index _ (1 : Fin 2) * 128 + 128
      rw [e1]; omega)

end Cert.ReferenceIdeal.Hand

end
-- ==== Proof.RI.Value2.lean ====
/-
  Region 2 of the reference, read back: after the region the output array holds, at row r and column l, entry
  (r % 512, l) of the row block finished at grid point 4·(r / 512) + 3 from the full accumulated sum. Only the
  points with k = 3 write a block back, block t / 4 at point t, and the eight blocks tile the array.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region2
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The row block finished at point t (read only where t % 4 = 3). -/
def blkOut2 (c : Dev nD) (t : Fin cfg2.N) : S512x128.Idx → Elt F .f32 :=
  outStep2 (accN2 V c t.val (val_lt2 t)) (B2_2 V c t)

/-- The whole output array. -/
def outArr2 (c : Dev nD) : S4096x128.Idx → Elt F .f32 := fun y =>
  blkOut2 V c (pt2 (4 * ((y (0 : Fin 2)).val / 512) + 3) (by have := ValueIdx.idx2_lt0 y; omega))
    (ValueIdx.ix2 (⟨(y (0 : Fin 2)).val % 512, Nat.mod_lt _ (by decide)⟩ : Fin 512) (⟨(y (1 : Fin 2)).val, ValueIdx.idx2_lt1 y⟩ : Fin 128))

theorem outArr2_at (c : Dev nD) (t : Fin cfg2.N) (ht : t.val % 4 = 3) (j : S512x128.Idx) (y : S4096x128.Idx)
    (h0 : (y (0 : Fin 2)).val = 512 * (t.val / 4) + (j (0 : Fin 2)).val) (h1 : (y (1 : Fin 2)).val = (j (1 : Fin 2)).val) :
    outArr2 V c y = blkOut2 V c t j := by
  have hj0 := ValueIdx.idx2_lt0 j
  unfold outArr2
  refine congrArg₂ (blkOut2 V c) (Fin.ext ?_) ?_
  · show 4 * ((y (0 : Fin 2)).val / 512) + 3 = t.val
    omega
  · funext a
    match a with
    | ⟨0, _⟩ => exact Fin.ext (by show (y (0 : Fin 2)).val % 512 = (j (0 : Fin 2)).val; omega)
    | ⟨1, _⟩ => exact Fin.ext (by show (y (1 : Fin 2)).val = (j (1 : Fin 2)).val; omega)

theorem idx2_3 : ∀ t : Fin cfg2.N, win2_3.index t (0 : Fin 2) = t.val / 4 ∧ win2_3.index t (1 : Fin 2) = 0 :=
  (by decide +kernel : ∀ t : Fin grid2.N, win2_3.index t (0 : Fin 2) = t.val / 4 ∧ win2_3.index t (1 : Fin 2) = 0)

theorem flushed2_3_eq (c : Dev nD) (t : Fin cfg2.N) (hf : (cfg2.win 3).flush t = true) :
    (dat2 V c).flushed 3 t = ((cfg2.win 3).blk t).view.read (Elt F) (outArr2 V c) := by
  have ht : t.val % 4 = 3 := (flush2_3 t).mp hf
  show (cfg2.win 3).cut (grid2.coords t) ((dat2 V c).after 3 t) = _
  rw [after2_3]
  obtain ⟨e0, e1⟩ := idx2_3 t
  funext j
  refine (outArr2_at V c t ht j _ ?_ ?_).symm
  · show win2_3.index t (0 : Fin 2) * 512 + 1 * (j (0 : Fin 2)).val = 512 * (t.val / 4) + (j (0 : Fin 2)).val
    omega
  · show win2_3.index t (1 : Fin 2) * 128 + 1 * (j (1 : Fin 2)).val = (j (1 : Fin 2)).val
    omega

theorem mem_blk2_3 (t : Fin cfg2.N) (i : S4096x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v2).slice (win2_3.rect t)).set ↔ _
  rw [View.set_slice_whole, Rect.mem_set_unit]
  exact Iff.rfl

/-- The array after the region. -/
theorem final2_3 (c : Dev nD) : (dat2 V c).arrAt 3 cfg2.N = outArr2 V c :=
  (dat2 V c).arrAt_eq_of_cover 3 (outArr2 V c) (fun t hf => flushed2_3_eq V c t hf) (fun i => by
    have hi0 := ValueIdx.idx2_lt0 i
    have hi1 := ValueIdx.idx2_lt1 i
    have h3 : (pt2 (4 * ((i (0 : Fin 2)).val / 512) + 3) (by omega)).val % 4 = 3 := by
      show (4 * ((i (0 : Fin 2)).val / 512) + 3) % 4 = 3
      omega
    refine ⟨pt2 (4 * ((i (0 : Fin 2)).val / 512) + 3) (by omega), (flush2_3 _).mpr h3, ?_⟩
    rw [mem_blk2_3]
    obtain ⟨e0, e1⟩ := idx2_3 (pt2 (4 * ((i (0 : Fin 2)).val / 512) + 3) (by omega))
    intro a
    match a with
    | ⟨0, _⟩ =>
      show win2_3.index _ (0 : Fin 2) * 512 ≤ (i (0 : Fin 2)).val ∧ (i (0 : Fin 2)).val < win2_3.index _ (0 : Fin 2) * 512 + 512
      rw [e0]; show (4 * ((i (0 : Fin 2)).val / 512) + 3) / 4 * 512 ≤ _ ∧ _ < (4 * ((i (0 : Fin 2)).val / 512) + 3) / 4 * 512 + 512
      omega
    | ⟨1, _⟩ =>
      show win2_3.index _ (1 : Fin 2) * 128 ≤ (i (1 : Fin 2)).val ∧ (i (1 : Fin 2)).val < win2_3.index _ (1 : Fin 2) * 128 + 128
      rw [e1]; omega)

end Cert.ReferenceIdeal.Hand

end
-- ==== Proof.RI.Final.lean ====
/-
  The reference's result: the buffer returned is the 40-lane slice of region 2's output array; region 2 finds the
  second-layer support that region 1 wrote, and region 1 finds the first-layer support that region 0 wrote; the
  arguments are found at their launch contents throughout.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Run
import proofs.«145670_g2000303783144872_pallasbulk_1002_5_alg».proof.Proof.RI.Value0
import proofs.«145670_g2000303783144872_pallasbulk_1002_5_alg».proof.Proof.RI.Value1
import proofs.«145670_g2000303783144872_pallasbulk_1002_5_alg».proof.Proof.RI.Value2
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Vv1_main_arg1 (c : Dev nD) : Vv1 m ρ c main_arg1 = m ((c : Thread nD τ).loc main_arg1) := U1_of_ne m ρ c main_arg1 (by decide)
theorem Vv1_main_arg3 (c : Dev nD) : Vv1 m ρ c main_arg3 = m ((c : Thread nD τ).loc main_arg3) := U1_of_ne m ρ c main_arg3 (by decide)
theorem Vv1_main_arg4 (c : Dev nD) : Vv1 m ρ c main_arg4 = m ((c : Thread nD τ).loc main_arg4) := U1_of_ne m ρ c main_arg4 (by decide)
theorem Vv1_main_v0 (c : Dev nD) : Vv1 m ρ c main_v0 = s1Arr (Vv0 m ρ) c := (U1_arr m ρ c 2).trans (final0_2 (Vv0 m ρ) c)

theorem Vv2_main_arg1 (c : Dev nD) : Vv2 m ρ c main_arg1 = m ((c : Thread nD τ).loc main_arg1) :=
  (U2_arr m ρ c 0).trans ((((dat1 (Vv1 m ρ) c).arrAt_in 0 rfl _).trans (A_eq1 (Vv1 m ρ) c 0)).trans (Vv1_main_arg1 m ρ c))
theorem Vv2_main_arg5 (c : Dev nD) : Vv2 m ρ c main_arg5 = m ((c : Thread nD τ).loc main_arg5) :=
  (U2_of_ne m ρ c main_arg5 (by decide)).trans (U1_of_ne m ρ c main_arg5 (by decide))
theorem Vv2_main_v1 (c : Dev nD) : Vv2 m ρ c main_v1 = outArr1 (Vv1 m ρ) c := (U2_arr m ρ c 4).trans (final1_4 (Vv1 m ρ) c)

theorem U3_main_v2 (c : Dev nD) : U3 m ρ c (Proc.devRef .tc main_v2) = outArr2 (Vv2 m ρ) c :=
  (U3_arr m ρ c 3).trans (final2_3 (Vv2 m ρ) c)

theorem U4_main_v3 (c : Dev nD) :
    U4 m ρ c (Proc.devRef .tc main_v3)
      = extractStridedSlice S4096x40 ![0, 0] (U3 m ρ c (Proc.devRef .tc main_v2)) slices_S4096x128_S4096x40_0_0 := by
  show StableHlo.after hostOps3 _ (Proc.devRef .tc main_v3) = _
  after_results

end Cert.ReferenceIdeal.Hand

end
-- ==== Proof.LibChunkSum.lean ====
/-
  A general fact about finite sums in a commutative monoid: the sum of 4·K consecutive terms is what an
  accumulator holds after it starts from zero and takes, one after the other, the sums of the four consecutive
  chunks of K terms. This is the law that joins one matrix product contracted over 4·K indices with the same
  product accumulated over four blocks of K indices; it uses only associativity of +, so it holds on the
  extended reals whatever the terms are (infinite ones included).
-/
import Mathlib.Algebra.BigOperators.Fin
import Mathlib.Algebra.BigOperators.Intervals

namespace Cert.LibChunkSum

open Finset

/-- A sum over `Fin n` of a function of the value is the sum over `range n`; over n + m it splits. -/
theorem sum_fin_add {M : Type} [AddCommMonoid M] (g : ℕ → M) (n m : ℕ) :
    ∑ q : Fin (n + m), g q.val = ∑ q : Fin n, g q.val + ∑ q : Fin m, g (n + q.val) := by
  rw [Fin.sum_univ_eq_sum_range g (n + m), Fin.sum_univ_eq_sum_range g n, Fin.sum_univ_eq_sum_range (fun x => g (n + x)) m,
    Finset.sum_range_add]

/-- Four chunks of K terms, accumulated left to right from zero. -/
theorem sum_four_chunks {M : Type} [AddCommMonoid M] (K : ℕ) (g : ℕ → M) :
    ∑ q : Fin (K + K + K + K), g q.val
      = (((0 + ∑ q : Fin K, g q.val) + ∑ q : Fin K, g (K + q.val)) + ∑ q : Fin K, g (K + K + q.val)) + ∑ q : Fin K, g (K + K + K + q.val) := by
  rw [sum_fin_add g (K + K + K) K, sum_fin_add g (K + K) K, sum_fin_add g K K, zero_add]

end Cert.LibChunkSum
-- ==== Proof.RI.Acc1.lean ====
/-
  Region 1 of the reference at the ideal values: the accumulator after the four k-steps of row block j is the
  whole contraction. One step adds, at entry (a, l), the sum over q < 1024 of adj[512·j + a, 1024·k + q] times
  res[1024·k + q, l]; the zero fill is 0; so after k = 0, 1, 2, 3 the accumulator holds the sum over all 4096
  contraction indices, by associativity of + alone.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region1
import proofs.«145670_g2000303783144872_pallasbulk_1002_5_alg».proof.Proof.LibChunkSum
import Idealize.ShloMosaic.PureOps.Ideal.Laws
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The adjacency and the resident operand as the region finds them, as arrays of extended reals. -/
abbrev AdjR1 (c : Dev nD) : FVec Ideal S4096x4096 .bf16 := V c main_arg1
abbrev Res1 (c : Dev nD) : FVec Ideal S4096x256 .bf16 := V c main_v0

/-- The block product at an entry, as a sum over the 1024 contraction indices. -/
theorem matmulR1_at (A : FVec Ideal S512x1024 .bf16) (S : FVec Ideal S1024x256 .bf16) (j : S512x256.Idx) :
    matmul dot_S512x1024_S1024x256_S512x256_1_0_0_1_n_n none A S (constant S512x256 .f32 0x00000000#32) j
      = ∑ q : Fin 1024, A (ix2 (j 0) q) * S (ix2 q (j 1)) := by
  simp only [matmul]
  rw [Ideal.matmul_constant_zero_apply]
  rw [← Equiv.sum_comp (contrEquiv1 dot_S512x1024_S1024x256_S512x256_1_0_0_1_n_n 1024 rfl rfl).symm]
  refine Finset.sum_congr rfl fun q _ => ?_
  have e := contrEquiv1_symm_val dot_S512x1024_S1024x256_S512x256_1_0_0_1_n_n 1024 rfl rfl q
  congr 1
  · refine congrArg A (funext fun a => ?_)
    match a with
    | ⟨0, _⟩ => exact Fin.ext rfl
    | ⟨1, _⟩ => exact Fin.ext e
  · refine congrArg S (funext fun a => ?_)
    match a with
    | ⟨0, _⟩ => exact Fin.ext e
    | ⟨1, _⟩ => exact Fin.ext rfl

/-- The zero fill is 0. -/
theorem pay1_1_at (a : S512x256.Idx) : (k1_pay1 (F := Ideal)) a = 0 := by
  unfold k1_pay1
  simp only [shapeCast_self]
  show Ideal.ofBits .f32 0x00000000#32 = 0
  exact Ideal.ofBits_zero_f32

/-- One step at an entry. -/
theorem accStep1_at (i : grid1.Coords) (s : Vec Ideal S512x256 .f32) (x0 : Vec Ideal S512x1024 .bf16) (x1 : Vec Ideal S4096x256 .bf16) (a : S512x256.Idx) :
    accStep1 (F := Ideal) i s x0 x1 a = s a + ∑ q : Fin 1024, x0 (ix2 (a 0) q) * x1 ((sl1 i).idx (ix2 q (a 1))) := by
  unfold accStep1 k1_pay2
  simp only [shapeCast_self]
  rw [addf_apply, matmulR1_at, View.ld_unit_zero hz2]

/-! ## Where the blocks and the slice sit, decided over the grid -/

theorem hoffR1 : ∀ t : Fin cfg1.N, k1_off1 (grid1.coords t) = ![1024 * (t.val % 4), 0] :=
  (by decide +kernel : ∀ t : Fin grid1.N, k1_off1 (grid1.coords t) = ![1024 * (t.val % 4), 0])
theorem idxR1_0 : ∀ t : Fin cfg1.N, win1_0.index t (0 : Fin 2) = t.val / 4 ∧ win1_0.index t (1 : Fin 2) = t.val % 4 :=
  (by decide +kernel : ∀ t : Fin grid1.N, win1_0.index t (0 : Fin 2) = t.val / 4 ∧ win1_0.index t (1 : Fin 2) = t.val % 4)
theorem idxR1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- The adjacency block of point t is rows 512·(t/4) … and columns 1024·(t%4) … of the adjacency. -/
theorem B1_0_at (c : Dev nD) (t : Fin cfg1.N) (x : S512x1024.Idx) (y : S4096x4096.Idx)
    (h0 : (y (0 : Fin 2)).val = 512 * (t.val / 4) + (x (0 : Fin 2)).val) (h1 : (y (1 : Fin 2)).val = 1024 * (t.val % 4) + (x (1 : Fin 2)).val) :
    B1_0 V c t x = V c main_arg1 y := by
  obtain ⟨e0, e1⟩ := idxR1_0 t
  show V c main_arg1 (((cfg1.win 0).blk t).view.emb x) = V c main_arg1 y
  refine congrArg (V c main_arg1) (funext fun a => Fin.ext ?_)
  match a with
  | ⟨0, _⟩ => show win1_0.index t (0 : Fin 2) * 512 + 1 * (x (0 : Fin 2)).val = (y (0 : Fin 2)).val; omega
  | ⟨1, _⟩ => show win1_0.index t (1 : Fin 2) * 1024 + 1 * (x (1 : Fin 2)).val = (y (1 : Fin 2)).val; omega

/-- The resident operand's block is the whole array. -/
theorem B1_1_at (c : Dev nD) (t : Fin cfg1.N) (x : S4096x256.Idx) : B1_1 V c t x = V c main_v0 x := by
  obtain ⟨e0, e1⟩ := idxR1_1 t
  show V c main_v0 (((cfg1.win 1).blk t).view.emb x) = V c main_v0 x
  refine congrArg (V c main_v0) (funext fun a => Fin.ext ?_)
  match a with
  | ⟨0, _⟩ => show win1_1.index t (0 : Fin 2) * 4096 + 1 * (x (0 : Fin 2)).val = (x (0 : Fin 2)).val; omega
  | ⟨1, _⟩ => show win1_1.index t (1 : Fin 2) * 256 + 1 * (x (1 : Fin 2)).val = (x (1 : Fin 2)).val; omega

/-- The slice read at point t is rows 1024·(t%4) … of the resident operand. -/
theorem sl1_idx (t : Fin cfg1.N) (z : S1024x256.Idx) (y : S4096x256.Idx)
    (h0 : (y (0 : Fin 2)).val = 1024 * (t.val % 4) + (z (0 : Fin 2)).val) (h1 : (y (1 : Fin 2)).val = (z (1 : Fin 2)).val) :
    (sl1 (grid1.coords t)).idx z = y := by
  have ho := hoffR1 t
  funext a
  apply Fin.ext
  match a with
  | ⟨0, _⟩ =>
    show k1_off1 (grid1.coords t) (0 : Fin 2) + 1 * (z (0 : Fin 2)).val = (y (0 : Fin 2)).val
    rw [ho]; simp; omega
  | ⟨1, _⟩ =>
    show k1_off1 (grid1.coords t) (1 : Fin 2) + 1 * (z (1 : Fin 2)).val = (y (1 : Fin 2)).val
    rw [ho]; simp; omega

/-- One term of a step, read off the two arrays. -/
theorem term1_at (c : Dev nD) (t : Fin cfg1.N) (a : S512x256.Idx) (q : Fin 1024) (r : Fin 4096) (n : Fin 4096)
    (hr : r.val = 512 * (t.val / 4) + (a (0 : Fin 2)).val) (hn : n.val = 1024 * (t.val % 4) + q.val) :
    B1_0 V c t (ix2 (a 0) q) * B1_1 V c t ((sl1 (grid1.coords t)).idx (ix2 q (a 1)))
      = AdjR1 V c (ix2 r n) * Res1 V c (ix2 n (a 1)) := by
  rw [B1_0_at V c t (ix2 (a 0) q) (ix2 r n) hr hn, B1_1_at, sl1_idx t (ix2 q (a 1)) (ix2 n (a 1)) hn rfl]

theorem accN1_congr (c : Dev nD) (n n' : ℕ) (h : n = n') (hn : n < 32) (hn' : n' < 32) : accN1 V c n hn = accN1 V c n' hn' := by
  subst h; rfl

/-- THE WHOLE CONTRACTION. After k = 3 of row block j the accumulator at (a, l) is the sum over all 4096 indices. -/
theorem accN1_full (c : Dev nD) (j : ℕ) (hj : j < 8) (a : S512x256.Idx) (r : Fin 4096) (hr : r.val = 512 * j + (a (0 : Fin 2)).val) :
    accN1 V c (4 * j + 3) (by omega) a = ∑ q : Fin 4096, AdjR1 V c (ix2 r q) * Res1 V c (ix2 q (a 1)) := by
  have h0 : 4 * j < 32 := by omega
  have h1 : 4 * j + 1 < 32 := by omega
  have h2 : 4 * j + 2 < 32 := by omega
  have h3 : 4 * j + 3 < 32 := by omega
  have e3 : accN1 V c (4 * j + 3) h3 = accStep1 (grid1.coords (pt1 (4 * j + 3) h3)) (accN1 V c (4 * j + 2) h2) (B1_0 V c (pt1 (4 * j + 3) h3)) (B1_1 V c (pt1 (4 * j + 3) h3)) :=
    (accN1_next V c (pt1 (4 * j + 3) h3) (by show ¬ (4 * j + 3) % 4 = 0; omega)).trans
      (congrArg (fun s => accStep1 _ s _ _) (accN1_congr V c _ _ (by show 4 * j + 3 - 1 = 4 * j + 2; omega) _ _))
  have e2 : accN1 V c (4 * j + 2) h2 = accStep1 (grid1.coords (pt1 (4 * j + 2) h2)) (accN1 V c (4 * j + 1) h1) (B1_0 V c (pt1 (4 * j + 2) h2)) (B1_1 V c (pt1 (4 * j + 2) h2)) :=
    (accN1_next V c (pt1 (4 * j + 2) h2) (by show ¬ (4 * j + 2) % 4 = 0; omega)).trans
      (congrArg (fun s => accStep1 _ s _ _) (accN1_congr V c _ _ (by show 4 * j + 2 - 1 = 4 * j + 1; omega) _ _))
  have e1 : accN1 V c (4 * j + 1) h1 = accStep1 (grid1.coords (pt1 (4 * j + 1) h1)) (accN1 V c (4 * j) h0) (B1_0 V c (pt1 (4 * j + 1) h1)) (B1_1 V c (pt1 (4 * j + 1) h1)) :=
    (accN1_next V c (pt1 (4 * j + 1) h1) (by show ¬ (4 * j + 1) % 4 = 0; omega)).trans
      (congrArg (fun s => accStep1 _ s _ _) (accN1_congr V c _ _ (by show 4 * j + 1 - 1 = 4 * j; omega) _ _))
  have e0 : accN1 V c (4 * j) h0 = accStep1 (grid1.coords (pt1 (4 * j) h0)) (k1_pay1 (F := Ideal)) (B1_0 V c (pt1 (4 * j) h0)) (B1_1 V c (pt1 (4 * j) h0)) :=
    accN1_first V c (pt1 (4 * j) h0) (by show (4 * j) % 4 = 0; omega)
  rw [e3, accStep1_at, e2, accStep1_at, e1, accStep1_at, e0, accStep1_at, pay1_1_at]
  -- the terms as one function of the contraction index, extended by 0 past 4096
  let g : ℕ → EReal := fun n => if h : n < 4096 then AdjR1 V c (ix2 r ⟨n, h⟩) * Res1 V c (ix2 ⟨n, h⟩ (a 1)) else 0
  have hg : ∀ (n : ℕ) (h : n < 4096), g n = AdjR1 V c (ix2 r ⟨n, h⟩) * Res1 V c (ix2 ⟨n, h⟩ (a 1)) := fun n h => dif_pos h
  have c0 : ∑ q : Fin 1024, B1_0 V c (pt1 (4 * j) h0) (ix2 (a 0) q) * B1_1 V c (pt1 (4 * j) h0) ((sl1 (grid1.coords (pt1 (4 * j) h0))).idx (ix2 q (a 1)))
      = ∑ q : Fin 1024, g q.val :=
    Finset.sum_congr rfl fun q _ => by
      have hq := q.isLt
      rw [hg q.val (by omega)]
      exact term1_at V c (pt1 (4 * j) h0) a q r ⟨q.val, by omega⟩ (by show r.val = 512 * ((4 * j) / 4) + _; omega) (by show q.val = 1024 * ((4 * j) % 4) + q.val; omega)
  have c1 : ∑ q : Fin 1024, B1_0 V c (pt1 (4 * j + 1) h1) (ix2 (a 0) q) * B1_1 V c (pt1 (4 * j + 1) h1) ((sl1 (grid1.coords (pt1 (4 * j + 1) h1))).idx (ix2 q (a 1)))
      = ∑ q : Fin 1024, g (1024 + q.val) :=
    Finset.sum_congr rfl fun q _ => by
      have hq := q.isLt
      rw [hg (1024 + q.val) (by omega)]
      exact term1_at V c (pt1 (4 * j + 1) h1) a q r ⟨1024 + q.val, by omega⟩ (by show r.val = 512 * ((4 * j + 1) / 4) + _; omega) (by show 1024 + q.val = 1024 * ((4 * j + 1) % 4) + q.val; omega)
  have c2 : ∑ q : Fin 1024, B1_0 V c (pt1 (4 * j + 2) h2) (ix2 (a 0) q) * B1_1 V c (pt1 (4 * j + 2) h2) ((sl1 (grid1.coords (pt1 (4 * j + 2) h2))).idx (ix2 q (a 1)))
      = ∑ q : Fin 1024, g (1024 + 1024 + q.val) :=
    Finset.sum_congr rfl fun q _ => by
      have hq := q.isLt
      rw [hg (1024 + 1024 + q.val) (by omega)]
      exact term1_at V c (pt1 (4 * j + 2) h2) a q r ⟨1024 + 1024 + q.val, by omega⟩ (by show r.val = 512 * ((4 * j + 2) / 4) + _; omega) (by show 1024 + 1024 + q.val = 1024 * ((4 * j + 2) % 4) + q.val; omega)
  have c3 : ∑ q : Fin 1024, B1_0 V c (pt1 (4 * j + 3) h3) (ix2 (a 0) q) * B1_1 V c (pt1 (4 * j + 3) h3) ((sl1 (grid1.coords (pt1 (4 * j + 3) h3))).idx (ix2 q (a 1)))
      = ∑ q : Fin 1024, g (1024 + 1024 + 1024 + q.val) :=
    Finset.sum_congr rfl fun q _ => by
      have hq := q.isLt
      rw [hg (1024 + 1024 + 1024 + q.val) (by omega)]
      exact term1_at V c (pt1 (4 * j + 3) h3) a q r ⟨1024 + 1024 + 1024 + q.val, by omega⟩ (by show r.val = 512 * ((4 * j + 3) / 4) + _; omega) (by show 1024 + 1024 + 1024 + q.val = 1024 * ((4 * j + 3) % 4) + q.val; omega)
  rw [c0, c1, c2, c3, ← Cert.LibChunkSum.sum_four_chunks 1024 g]
  exact Finset.sum_congr rfl fun q _ => hg q.val q.isLt

end Cert.ReferenceIdeal.Hand

end
-- ==== Proof.RI.Acc2.lean ====
/-
  Region 2 of the reference at the ideal values: the accumulator after the four k-steps of row block j is the
  whole contraction. One step adds, at entry (a, l), the sum over q < 1024 of adj[512·j + a, 1024·k + q] times
  res[1024·k + q, l]; the zero fill is 0; so after k = 0, 1, 2, 3 the accumulator holds the sum over all 4096
  contraction indices, by associativity of + alone.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region2
import proofs.«145670_g2000303783144872_pallasbulk_1002_5_alg».proof.Proof.LibChunkSum
import Idealize.ShloMosaic.PureOps.Ideal.Laws
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The adjacency and the resident operand as the region finds them, as arrays of extended reals. -/
abbrev AdjR2 (c : Dev nD) : FVec Ideal S4096x4096 .bf16 := V c main_arg1
abbrev Res2 (c : Dev nD) : FVec Ideal S4096x128 .bf16 := V c main_v1

/-- The block product at an entry, as a sum over the 1024 contraction indices. -/
theorem matmulR2_at (A : FVec Ideal S512x1024 .bf16) (S : FVec Ideal S1024x128 .bf16) (j : S512x128.Idx) :
    matmul dot_S512x1024_S1024x128_S512x128_1_0_0_1_n_n none A S (constant S512x128 .f32 0x00000000#32) j
      = ∑ q : Fin 1024, A (ix2 (j 0) q) * S (ix2 q (j 1)) := by
  simp only [matmul]
  rw [Ideal.matmul_constant_zero_apply]
  rw [← Equiv.sum_comp (contrEquiv1 dot_S512x1024_S1024x128_S512x128_1_0_0_1_n_n 1024 rfl rfl).symm]
  refine Finset.sum_congr rfl fun q _ => ?_
  have e := contrEquiv1_symm_val dot_S512x1024_S1024x128_S512x128_1_0_0_1_n_n 1024 rfl rfl q
  congr 1
  · refine congrArg A (funext fun a => ?_)
    match a with
    | ⟨0, _⟩ => exact Fin.ext rfl
    | ⟨1, _⟩ => exact Fin.ext e
  · refine congrArg S (funext fun a => ?_)
    match a with
    | ⟨0, _⟩ => exact Fin.ext e
    | ⟨1, _⟩ => exact Fin.ext rfl

/-- The zero fill is 0. -/
theorem pay1_2_at (a : S512x128.Idx) : (k2_pay1 (F := Ideal)) a = 0 := by
  unfold k2_pay1
  simp only [shapeCast_self]
  show Ideal.ofBits .f32 0x00000000#32 = 0
  exact Ideal.ofBits_zero_f32

/-- One step at an entry. -/
theorem accStep2_at (i : grid2.Coords) (s : Vec Ideal S512x128 .f32) (x0 : Vec Ideal S512x1024 .bf16) (x1 : Vec Ideal S4096x128 .bf16) (a : S512x128.Idx) :
    accStep2 (F := Ideal) i s x0 x1 a = s a + ∑ q : Fin 1024, x0 (ix2 (a 0) q) * x1 ((sl2 i).idx (ix2 q (a 1))) := by
  unfold accStep2 k2_pay2
  simp only [shapeCast_self]
  rw [addf_apply, matmulR2_at, View.ld_unit_zero hz2]

/-! ## Where the blocks and the slice sit, decided over the grid -/

theorem hoffR2 : ∀ t : Fin cfg2.N, k2_off1 (grid2.coords t) = ![1024 * (t.val % 4), 0] :=
  (by decide +kernel : ∀ t : Fin grid2.N, k2_off1 (grid2.coords t) = ![1024 * (t.val % 4), 0])
theorem idxR2_0 : ∀ t : Fin cfg2.N, win2_0.index t (0 : Fin 2) = t.val / 4 ∧ win2_0.index t (1 : Fin 2) = t.val % 4 :=
  (by decide +kernel : ∀ t : Fin grid2.N, win2_0.index t (0 : Fin 2) = t.val / 4 ∧ win2_0.index t (1 : Fin 2) = t.val % 4)
theorem idxR2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)

/-- The adjacency block of point t is rows 512·(t/4) … and columns 1024·(t%4) … of the adjacency. -/
theorem B2_0_at (c : Dev nD) (t : Fin cfg2.N) (x : S512x1024.Idx) (y : S4096x4096.Idx)
    (h0 : (y (0 : Fin 2)).val = 512 * (t.val / 4) + (x (0 : Fin 2)).val) (h1 : (y (1 : Fin 2)).val = 1024 * (t.val % 4) + (x (1 : Fin 2)).val) :
    B2_0 V c t x = V c main_arg1 y := by
  obtain ⟨e0, e1⟩ := idxR2_0 t
  show V c main_arg1 (((cfg2.win 0).blk t).view.emb x) = V c main_arg1 y
  refine congrArg (V c main_arg1) (funext fun a => Fin.ext ?_)
  match a with
  | ⟨0, _⟩ => show win2_0.index t (0 : Fin 2) * 512 + 1 * (x (0 : Fin 2)).val = (y (0 : Fin 2)).val; omega
  | ⟨1, _⟩ => show win2_0.index t (1 : Fin 2) * 1024 + 1 * (x (1 : Fin 2)).val = (y (1 : Fin 2)).val; omega

/-- The resident operand's block is the whole array. -/
theorem B2_1_at (c : Dev nD) (t : Fin cfg2.N) (x : S4096x128.Idx) : B2_1 V c t x = V c main_v1 x := by
  obtain ⟨e0, e1⟩ := idxR2_1 t
  show V c main_v1 (((cfg2.win 1).blk t).view.emb x) = V c main_v1 x
  refine congrArg (V c main_v1) (funext fun a => Fin.ext ?_)
  match a with
  | ⟨0, _⟩ => show win2_1.index t (0 : Fin 2) * 4096 + 1 * (x (0 : Fin 2)).val = (x (0 : Fin 2)).val; omega
  | ⟨1, _⟩ => show win2_1.index t (1 : Fin 2) * 128 + 1 * (x (1 : Fin 2)).val = (x (1 : Fin 2)).val; omega

/-- The slice read at point t is rows 1024·(t%4) … of the resident operand. -/
theorem sl2_idx (t : Fin cfg2.N) (z : S1024x128.Idx) (y : S4096x128.Idx)
    (h0 : (y (0 : Fin 2)).val = 1024 * (t.val % 4) + (z (0 : Fin 2)).val) (h1 : (y (1 : Fin 2)).val = (z (1 : Fin 2)).val) :
    (sl2 (grid2.coords t)).idx z = y := by
  have ho := hoffR2 t
  funext a
  apply Fin.ext
  match a with
  | ⟨0, _⟩ =>
    show k2_off1 (grid2.coords t) (0 : Fin 2) + 1 * (z (0 : Fin 2)).val = (y (0 : Fin 2)).val
    rw [ho]; simp; omega
  | ⟨1, _⟩ =>
    show k2_off1 (grid2.coords t) (1 : Fin 2) + 1 * (z (1 : Fin 2)).val = (y (1 : Fin 2)).val
    rw [ho]; simp; omega

/-- One term of a step, read off the two arrays. -/
theorem term2_at (c : Dev nD) (t : Fin cfg2.N) (a : S512x128.Idx) (q : Fin 1024) (r : Fin 4096) (n : Fin 4096)
    (hr : r.val = 512 * (t.val / 4) + (a (0 : Fin 2)).val) (hn : n.val = 1024 * (t.val % 4) + q.val) :
    B2_0 V c t (ix2 (a 0) q) * B2_1 V c t ((sl2 (grid2.coords t)).idx (ix2 q (a 1)))
      = AdjR2 V c (ix2 r n) * Res2 V c (ix2 n (a 1)) := by
  rw [B2_0_at V c t (ix2 (a 0) q) (ix2 r n) hr hn, B2_1_at, sl2_idx t (ix2 q (a 1)) (ix2 n (a 1)) hn rfl]

theorem accN2_congr (c : Dev nD) (n n' : ℕ) (h : n = n') (hn : n < 32) (hn' : n' < 32) : accN2 V c n hn = accN2 V c n' hn' := by
  subst h; rfl

/-- THE WHOLE CONTRACTION. After k = 3 of row block j the accumulator at (a, l) is the sum over all 4096 indices. -/
theorem accN2_full (c : Dev nD) (j : ℕ) (hj : j < 8) (a : S512x128.Idx) (r : Fin 4096) (hr : r.val = 512 * j + (a (0 : Fin 2)).val) :
    accN2 V c (4 * j + 3) (by omega) a = ∑ q : Fin 4096, AdjR2 V c (ix2 r q) * Res2 V c (ix2 q (a 1)) := by
  have h0 : 4 * j < 32 := by omega
  have h1 : 4 * j + 1 < 32 := by omega
  have h2 : 4 * j + 2 < 32 := by omega
  have h3 : 4 * j + 3 < 32 := by omega
  have e3 : accN2 V c (4 * j + 3) h3 = accStep2 (grid2.coords (pt2 (4 * j + 3) h3)) (accN2 V c (4 * j + 2) h2) (B2_0 V c (pt2 (4 * j + 3) h3)) (B2_1 V c (pt2 (4 * j + 3) h3)) :=
    (accN2_next V c (pt2 (4 * j + 3) h3) (by show ¬ (4 * j + 3) % 4 = 0; omega)).trans
      (congrArg (fun s => accStep2 _ s _ _) (accN2_congr V c _ _ (by show 4 * j + 3 - 1 = 4 * j + 2; omega) _ _))
  have e2 : accN2 V c (4 * j + 2) h2 = accStep2 (grid2.coords (pt2 (4 * j + 2) h2)) (accN2 V c (4 * j + 1) h1) (B2_0 V c (pt2 (4 * j + 2) h2)) (B2_1 V c (pt2 (4 * j + 2) h2)) :=
    (accN2_next V c (pt2 (4 * j + 2) h2) (by show ¬ (4 * j + 2) % 4 = 0; omega)).trans
      (congrArg (fun s => accStep2 _ s _ _) (accN2_congr V c _ _ (by show 4 * j + 2 - 1 = 4 * j + 1; omega) _ _))
  have e1 : accN2 V c (4 * j + 1) h1 = accStep2 (grid2.coords (pt2 (4 * j + 1) h1)) (accN2 V c (4 * j) h0) (B2_0 V c (pt2 (4 * j + 1) h1)) (B2_1 V c (pt2 (4 * j + 1) h1)) :=
    (accN2_next V c (pt2 (4 * j + 1) h1) (by show ¬ (4 * j + 1) % 4 = 0; omega)).trans
      (congrArg (fun s => accStep2 _ s _ _) (accN2_congr V c _ _ (by show 4 * j + 1 - 1 = 4 * j; omega) _ _))
  have e0 : accN2 V c (4 * j) h0 = accStep2 (grid2.coords (pt2 (4 * j) h0)) (k2_pay1 (F := Ideal)) (B2_0 V c (pt2 (4 * j) h0)) (B2_1 V c (pt2 (4 * j) h0)) :=
    accN2_first V c (pt2 (4 * j) h0) (by show (4 * j) % 4 = 0; omega)
  rw [e3, accStep2_at, e2, accStep2_at, e1, accStep2_at, e0, accStep2_at, pay1_2_at]
  -- the terms as one function of the contraction index, extended by 0 past 4096
  let g : ℕ → EReal := fun n => if h : n < 4096 then AdjR2 V c (ix2 r ⟨n, h⟩) * Res2 V c (ix2 ⟨n, h⟩ (a 1)) else 0
  have hg : ∀ (n : ℕ) (h : n < 4096), g n = AdjR2 V c (ix2 r ⟨n, h⟩) * Res2 V c (ix2 ⟨n, h⟩ (a 1)) := fun n h => dif_pos h
  have c0 : ∑ q : Fin 1024, B2_0 V c (pt2 (4 * j) h0) (ix2 (a 0) q) * B2_1 V c (pt2 (4 * j) h0) ((sl2 (grid2.coords (pt2 (4 * j) h0))).idx (ix2 q (a 1)))
      = ∑ q : Fin 1024, g q.val :=
    Finset.sum_congr rfl fun q _ => by
      have hq := q.isLt
      rw [hg q.val (by omega)]
      exact term2_at V c (pt2 (4 * j) h0) a q r ⟨q.val, by omega⟩ (by show r.val = 512 * ((4 * j) / 4) + _; omega) (by show q.val = 1024 * ((4 * j) % 4) + q.val; omega)
  have c1 : ∑ q : Fin 1024, B2_0 V c (pt2 (4 * j + 1) h1) (ix2 (a 0) q) * B2_1 V c (pt2 (4 * j + 1) h1) ((sl2 (grid2.coords (pt2 (4 * j + 1) h1))).idx (ix2 q (a 1)))
      = ∑ q : Fin 1024, g (1024 + q.val) :=
    Finset.sum_congr rfl fun q _ => by
      have hq := q.isLt
      rw [hg (1024 + q.val) (by omega)]
      exact term2_at V c (pt2 (4 * j + 1) h1) a q r ⟨1024 + q.val, by omega⟩ (by show r.val = 512 * ((4 * j + 1) / 4) + _; omega) (by show 1024 + q.val = 1024 * ((4 * j + 1) % 4) + q.val; omega)
  have c2 : ∑ q : Fin 1024, B2_0 V c (pt2 (4 * j + 2) h2) (ix2 (a 0) q) * B2_1 V c (pt2 (4 * j + 2) h2) ((sl2 (grid2.coords (pt2 (4 * j + 2) h2))).idx (ix2 q (a 1)))
      = ∑ q : Fin 1024, g (1024 + 1024 + q.val) :=
    Finset.sum_congr rfl fun q _ => by
      have hq := q.isLt
      rw [hg (1024 + 1024 + q.val) (by omega)]
      exact term2_at V c (pt2 (4 * j + 2) h2) a q r ⟨1024 + 1024 + q.val, by omega⟩ (by show r.val = 512 * ((4 * j + 2) / 4) + _; omega) (by show 1024 + 1024 + q.val = 1024 * ((4 * j + 2) % 4) + q.val; omega)
  have c3 : ∑ q : Fin 1024, B2_0 V c (pt2 (4 * j + 3) h3) (ix2 (a 0) q) * B2_1 V c (pt2 (4 * j + 3) h3) ((sl2 (grid2.coords (pt2 (4 * j + 3) h3))).idx (ix2 q (a 1)))
      = ∑ q : Fin 1024, g (1024 + 1024 + 1024 + q.val) :=
    Finset.sum_congr rfl fun q _ => by
      have hq := q.isLt
      rw [hg (1024 + 1024 + 1024 + q.val) (by omega)]
      exact term2_at V c (pt2 (4 * j + 3) h3) a q r ⟨1024 + 1024 + 1024 + q.val, by omega⟩ (by show r.val = 512 * ((4 * j + 3) / 4) + _; omega) (by show 1024 + 1024 + 1024 + q.val = 1024 * ((4 * j + 3) % 4) + q.val; omega)
  rw [c0, c1, c2, c3, ← Cert.LibChunkSum.sum_four_chunks 1024 g]
  exact Finset.sum_congr rfl fun q _ => hg q.val q.isLt

end Cert.ReferenceIdeal.Hand

end
-- ==== Proof.RI.Read0.lean ====
/-
  Region 0's input blocks read off the arrays: the block of x at point t is rows 512·t … of x; the block of W1 is
  the whole of W1.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Value0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2' : (![0, 0] : Fin 2 → ℕ) = fun _ => 0 := by funext a; fin_cases a <;> rfl

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem iblk0_0_at (c : Dev nD) (t : Fin cfg0.N) (x : S512x1408.Idx) (y : S4096x1408.Idx)
    (h0 : (y (0 : Fin 2)).val = 512 * t.val + (x (0 : Fin 2)).val) (h1 : (y (1 : Fin 2)).val = (x (1 : Fin 2)).val) :
    iblk0 V c 0 t x = V c main_arg0 y := by
  obtain ⟨e0, e1⟩ := idx0_0 t
  show V c main_arg0 (((cfg0.win 0).blk t).view.emb x) = V c main_arg0 y
  refine congrArg (V c main_arg0) (funext fun a => Fin.ext ?_)
  match a with
  | ⟨0, _⟩ => show win0_0.index t (0 : Fin 2) * 512 + 1 * (x (0 : Fin 2)).val = (y (0 : Fin 2)).val; omega
  | ⟨1, _⟩ => show win0_0.index t (1 : Fin 2) * 1408 + 1 * (x (1 : Fin 2)).val = (y (1 : Fin 2)).val; omega

theorem iblk0_1_at (c : Dev nD) (t : Fin cfg0.N) (x : S1408x256.Idx) : iblk0 V c 1 t x = V c main_arg2 x := by
  obtain ⟨e0, e1⟩ := idx0_1 t
  show V c main_arg2 (((cfg0.win 1).blk t).view.emb x) = V c main_arg2 x
  refine congrArg (V c main_arg2) (funext fun a => Fin.ext ?_)
  match a with
  | ⟨0, _⟩ => show win0_1.index t (0 : Fin 2) * 1408 + 1 * (x (0 : Fin 2)).val = (x (0 : Fin 2)).val; omega
  | ⟨1, _⟩ => show win0_1.index t (1 : Fin 2) * 256 + 1 * (x (1 : Fin 2)).val = (x (1 : Fin 2)).val; omega

/-- The block the body computes, without the store's wrapper: the payload of the two blocks. -/
theorem blk0_eq (c : Dev nD) (t : Fin cfg0.N) : blk0 V c t = k0_pay1 (iblk0 V c 0 t) (iblk0 V c 1 t) := by
  unfold blk0 out0_2
  rw [View.canon_unit_zero hz2']
  simp only [View.ld_unit_zero (S := S512x1408) hz2', View.ld_unit_zero (S := S1408x256) hz2']

end Cert.ReferenceIdeal.Hand

end
-- ==== Proof.RI.ReadW.lean ====
/-
  The reference's bias and weight windows read off the arrays: each holds its whole array at every point.
-/
import proofs.«145670_g2000303783144872_pallasbulk_1002_5_alg».proof.Proof.Gen.ReferenceIdeal.Launch
import proofs.«145670_g2000303783144872_pallasbulk_1002_5_alg».proof.Proof.Gen.ReferenceIdeal.Skeleton
import proofs.«145670_g2000303783144872_pallasbulk_1002_5_alg».proof.Proof.Gen.ReferenceIdeal.Points
import proofs.«145670_g2000303783144872_pallasbulk_1002_5_alg».proof.Proof.RI.Region1
import proofs.«145670_g2000303783144872_pallasbulk_1002_5_alg».proof.Proof.RI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idxR1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem B1_2_at (c : Dev nD) (t : Fin cfg1.N) (x : S1x256.Idx) : B1_2 V c t x = V c main_arg3 x := by
  obtain ⟨e0, e1⟩ := idxR1_2 t
  show V c main_arg3 (((cfg1.win 2).blk t).view.emb x) = V c main_arg3 x
  refine congrArg (V c main_arg3) (funext fun a => Fin.ext ?_)
  match a with
  | ⟨0, _⟩ => show win1_2.index t (0 : Fin 2) * 1 + 1 * (x (0 : Fin 2)).val = (x (0 : Fin 2)).val; omega
  | ⟨1, _⟩ => show win1_2.index t (1 : Fin 2) * 256 + 1 * (x (1 : Fin 2)).val = (x (1 : Fin 2)).val; omega
theorem idxR1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem B1_3_at (c : Dev nD) (t : Fin cfg1.N) (x : S256x128.Idx) : B1_3 V c t x = V c main_arg4 x := by
  obtain ⟨e0, e1⟩ := idxR1_3 t
  show V c main_arg4 (((cfg1.win 3).blk t).view.emb x) = V c main_arg4 x
  refine congrArg (V c main_arg4) (funext fun a => Fin.ext ?_)
  match a with
  | ⟨0, _⟩ => show win1_3.index t (0 : Fin 2) * 256 + 1 * (x (0 : Fin 2)).val = (x (0 : Fin 2)).val; omega
  | ⟨1, _⟩ => show win1_3.index t (1 : Fin 2) * 128 + 1 * (x (1 : Fin 2)).val = (x (1 : Fin 2)).val; omega
theorem idxR2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem B2_2_at (c : Dev nD) (t : Fin cfg2.N) (x : S1x128.Idx) : B2_2 V c t x = V c main_arg5 x := by
  obtain ⟨e0, e1⟩ := idxR2_2 t
  show V c main_arg5 (((cfg2.win 2).blk t).view.emb x) = V c main_arg5 x
  refine congrArg (V c main_arg5) (funext fun a => Fin.ext ?_)
  match a with
  | ⟨0, _⟩ => show win2_2.index t (0 : Fin 2) * 1 + 1 * (x (0 : Fin 2)).val = (x (0 : Fin 2)).val; omega
  | ⟨1, _⟩ => show win2_2.index t (1 : Fin 2) * 128 + 1 * (x (1 : Fin 2)).val = (x (1 : Fin 2)).val; omega

end Cert.ReferenceIdeal.Hand

end
-- ==== Proof.Bridge.lean ====
/-
  The two programs compute one function at the ideal values.

  The kernel's fused second-layer payload is the reference's finishing payload applied to the product contracted
  over all 4096 indices, and likewise for the log-softmax payload: the texts after the product are the same operations.
  The reference's accumulator after k = 3 is that whole contraction (the chunk-sum law). So, array by array: the
  first-layer supports are equal (the same payload of the same blocks), hence the second-layer supports, hence the
  output arrays, hence their 40-lane slices.
-/
import proofs.«145670_g2000303783144872_pallasbulk_1002_5_alg».proof.Proof.KI.Final
import proofs.«145670_g2000303783144872_pallasbulk_1002_5_alg».proof.Proof.KI.Mat
import proofs.«145670_g2000303783144872_pallasbulk_1002_5_alg».proof.Proof.KI.Read0
import proofs.«145670_g2000303783144872_pallasbulk_1002_5_alg».proof.Proof.RI.Final
import proofs.«145670_g2000303783144872_pallasbulk_1002_5_alg».proof.Proof.RI.Acc1
import proofs.«145670_g2000303783144872_pallasbulk_1002_5_alg».proof.Proof.RI.Acc2
import proofs.«145670_g2000303783144872_pallasbulk_1002_5_alg».proof.Proof.RI.Read0
import proofs.«145670_g2000303783144872_pallasbulk_1002_5_alg».proof.Proof.RI.ReadW

set_option maxRecDepth 16384

noncomputable section

namespace Cert.Bridge

open Idealize.ShloMosaic Idealize.ShloMosaic.TcCoe Idealize.ShloMosaic.ValueIdx Idealize.SL.Sem

/-! ## The payloads, side by side -/

/-- The first-layer payload is the same text in both programs. -/
theorem pay_s1 (v0 : Vec Ideal Cert.KernelIdeal.S512x1408 .bf16) (v1 : Vec Ideal Cert.KernelIdeal.S1408x256 .bf16) :
    Cert.ReferenceIdeal.Gen.k0_pay1 (F := Ideal) v0 v1 = Cert.KernelIdeal.Gen.k0_pay1 (F := Ideal) v0 v1 := rfl

/-- The kernel's fused second-layer payload is the reference's finishing payload of the whole product. -/
theorem pay_s2 (v6 : Vec Ideal Cert.KernelIdeal.S512x4096 .bf16) (v12 : Vec Ideal Cert.KernelIdeal.S4096x256 .bf16) (v15 : Vec Ideal Cert.KernelIdeal.S1x256 .f32) (v21 : Vec Ideal Cert.KernelIdeal.S256x128 .bf16) :
    Cert.KernelIdeal.Gen.k1_pay2 (F := Ideal) v6 v12 v15 v21
      = Cert.ReferenceIdeal.Gen.k1_pay3 (F := Ideal) (matmul (F := Ideal) (φ₁ := .bf16) (φ₂ := .bf16) Cert.KernelIdeal.dot_S512x4096_S4096x256_S512x256_1_0_0_1_n_n none v6 v12 (constant (F := Ideal) Cert.KernelIdeal.S512x256 .f32 0x00000000#32)) v15 v21 := by
  unfold Cert.KernelIdeal.Gen.k1_pay2 Cert.ReferenceIdeal.Gen.k1_pay3
  simp only [shapeCast_self]
  rfl

/-- The kernel's log-softmax payload is the reference's of the whole product. -/
theorem pay_out (v9 : Vec Ideal Cert.KernelIdeal.S512x4096 .bf16) (v10 : Vec Ideal Cert.KernelIdeal.S4096x128 .bf16) (v12 : Vec Ideal Cert.KernelIdeal.S1x128 .f32) :
    Cert.KernelIdeal.Gen.k1_pay3 (F := Ideal) v9 v10 v12
      = Cert.ReferenceIdeal.Gen.k2_pay3 (F := Ideal) (matmul (F := Ideal) (φ₁ := .bf16) (φ₂ := .bf16) Cert.KernelIdeal.dot_S512x4096_S4096x128_S512x128_1_0_0_1_n_n none v9 v10 (constant (F := Ideal) Cert.KernelIdeal.S512x128 .f32 0x00000000#32)) v12 := rfl

theorem hz : (![0, 0] : Fin 2 → ℕ) = fun _ => 0 := by funext a; fin_cases a <;> rfl

/-! ## The first-layer support -/

theorem s1_eq (VK : (c : Dev Cert.KernelIdeal.nD) → (b : Ref Cert.KernelIdeal.sig .tc) → Buf (Elt Ideal) ((c : Thread Cert.KernelIdeal.nD Cert.KernelIdeal.τ).loc b)) (VR : (c : Dev Cert.ReferenceIdeal.nD) → (b : Ref Cert.ReferenceIdeal.sig .tc) → Buf (Elt Ideal) ((c : Thread Cert.ReferenceIdeal.nD Cert.ReferenceIdeal.τ).loc b)) (c : Dev Cert.KernelIdeal.nD)
    (h0 : VR c Cert.ReferenceIdeal.main_arg0 = VK c Cert.KernelIdeal.main_arg0) (h2 : VR c Cert.ReferenceIdeal.main_arg2 = VK c Cert.KernelIdeal.main_arg2) :
    Cert.ReferenceIdeal.Hand.s1Arr VR c = Cert.KernelIdeal.Hand.s1Arr VK c := by
  funext y
  have hy0 := idx2_lt0 y
  have hj : (y (0 : Fin 2)).val / 512 < 8 := by omega
  show Cert.ReferenceIdeal.Hand.blk0 VR c (Cert.ReferenceIdeal.Hand.pt0 ((y (0 : Fin 2)).val / 512) hj) _ = Cert.KernelIdeal.Hand.blk0 VK c (Cert.KernelIdeal.Hand.pt0 ((y (0 : Fin 2)).val / 512) hj) _
  rw [Cert.ReferenceIdeal.Hand.blk0_eq, Cert.KernelIdeal.Hand.blk0_eq]
  have e0 : Cert.ReferenceIdeal.Hand.iblk0 VR c 0 (Cert.ReferenceIdeal.Hand.pt0 ((y (0 : Fin 2)).val / 512) hj) = Cert.KernelIdeal.Hand.iblk0 VK c 0 (Cert.KernelIdeal.Hand.pt0 ((y (0 : Fin 2)).val / 512) hj) := by
    funext x
    have hx0 := idx2_lt0 x
    have hx1 := idx2_lt1 x
    let z : Cert.KernelIdeal.S4096x1408.Idx := ix2 (⟨512 * ((y (0 : Fin 2)).val / 512) + (x (0 : Fin 2)).val, by omega⟩ : Fin 4096) (⟨(x (1 : Fin 2)).val, hx1⟩ : Fin 1408)
    exact (Cert.ReferenceIdeal.Hand.iblk0_0_at VR c _ x z rfl rfl).trans ((congrFun h0 z).trans (Cert.KernelIdeal.Hand.iblk0_0_at VK c _ x z rfl rfl).symm)
  have e1 : Cert.ReferenceIdeal.Hand.iblk0 VR c 1 (Cert.ReferenceIdeal.Hand.pt0 ((y (0 : Fin 2)).val / 512) hj) = Cert.KernelIdeal.Hand.iblk0 VK c 1 (Cert.KernelIdeal.Hand.pt0 ((y (0 : Fin 2)).val / 512) hj) := by
    funext x
    exact (Cert.ReferenceIdeal.Hand.iblk0_1_at VR c _ x).trans ((congrFun h2 x).trans (Cert.KernelIdeal.Hand.iblk0_1_at VK c _ x).symm)
  rw [e0, e1]
  rfl

/-! ## The second-layer support -/

theorem s2_eq (VK : (c : Dev Cert.KernelIdeal.nD) → (b : Ref Cert.KernelIdeal.sig .tc) → Buf (Elt Ideal) ((c : Thread Cert.KernelIdeal.nD Cert.KernelIdeal.τ).loc b)) (VR : (c : Dev Cert.ReferenceIdeal.nD) → (b : Ref Cert.ReferenceIdeal.sig .tc) → Buf (Elt Ideal) ((c : Thread Cert.ReferenceIdeal.nD Cert.ReferenceIdeal.τ).loc b)) (c : Dev Cert.KernelIdeal.nD)
    (hA : VR c Cert.ReferenceIdeal.main_arg1 = VK c Cert.KernelIdeal.main_arg1) (hS : VR c Cert.ReferenceIdeal.main_v0 = VK c Cert.KernelIdeal.main_v0)
    (hb : VR c Cert.ReferenceIdeal.main_arg3 = VK c Cert.KernelIdeal.main_arg3) (hw : VR c Cert.ReferenceIdeal.main_arg4 = VK c Cert.KernelIdeal.main_arg4) :
    Cert.ReferenceIdeal.Hand.outArr1 VR c = Cert.KernelIdeal.Hand.support VK c := by
  funext y
  have hy0 := idx2_lt0 y
  have hj : (y (0 : Fin 2)).val / 512 < 8 := by omega
  have hjK : (y (0 : Fin 2)).val / 512 < 16 := by omega
  have hjR : 4 * ((y (0 : Fin 2)).val / 512) + 3 < 32 := by omega
  show Cert.ReferenceIdeal.Gen.k1_pay3 (Cert.ReferenceIdeal.Hand.accN1 VR c (4 * ((y (0 : Fin 2)).val / 512) + 3) hjR)
        (View.ld (Cert.ReferenceIdeal.Hand.B1_2 VR c (Cert.ReferenceIdeal.Hand.pt1 _ hjR)) Cert.ReferenceIdeal.Hand.p1_2) (View.ld (Cert.ReferenceIdeal.Hand.B1_3 VR c (Cert.ReferenceIdeal.Hand.pt1 _ hjR)) Cert.ReferenceIdeal.Hand.p1_3) _
      = Cert.KernelIdeal.Gen.k1_pay2 (View.ld (Cert.KernelIdeal.Hand.B0 VK c (Cert.KernelIdeal.Hand.pt _ hjK)) Cert.KernelIdeal.Hand.q1_0) (View.ld (Cert.KernelIdeal.Hand.B1 VK c (Cert.KernelIdeal.Hand.pt _ hjK)) Cert.KernelIdeal.Hand.q1_1)
          (View.ld (Cert.KernelIdeal.Hand.B2 VK c (Cert.KernelIdeal.Hand.pt _ hjK)) Cert.KernelIdeal.Hand.q1_2) (View.ld (Cert.KernelIdeal.Hand.B3 VK c (Cert.KernelIdeal.Hand.pt _ hjK)) Cert.KernelIdeal.Hand.q1_3) _
  rw [pay_s2]
  simp only [View.ld_unit_zero (S := Cert.KernelIdeal.S512x4096) hz, View.ld_unit_zero (S := Cert.KernelIdeal.S4096x256) hz, View.ld_unit_zero (S := Cert.KernelIdeal.S1x256) hz, View.ld_unit_zero (S := Cert.KernelIdeal.S256x128) hz]
  have eacc : Cert.ReferenceIdeal.Hand.accN1 VR c (4 * ((y (0 : Fin 2)).val / 512) + 3) hjR
      = matmul (F := Ideal) (φ₁ := .bf16) (φ₂ := .bf16) Cert.KernelIdeal.dot_S512x4096_S4096x256_S512x256_1_0_0_1_n_n none (Cert.KernelIdeal.Hand.B0 VK c (Cert.KernelIdeal.Hand.pt _ hjK)) (Cert.KernelIdeal.Hand.B1 VK c (Cert.KernelIdeal.Hand.pt _ hjK)) (constant (F := Ideal) Cert.KernelIdeal.S512x256 .f32 0x00000000#32) := by
    funext a
    have ha0 := idx2_lt0 a
    rw [Cert.ReferenceIdeal.Hand.accN1_full VR c _ hj a ⟨512 * ((y (0 : Fin 2)).val / 512) + (a (0 : Fin 2)).val, by omega⟩ rfl, Cert.KernelIdeal.Hand.matmulK256_at]
    refine Finset.sum_congr rfl fun q _ => ?_
    rw [Cert.KernelIdeal.Hand.B0_at VK c (Cert.KernelIdeal.Hand.pt _ hjK) hj (ix2 (a 0) q) (ix2 ⟨512 * ((y (0 : Fin 2)).val / 512) + (a (0 : Fin 2)).val, by omega⟩ q) rfl rfl, Cert.KernelIdeal.Hand.B1_at]
    unfold Cert.ReferenceIdeal.Hand.AdjR1 Cert.ReferenceIdeal.Hand.Res1
    rw [hA, hS]
  have eb : Cert.ReferenceIdeal.Hand.B1_2 VR c (Cert.ReferenceIdeal.Hand.pt1 _ hjR) = Cert.KernelIdeal.Hand.B2 VK c (Cert.KernelIdeal.Hand.pt _ hjK) := by
    funext x
    exact (Cert.ReferenceIdeal.Hand.B1_2_at VR c _ x).trans ((congrFun hb x).trans (Cert.KernelIdeal.Hand.B2_at VK c _ x).symm)
  have ew : Cert.ReferenceIdeal.Hand.B1_3 VR c (Cert.ReferenceIdeal.Hand.pt1 _ hjR) = Cert.KernelIdeal.Hand.B3 VK c (Cert.KernelIdeal.Hand.pt _ hjK) := by
    funext x
    exact (Cert.ReferenceIdeal.Hand.B1_3_at VR c _ x).trans ((congrFun hw x).trans (Cert.KernelIdeal.Hand.B3_at VK c _ x).symm)
  rw [eacc, eb, ew]

/-! ## The output array -/

theorem out_eq (VK : (c : Dev Cert.KernelIdeal.nD) → (b : Ref Cert.KernelIdeal.sig .tc) → Buf (Elt Ideal) ((c : Thread Cert.KernelIdeal.nD Cert.KernelIdeal.τ).loc b)) (VR : (c : Dev Cert.ReferenceIdeal.nD) → (b : Ref Cert.ReferenceIdeal.sig .tc) → Buf (Elt Ideal) ((c : Thread Cert.ReferenceIdeal.nD Cert.ReferenceIdeal.τ).loc b)) (c : Dev Cert.KernelIdeal.nD)
    (hA : VR c Cert.ReferenceIdeal.main_arg1 = VK c Cert.KernelIdeal.main_arg1) (hS : VR c Cert.ReferenceIdeal.main_v1 = Cert.KernelIdeal.Hand.support VK c)
    (hb : VR c Cert.ReferenceIdeal.main_arg5 = VK c Cert.KernelIdeal.main_arg5) :
    Cert.ReferenceIdeal.Hand.outArr2 VR c = Cert.KernelIdeal.Hand.outArr VK c := by
  funext y
  have hy0 := idx2_lt0 y
  have hj : (y (0 : Fin 2)).val / 512 < 8 := by omega
  have hjK : 8 + (y (0 : Fin 2)).val / 512 < 16 := by omega
  have hjR : 4 * ((y (0 : Fin 2)).val / 512) + 3 < 32 := by omega
  show Cert.ReferenceIdeal.Gen.k2_pay3 (Cert.ReferenceIdeal.Hand.accN2 VR c (4 * ((y (0 : Fin 2)).val / 512) + 3) hjR) (View.ld (Cert.ReferenceIdeal.Hand.B2_2 VR c (Cert.ReferenceIdeal.Hand.pt2 _ hjR)) Cert.ReferenceIdeal.Hand.p2_2) _
      = Cert.KernelIdeal.Hand.out1_5 VK c (Cert.KernelIdeal.Hand.pt _ hjK) _
  rw [Cert.KernelIdeal.Hand.out1_5_eq, pay_out, Cert.KernelIdeal.Hand.blkPay1_eq]
  simp only [View.ld_unit_zero (S := Cert.KernelIdeal.S1x128) hz]
  have hjK' : (Cert.KernelIdeal.Hand.pt (8 + (y (0 : Fin 2)).val / 512) hjK).val - 8 < 8 := by
    show 8 + (y (0 : Fin 2)).val / 512 - 8 < 8
    omega
  have eacc : Cert.ReferenceIdeal.Hand.accN2 VR c (4 * ((y (0 : Fin 2)).val / 512) + 3) hjR
      = matmul (F := Ideal) (φ₁ := .bf16) (φ₂ := .bf16) Cert.KernelIdeal.dot_S512x4096_S4096x128_S512x128_1_0_0_1_n_n none
          (Cert.KernelIdeal.Hand.B0 VK c (Cert.KernelIdeal.Hand.pt ((Cert.KernelIdeal.Hand.pt (8 + (y (0 : Fin 2)).val / 512) hjK).val - 8) (lt_of_le_of_lt (Nat.sub_le _ _) (Cert.KernelIdeal.Hand.val_lt _))))
          (Cert.KernelIdeal.Hand.support VK c) (constant (F := Ideal) Cert.KernelIdeal.S512x128 .f32 0x00000000#32) := by
    funext a
    have ha0 := idx2_lt0 a
    rw [Cert.ReferenceIdeal.Hand.accN2_full VR c _ hj a ⟨512 * ((y (0 : Fin 2)).val / 512) + (a (0 : Fin 2)).val, by omega⟩ rfl, Cert.KernelIdeal.Hand.matmulK128_at]
    refine Finset.sum_congr rfl fun q _ => ?_
    rw [Cert.KernelIdeal.Hand.B0_at VK c _ hjK' (ix2 (a 0) q) (ix2 ⟨512 * ((y (0 : Fin 2)).val / 512) + (a (0 : Fin 2)).val, by omega⟩ q)
      (by show 512 * ((y (0 : Fin 2)).val / 512) + (a (0 : Fin 2)).val = 512 * (8 + (y (0 : Fin 2)).val / 512 - 8) + (a (0 : Fin 2)).val; omega) rfl]
    unfold Cert.ReferenceIdeal.Hand.AdjR2 Cert.ReferenceIdeal.Hand.Res2
    rw [hA, hS]
  have eb : Cert.ReferenceIdeal.Hand.B2_2 VR c (Cert.ReferenceIdeal.Hand.pt2 _ hjR) = Cert.KernelIdeal.Hand.B4 VK c (Cert.KernelIdeal.Hand.pt _ hjK) := by
    funext x
    exact (Cert.ReferenceIdeal.Hand.B2_2_at VR c _ x).trans ((congrFun hb x).trans (Cert.KernelIdeal.Hand.B4_at VK c _ x).symm)
  rw [eacc, eb]

end Cert.Bridge

end
-- ==== Proof.Alg.lean ====
/-
  The algebraic conjunct: both programs run, and from memories that agree on the arguments the reference's result
  buffer equals the kernel's. The result of each run is read off the last boundary's contents; the equality is the
  chain first-layer support, second-layer support, output array, slice.
-/
import proofs.«145670_g2000303783144872_pallasbulk_1002_5_alg».proof.Defs
import proofs.«145670_g2000303783144872_pallasbulk_1002_5_alg».proof.Proof.Bridge
import proofs.«145670_g2000303783144872_pallasbulk_1002_5_alg».proof.Proof.Gen.Pre_finite_inputs

set_option maxRecDepth 16384

noncomputable section

namespace Cert.Bridge

open Idealize.ShloMosaic Idealize.ShloMosaic.TcCoe Idealize.SL.Sem

theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.U4 m' ρ' c (Proc.devRef .tc Cert.ReferenceIdeal.main_v3) = Cert.KernelIdeal.Hand.W4 m ρ c (Proc.devRef .tc Cert.KernelIdeal.main_v2) := by
  rw [Cert.ReferenceIdeal.Hand.U4_main_v3, Cert.KernelIdeal.Hand.W4_main_v2, Cert.ReferenceIdeal.Hand.U3_main_v2, Cert.KernelIdeal.Hand.W3_main_v1]
  have e1 : Cert.ReferenceIdeal.Hand.s1Arr (Cert.ReferenceIdeal.Hand.Vv0 m' ρ') c = Cert.KernelIdeal.Hand.s1Arr (Cert.KernelIdeal.Hand.V1 m ρ) c := s1_eq (Cert.KernelIdeal.Hand.V1 m ρ) (Cert.ReferenceIdeal.Hand.Vv0 m' ρ') c h0 h2
  have e2 : Cert.ReferenceIdeal.Hand.outArr1 (Cert.ReferenceIdeal.Hand.Vv1 m' ρ') c = Cert.KernelIdeal.Hand.support (Cert.KernelIdeal.Hand.V2 m ρ) c :=
    s2_eq (Cert.KernelIdeal.Hand.V2 m ρ) (Cert.ReferenceIdeal.Hand.Vv1 m' ρ') c
      ((Cert.ReferenceIdeal.Hand.Vv1_main_arg1 m' ρ' c).trans (h1.trans (Cert.KernelIdeal.Hand.V2_main_arg1 m ρ c).symm))
      ((Cert.ReferenceIdeal.Hand.Vv1_main_v0 m' ρ' c).trans (e1.trans (Cert.KernelIdeal.Hand.V2_main_v0 m ρ c).symm))
      ((Cert.ReferenceIdeal.Hand.Vv1_main_arg3 m' ρ' c).trans (h3.trans (Cert.KernelIdeal.Hand.V2_main_arg3 m ρ c).symm))
      ((Cert.ReferenceIdeal.Hand.Vv1_main_arg4 m' ρ' c).trans (h4.trans (Cert.KernelIdeal.Hand.V2_main_arg4 m ρ c).symm))
  have e3 : Cert.ReferenceIdeal.Hand.outArr2 (Cert.ReferenceIdeal.Hand.Vv2 m' ρ') c = Cert.KernelIdeal.Hand.outArr (Cert.KernelIdeal.Hand.V2 m ρ) c :=
    out_eq (Cert.KernelIdeal.Hand.V2 m ρ) (Cert.ReferenceIdeal.Hand.Vv2 m' ρ') c
      ((Cert.ReferenceIdeal.Hand.Vv2_main_arg1 m' ρ' c).trans (h1.trans (Cert.KernelIdeal.Hand.V2_main_arg1 m ρ c).symm))
      ((Cert.ReferenceIdeal.Hand.Vv2_main_v1 m' ρ' c).trans e2)
      ((Cert.ReferenceIdeal.Hand.Vv2_main_arg5 m' ρ' c).trans (h5.trans (Cert.KernelIdeal.Hand.V2_main_arg5 m ρ c).symm))
  rw [e3]

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.W4 m ρ c (Proc.devRef .tc Cert.KernelIdeal.main_v2), ?_, ?_⟩
  · exact (θ_run Cert.KernelIdeal.defs _ _).mono (fun _ h c =>
      ⟨h c _ (Cert.KernelIdeal.Hand.mem_uc Cert.KernelIdeal.main_v2 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c)⟩) (Cert.KernelIdeal.Hand.run_all m ρ)
  · exact (θ_run Cert.ReferenceIdeal.defs _ _).mono (fun _ h c =>
      ⟨(h c _ (Cert.ReferenceIdeal.Hand.mem_uc Cert.ReferenceIdeal.main_v3 (by decide))).trans
          (value_eq m ρ m' ρ' c (hagree c).1 (hagree c).2.1 (hagree c).2.2.1 (hagree c).2.2.2.1 (hagree c).2.2.2.2.1 (hagree c).2.2.2.2.2),
       (h c _ (Cert.ReferenceIdeal.Hand.mem_uc Cert.ReferenceIdeal.main_arg0 (by decide))).trans (Cert.ReferenceIdeal.Hand.Ufin_main_arg0 m' ρ' c),
       (h c _ (Cert.ReferenceIdeal.Hand.mem_uc Cert.ReferenceIdeal.main_arg1 (by decide))).trans (Cert.ReferenceIdeal.Hand.Ufin_main_arg1 m' ρ' c),
       (h c _ (Cert.ReferenceIdeal.Hand.mem_uc Cert.ReferenceIdeal.main_arg2 (by decide))).trans (Cert.ReferenceIdeal.Hand.Ufin_main_arg2 m' ρ' c),
       (h c _ (Cert.ReferenceIdeal.Hand.mem_uc Cert.ReferenceIdeal.main_arg3 (by decide))).trans (Cert.ReferenceIdeal.Hand.Ufin_main_arg3 m' ρ' c),
       (h c _ (Cert.ReferenceIdeal.Hand.mem_uc Cert.ReferenceIdeal.main_arg4 (by decide))).trans (Cert.ReferenceIdeal.Hand.Ufin_main_arg4 m' ρ' c),
       (h c _ (Cert.ReferenceIdeal.Hand.mem_uc Cert.ReferenceIdeal.main_arg5 (by decide))).trans (Cert.ReferenceIdeal.Hand.Ufin_main_arg5 m' ρ' c)⟩) (Cert.ReferenceIdeal.Hand.run_all m' ρ')

end Cert.Bridge

end
-- ==== Proof.lean ====
/-
  The certificate of a two-layer graph convolution with log-softmax, out = log_softmax(adj · relu(adj · (x · W1) + b1) · W2 + b2),
  computed by a kernel that caches the adjacency between the two convolutions, against a reference that streams it
  twice and accumulates each product over four blocks of 1024 contraction indices.

  Frames. Each program is a sequence of kernel regions and one host slice. For every region the body is run
  symbolically at a generic grid point, under an invariant on the buffers the kernel carries between points: for
  the caching kernel, that the rows already visited of the adjacency cache and of the second-layer support hold the
  blocks computed at the earlier points; for the reference's accumulating kernels, that the accumulator holds the
  partial sum of the point before. The launch theorem then gives termination without fault and every unscoped
  buffer's final contents, from which the argument arrays are read back unchanged.

  Values. At the ideal instance both programs compute the same function of the arguments: format changes are the
  identity, the cache holds the adjacency itself, and a product contracted over 4096 indices is the left-to-right
  accumulation from zero of the four products over consecutive chunks of 1024 indices, by associativity of addition
  on the extended reals alone; no finiteness of the inputs is used. The operations after each product (bias, relu,
  the second product; bias, lane mask, row maximum, exponential, row sum, logarithm) are the same on both sides
  and are carried unopened.
-/
import proofs.«145670_g2000303783144872_pallasbulk_1002_5_alg».proof.Defs
import proofs.«145670_g2000303783144872_pallasbulk_1002_5_alg».proof.Proof.Gen.Kernel
import proofs.«145670_g2000303783144872_pallasbulk_1002_5_alg».proof.Proof.Gen.KernelIdeal
import proofs.«145670_g2000303783144872_pallasbulk_1002_5_alg».proof.Proof.Gen.ReferenceIdeal
import proofs.«145670_g2000303783144872_pallasbulk_1002_5_alg».proof.Proof.Gen.Pre_finite_inputs
import proofs.«145670_g2000303783144872_pallasbulk_1002_5_alg».proof.Proof.K.Run
import proofs.«145670_g2000303783144872_pallasbulk_1002_5_alg».proof.Proof.KI.Run
import proofs.«145670_g2000303783144872_pallasbulk_1002_5_alg».proof.Proof.RI.Run
import proofs.«145670_g2000303783144872_pallasbulk_1002_5_alg».proof.Proof.Alg

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ
theorem frame_ki : @Cert.frame_KernelIdeal Cert.KernelIdeal.Gen.facts Cert.Pre_finite_inputs.Gen.facts :=
  fun m ρ _ => Cert.KernelIdeal.Hand.frame m ρ
theorem frame_ri : @Cert.frame_ReferenceIdeal Cert.ReferenceIdeal.Gen.facts Cert.Pre_finite_inputs.Gen.facts :=
  fun m ρ _ => Cert.ReferenceIdeal.Hand.frame m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
